-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S512x128 : Shape := ⟨2, ![512, 128]⟩
abbrev S512 : Shape := ⟨1, ![512]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S512x128 .f32) (main_arg8 : FVec F S512 .f32) (main_arg9 : FVec F S128 .f32) (main_v33 : IVec S_ 1) : IVec S_ 1 :=
  let main_v34 : FVec F S512x128 .f32 := Host.absf main_arg7
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x128 .f32) (main_arg5 : FVec F S512x128 .f32) (main_arg6 : FVec F S512 .f32) (main_arg7 : FVec F S512x128 .f32) (main_arg8 : FVec F S512 .f32) (main_arg9 : FVec F S128 .f32) (main_v13 : IVec S_ 1) (main_v16 : IVec S10000x10000 1) : IVec S_ 1 :=
  let main_c_5 : IVec S_ 1 := constantI S_ 1 1#1
  let main_v17 : IVec S_ 1 := (fun x v => Host.reduce IntOp.andi x v reducesTo_S10000x10000_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S512x128 .f32 := Host.absf main_arg5
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x128 .f32) (main_arg2 : FVec F S10000x128 .f32) (main_arg3 : FVec F S10000x10000 .f32) (main_arg4 : FVec F S128x128 .f32) (main_arg5 : FVec F S512x128 .f32) (main_arg6 : FVec F S512 .f32) (main_arg7 : FVec F S512x128 .f32) (main_arg8 : FVec F S512 .f32) (main_arg9 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S10000x10000 .f32 := Host.absf main_arg3
  let main_cst_4 : FVec F S_ .f32 := constant S_ .f32 0x7F800000#32
  let main_v15 : FVec F S10000x10000 .f32 := broadcastInDim S10000x10000 ![] bcast_S_S10000x10000 main_cst_4
  let main_v16 : IVec S10000x10000 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S512x128 : Shape := ⟨2, ![512, 128]⟩
abbrev S512 : Shape := ⟨1, ![512]⟩
abbrev S128 : Shape := ⟨1, ![128]⟩
abbrev S128x512 : Shape := ⟨2, ![128, 512]⟩
abbrev S1x512 : Shape := ⟨2, ![1, 512]⟩
abbrev S1x128 : Shape := ⟨2, ![1, 128]⟩
abbrev S2x5000x10000 : Shape := ⟨3, ![2, 5000, 10000]⟩
abbrev S2x5000x128 : Shape := ⟨3, ![2, 5000, 128]⟩
abbrev S1x200x10000 : Shape := ⟨3, ![1, 200, 10000]⟩
abbrev S2x200x128 : Shape := ⟨3, ![2, 200, 128]⟩
abbrev S200x10000 : Shape := ⟨2, ![200, 10000]⟩
abbrev S200x128 : Shape := ⟨2, ![200, 128]⟩
abbrev S200x512 : Shape := ⟨2, ![200, 512]⟩
abbrev S1x200x128 : Shape := ⟨3, ![1, 200, 128]⟩

abbrev nBuf : Space → Nat
  | .hbm => 22
  | .vmem => 19
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x128, .f32⟩
  | .hbm, ⟨3, _⟩ => ⟨S10000x10000, .f32⟩
  | .hbm, ⟨4, _⟩ => ⟨S128x128, .f32⟩
  | .hbm, ⟨5, _⟩ => ⟨S512x128, .f32⟩
  | .hbm, ⟨6, _⟩ => ⟨S512, .f32⟩
  | .hbm, ⟨7, _⟩ => ⟨S512x128, .f32⟩
  | .hbm, ⟨8, _⟩ => ⟨S512, .f32⟩
  | .hbm, ⟨9, _⟩ => ⟨S128, .f32⟩
  | .hbm, ⟨10, _⟩ => ⟨S128x512, .f32⟩
  | .hbm, ⟨11, _⟩ => ⟨S128x512, .f32⟩
  | .hbm, ⟨12, _⟩ => ⟨S512, .f32⟩
  | .hbm, ⟨13, _⟩ => ⟨S1x512, .f32⟩
  | .hbm, ⟨14, _⟩ => ⟨S1x128, .f32⟩
  | .hbm, ⟨15, _⟩ => ⟨S2x5000x10000, .f32⟩
  | .hbm, ⟨16, _⟩ => ⟨S2x5000x128, .f32⟩
  | .hbm, ⟨17, _⟩ => ⟨S2x5000x128, .f32⟩
  | .hbm, ⟨18, _⟩ => ⟨S2x5000x128, .f32⟩
  | .hbm, ⟨19, _⟩ => ⟨S2x5000x128, .f32⟩
  | .hbm, ⟨20, _⟩ => ⟨S10000x128, .f32⟩
  | .hbm, ⟨21, _⟩ => ⟨S10000x128, .f32⟩
  | .local _ .vmem, ⟨0, _⟩ => ⟨S1x200x10000, .f32⟩
  | .local _ .vmem, ⟨1, _⟩ => ⟨S1x200x10000, .f32⟩
  | .local _ .vmem, ⟨2, _⟩ => ⟨S1x200x10000, .f32⟩
  | .local _ .vmem, ⟨3, _⟩ => ⟨S1x200x10000, .f32⟩
  | .local _ .vmem, ⟨4, _⟩ => ⟨S10000x128, .f32⟩
  | .local _ .vmem, ⟨5, _⟩ => ⟨S128x128, .f32⟩
  | .local _ .vmem, ⟨6, _⟩ => ⟨S2x200x128, .f32⟩
  | .local _ .vmem, ⟨7, _⟩ => ⟨S2x200x128, .f32⟩
  | .local _ .vmem, ⟨8, _⟩ => ⟨S2x200x128, .f32⟩
  | .local _ .vmem, ⟨9, _⟩ => ⟨S2x200x128, .f32⟩
  | .local _ .vmem, ⟨10, _⟩ => ⟨S128x512, .f32⟩
  | .local _ .vmem, ⟨11, _⟩ => ⟨S128x512, .f32⟩
  | .local _ .vmem, ⟨12, _⟩ => ⟨S1x512, .f32⟩
  | .local _ .vmem, ⟨13, _⟩ => ⟨S1x128, .f32⟩
  | .local _ .vmem, ⟨14, _⟩ => ⟨S2x200x128, .f32⟩
  | .local _ .vmem, ⟨15, _⟩ => ⟨S2x200x128, .f32⟩
  | .local _ .vmem, ⟨16, _⟩ => ⟨S2x200x128, .f32⟩
  | .local _ .vmem, ⟨17, _⟩ => ⟨S2x200x128, .f32⟩
  | .local _ .vmem, ⟨18, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8_0 : Ref sig .tc := ⟨.hbm, 18, rfl⟩
abbrev main_call0_v8_1 : Ref sig .tc := ⟨.hbm, 19, rfl⟩
abbrev main_v0_0 : Ref sig .tc := ⟨.hbm, 20, rfl⟩
abbrev main_v0_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x200x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x200x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S512x128_S128x512_1_0 : S512x128.Transposes [1, 0] S128x512
  shapeCasts_S512_S1x512 : S512.ShapeCasts S1x512
  shapeCasts_S128_S1x128 : S128.ShapeCasts S1x128
  shapeCasts_S10000x10000_S2x5000x10000 : S10000x10000.ShapeCasts S2x5000x10000
  shapeCasts_S10000x128_S2x5000x128 : S10000x128.ShapeCasts S2x5000x128
  shapeCasts_S2x5000x128_S10000x128 : S2x5000x128.ShapeCasts S10000x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S1x200x10000_S1x200x10000_0_0_0 : ∀ a, (![0, 0, 0] : Fin 3 → Nat) a + S1x200x10000.size a ≤ S1x200x10000.size a
  h_S1x200x10000 : 0 < S1x200x10000.numel
  shapeCasts_S1x200x10000_S200x10000 : S1x200x10000.ShapeCasts S200x10000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S2x200x128_S1x200x128_0_0_0 : ∀ a, (![0, 0, 0] : Fin 3 → Nat) a + S1x200x128.size a ≤ S2x200x128.size a
  h_S1x200x128 : 0 < S1x200x128.numel
  shapeCasts_S1x200x128_S200x128 : S1x200x128.ShapeCasts S200x128
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S200x512 : S1x512.Broadcasts S200x512
  slices_S200x512_o0_0_S200x128 : S200x512.Slices ![0, 0] S200x128
  slices_S200x512_o0_128_S200x128 : S200x512.Slices ![0, 128] S200x128
  slices_S200x512_o0_256_S200x128 : S200x512.Slices ![0, 256] S200x128
  slices_S200x512_o0_384_S200x128 : S200x512.Slices ![0, 384] S200x128
  shapeCasts_S200x128_S1x200x128 : S200x128.ShapeCasts S1x200x128
  inb_S2x200x128_S1x200x128_1_0_0 : ∀ a, (![1, 0, 0] : Fin 3 → Nat) a + S1x200x128.size a ≤ S2x200x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x512_S200x512_1_0_0_1_n_n_wf : DotDims.WF S200x128 S128x512 S200x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x200x10000.size a ≤ S2x5000x10000.size a
  hwx0_0 : ∀ i : grid0.Coords, EltTy.bits .f32 = 32 ∨ (Rect.block (s := S2x5000x10000) S1x200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x200x10000.size a ≤ S2x5000x10000.size a
  hwx0_1 : ∀ i : grid0.Coords, EltTy.bits .f32 = 32 ∨ (Rect.block (s := S2x5000x10000) S1x200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x200x128.size a ≤ S2x5000x128.size a
  hwx0_4 : ∀ i : grid0.Coords, EltTy.bits .f32 = 32 ∨ (Rect.block (s := S2x5000x128) S2x200x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x200x128.size a ≤ S2x5000x128.size a
  hwx0_5 : ∀ i : grid0.Coords, EltTy.bits .f32 = 32 ∨ (Rect.block (s := S2x5000x128) S2x200x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x512.size a ≤ S128x512.size a
  hwx0_6 : ∀ i : grid0.Coords, EltTy.bits .f32 = 32 ∨ (Rect.block (s := S128x512) S128x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x512.size a ≤ S128x512.size a
  hwx0_7 : ∀ i : grid0.Coords, EltTy.bits .f32 = 32 ∨ (Rect.block (s := S128x512) S128x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2x200x128.size a ≤ S2x5000x128.size a
  hwx0_10 : ∀ i : grid0.Coords, EltTy.bits .f32 = 32 ∨ (Rect.block (s := S2x5000x128) S2x200x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2x200x128.size a ≤ S2x5000x128.size a
  hwx0_11 : ∀ i : grid0.Coords, EltTy.bits .f32 = 32 ∨ (Rect.block (s := S2x5000x128) S2x200x128.size (cc0_transform_11 i) (hinb0_11 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x512_S200x512_1_0_0_1_n_n : DotDims S200x128 S128x512 S200x512 where
  lhsContracting := [1]
  rhsContracting := [0]
  lhsNonContracting := [0]
  rhsNonContracting := [1]
  lhsBatch := []
  rhsBatch := []
  wf := dot_S200x128_S128x512_S200x512_1_0_0_1_n_n_wf

abbrev win0_0 : Pipeline.Window sig grid0 :=
  Pipeline.Window.ofSpec (Memref.whole main_call0_v5) S1x200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v5) S1x200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v6) S2x200x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v7) S2x200x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v0) S128x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v1) S128x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v3) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v4) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v8_0) S2x200x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_call0_v8_1) S2x200x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S512x128 : Shape := ⟨2, ![512, 128]⟩
abbrev S512 : Shape := ⟨1, ![512]⟩
abbrev S128 : Shape := ⟨1, ![128]⟩
abbrev S_ : Shape := ⟨0, ![]⟩
abbrev S1x128 : Shape := ⟨2, ![1, 128]⟩
abbrev S128x512 : Shape := ⟨2, ![128, 512]⟩
abbrev S10000x512 : Shape := ⟨2, ![10000, 512]⟩
abbrev S1x512 : Shape := ⟨2, ![1, 512]⟩

abbrev nBuf : Space → Nat
  | .hbm => 63
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x128, .f32⟩
  | .hbm, ⟨3, _⟩ => ⟨S10000x10000, .f32⟩
  | .hbm, ⟨4, _⟩ => ⟨S128x128, .f32⟩
  | .hbm, ⟨5, _⟩ => ⟨S512x128, .f32⟩
  | .hbm, ⟨6, _⟩ => ⟨S512, .f32⟩
  | .hbm, ⟨7, _⟩ => ⟨S512x128, .f32⟩
  | .hbm, ⟨8, _⟩ => ⟨S512, .f32⟩
  | .hbm, ⟨9, _⟩ => ⟨S128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S1x128, .f32⟩
  | .hbm, ⟨16, _⟩ => ⟨S10000x128, .f32⟩
  | .hbm, ⟨17, _⟩ => ⟨S10000x128, .f32⟩
  | .hbm, ⟨18, _⟩ => ⟨S128x512, .f32⟩
  | .hbm, ⟨19, _⟩ => ⟨S10000x512, .f32⟩
  | .hbm, ⟨20, _⟩ => ⟨S1x512, .f32⟩
  | .hbm, ⟨21, _⟩ => ⟨S10000x512, .f32⟩
  | .hbm, ⟨22, _⟩ => ⟨S10000x512, .f32⟩
  | .hbm, ⟨23, _⟩ => ⟨S128x512, .f32⟩
  | .hbm, ⟨24, _⟩ => ⟨S10000x512, .f32⟩
  | .hbm, ⟨25, _⟩ => ⟨S10000x512, .f32⟩
  | .hbm, ⟨26, _⟩ => ⟨S1x512, .f32⟩
  | .hbm, ⟨27, _⟩ => ⟨S10000x512, .f32⟩
  | .hbm, ⟨28, _⟩ => ⟨S10000x512, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S_, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S10000x128, .f32⟩
  | .hbm, ⟨40, _⟩ => ⟨S10000x128, .f32⟩
  | .hbm, ⟨41, _⟩ => ⟨S10000x128, .f32⟩
  | .hbm, ⟨42, _⟩ => ⟨S10000x128, .f32⟩
  | .hbm, ⟨43, _⟩ => ⟨S_, .f32⟩
  | .hbm, ⟨44, _⟩ => ⟨S10000x128, .f32⟩
  | .hbm, ⟨45, _⟩ => ⟨S10000x128, .f32⟩
  | .hbm, ⟨46, _⟩ => ⟨S_, .f32⟩
  | .hbm, ⟨47, _⟩ => ⟨S10000x128, .f32⟩
  | .hbm, ⟨48, _⟩ => ⟨S10000x128, .f32⟩
  | .hbm, ⟨49, _⟩ => ⟨S10000x128, .f32⟩
  | .hbm, ⟨50, _⟩ => ⟨S10000x128, .f32⟩
  | .hbm, ⟨51, _⟩ => ⟨S10000x128, .f32⟩
  | .hbm, ⟨52, _⟩ => ⟨S_, .f32⟩
  | .hbm, ⟨53, _⟩ => ⟨S10000x128, .f32⟩
  | .hbm, ⟨54, _⟩ => ⟨S10000x128, .f32⟩
  | .hbm, ⟨55, _⟩ => ⟨S_, .f32⟩
  | .hbm, ⟨56, _⟩ => ⟨S10000x128, .f32⟩
  | .hbm, ⟨57, _⟩ => ⟨S10000x128, .f32⟩
  | .hbm, ⟨58, _⟩ => ⟨S10000x128, .f32⟩
  | .hbm, ⟨59, _⟩ => ⟨S10000x128, .f32⟩
  | .hbm, ⟨60, _⟩ => ⟨S10000x128, .f32⟩
  | .hbm, ⟨61, _⟩ => ⟨S10000x128, .f32⟩
  | .hbm, ⟨62, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_cst : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_cst_0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_1 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  transposes_S512x128_S128x512_1_0 : S512x128.Transposes [1, 0] S128x512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  slices_S10000x512_S10000x128_0_0 : S10000x512.Slices ![0, 0] S10000x128
  slices_S10000x512_S10000x128_0_128 : S10000x512.Slices ![0, 128] S10000x128
  slices_S10000x512_S10000x128_0_256 : S10000x512.Slices ![0, 256] S10000x128
  slices_S10000x512_S10000x128_0_384 : S10000x512.Slices ![0, 384] S10000x128
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x512_S10000x512_1_0_0_1_n_n_wf : DotDims.WF S10000x128 S128x512 S10000x512 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x512_S10000x512_1_0_0_1_n_n : DotDims S10000x128 S128x512 S10000x512 where
  lhsContracting := [1]
  rhsContracting := [0]
  lhsNonContracting := [0]
  rhsNonContracting := [1]
  lhsBatch := []
  rhsBatch := []
  wf := dot_S10000x128_S128x512_S10000x512_1_0_0_1_n_n_wf

class Facts : Prop extends Facts₀ where

variable [Facts]
-- ==== Proof.BitsFrame.Shared.lean ====
/-
  What the two runs of the kernel body and the proof data share, stated at a parameter `V`: the contents of the
  TensorCore's buffers when the region is entered. A window's block at a grid point is its rectangle of the array read
  off `V`; an input window's staging buffer holds that block at every point, whether the point fetches it or not
  (the six operands whose block index never moves are fetched once, at the first point). The body branches once, on
  "this is the first grid point", which holds exactly at point 0.
-/
import proofs.«129324_g90469191123580_cont_sun_m_503_16_alg».proof.Proof.Gen.Kernel.Launch
import proofs.«129324_g90469191123580_cont_sun_m_503_16_alg».proof.Proof.Gen.Kernel.Skeleton
import proofs.«129324_g90469191123580_cont_sun_m_503_16_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: its rectangle of the array, read off the region-entry contents `V`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched
    point has the block index of the point before it, and the body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: an unfetched
    point has the block index of the point before it, and the body leaves the block in place. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: an unfetched
    point has the block index of the point before it, and the body leaves the block in place. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: an unfetched
    point has the block index of the point before it, and the body leaves the block in place. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: an unfetched
    point has the block index of the point before it, and the body leaves the block in place. -/
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: an unfetched
    point has the block index of the point before it, and the body leaves the block in place. -/
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not: an unfetched
    point has the block index of the point before it, and the body leaves the block in place. -/
theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not: an unfetched
    point has the block index of the point before it, and the body leaves the block in place. -/
theorem before_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not: an unfetched
    point has the block index of the point before it, and the body leaves the block in place. -/
theorem before_8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not: an unfetched
    point has the block index of the point before it, and the body leaves the block in place. -/
theorem before_9_of {c : Dev nD} (dat : Dat τ (Elt F) Unit ℕ (UR sig nD τ) ℕ cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one `scf.if`: the grid coordinate is zero. -/
abbrev cond0 (i : grid0.Coords) : Prop := (Scalar.cmpi .ne (Scalar.extui (Scalar.cmpi .eq (BitVec.ofNat 32 (i 0).val) 0#32)) 0#32) = 1#1
/-- It holds at the first point only — decided over the 25 points. -/
theorem hcond0 : ∀ t : Fin cfg0.N, cond0 (grid0.coords t) ↔ t.val = 0 :=
  (by decide +kernel : ∀ t : Fin grid0.N, cond0 (grid0.coords t) ↔ t.val = 0)

/-! ## The staging memrefs at a point, and the scratch -/

abbrev ms_0 (t : Fin cfg0.N) : Memref sig .tc .vmem S1x200x10000 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x200x10000 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S10000x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S128x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S2x200x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S2x200x128 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S128x512 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S128x512 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S1x512 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1x128 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S2x200x128 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S2x200x128 .f32 := win0_11.stage (cfg0.slots t 11)
abbrev hs_11 (t : Fin cfg0.N) : (ms_11 t).IsWhole := hstage0_11 ((cfg0.slots t 11).cast nbuf0_11)
/-- One staging buffer of each output window, through which its contents are stated (the choice does not matter). -/
abbrev VO_10 : View sig .tc .vmem S2x200x128 .f32 := (Memref.whole cc0_stg10_0 : Memref sig .tc .vmem S2x200x128 .f32).view
abbrev VO_11 : View sig .tc .vmem S2x200x128 .f32 := (Memref.whole cc0_stg11_0 : Memref sig .tc .vmem S2x200x128 .f32).view
/-- The scratch operand: a whole scoped buffer of the kernel's own, which holds the support matrix from the first
    point on. -/
abbrev scM : Memref sig .tc .vmem S10000x128 .f32 := Memref.whole cc0_scratch0
abbrev VS : View sig .tc .vmem S10000x128 .f32 := scM.view

/-- The region invariant every class of kernel starts from — the scoped buffers no window stages, at anything, and the
    generator register — with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Frame

end
-- ==== Proof.BitsFrame.RunA.lean ====
/-
  The kernel body run once AT THE FIRST GRID POINT (the branch taken): on whole staging buffers — the ten inputs' at
  their blocks, the two outputs' and the scratch at anything — it runs to the end, leaves the inputs as they were, and
  leaves in each output's buffer and in the scratch the pieces its stores wrote. The pieces are found by the symbolic
  run itself: the scratch gets one whole store (the support matrix), each output two stores, one per half.
-/
import proofs.«129324_g90469191123580_cont_sun_m_503_16_alg».proof.Proof.BitsFrame.Shared

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, with the pieces each written buffer ends with as its witness. -/
noncomputable def kernelRun_A (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : cond0 i)
    (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) :
    Σ' (L10 : List (View.Piece (Elt F) S2x200x128 .f32)) (L11 : List (View.Piece (Elt F) S2x200x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS)) -∗ K ⟨⟩))
          ⊢ wp frame (wpE (defs₀ (F := F)) Variants.none c none) E (cc0__main_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__main_kernel_eq_skeleton]; unfold cc0__main_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    iexists _; iexact HS

end Cert.Kernel.Frame

end
-- ==== Proof.BitsFrame.RunB.lean ====
/-
  The kernel body run once AT A LATER GRID POINT (the branch not taken): on whole staging buffers — the ten inputs' at
  their blocks, the scratch at the contents `xs` the point before left, the two outputs' at anything — it runs to the
  end, leaves the inputs and the scratch as they were, and leaves in each output's buffer the pieces its stores wrote
  (two stores each, one per half), found by the symbolic run itself.
-/
import proofs.«129324_g90469191123580_cont_sun_m_503_16_alg».proof.Proof.BitsFrame.RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, with the pieces each written buffer ends with as its witness. -/
noncomputable def kernelRun_B (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : ¬cond0 i)
    (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) (xs : Vec F S10000x128 .f32) :
    Σ' (L10 : List (View.Piece (Elt F) S2x200x128 .f32)), { L11 : List (View.Piece (Elt F) S2x200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ owns (c : Thread nD τ) arg13 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ owns (c : Thread nD τ) arg13 fullShare xs) -∗ K ⟨⟩))
          ⊢ wp frame (wpE (defs₀ (F := F)) Variants.none c none) E (cc0__main_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__main_kernel_eq_skeleton]; unfold cc0__main_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hfs
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    iexists _; isplitr; · ipureintro; exact harg13.read_unread _
    iexact HS

end Cert.Kernel.Frame

end
-- ==== Proof.BitsFrame.Data.lean ====
/-
  What each grid point leaves behind, and the pipeline's proof data.

  At the first point the body stores the support matrix `x · g` whole into the scratch and both halves of the two
  output blocks; at every later point it stores the two output blocks only and the scratch keeps what the first point
  left. So the contents after point `n` are a recursion on `n` whose scratch component is constant from point 0 on.
  The adjacency array is handed to the kernel through TWO input windows (the top and the bottom half's stripes): the
  proof data hold it at one half share each; every other array is held whole.
-/
import proofs.«129324_g90469191123580_cont_sun_m_503_16_alg».proof.Proof.BitsFrame.RunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The first point: the pieces cover each written buffer -/

theorem cover_A_10 (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : cond0 i) (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) (y : S2x200x128.Idx) :
    ∃ pc ∈ (kernelRun_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).1 S1x200x128.size (by sl_kernel_rfl) y
theorem cover_A_11 (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : cond0 i) (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) (y : S2x200x128.Idx) :
    ∃ pc ∈ (kernelRun_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).2.1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).2.1 S1x200x128.size (by sl_kernel_rfl) y
theorem scover_A (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : cond0 i) (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) (y : S10000x128.Idx) :
    ∃ pc ∈ (kernelRun_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).2.2.1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).2.2.1 S10000x128.size (by sl_kernel_rfl) y

/-- What the first point leaves in the hidden-state output's buffer: its pieces read back. -/
def out_A_10 (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : cond0 i) (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) : Vec F S2x200x128 .f32 :=
  VO_10.read (Elt F) (VO_10.writes (Elt F) VO_10.junk (kernelRun_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).1)
/-- What the first point leaves in the cell-state output's buffer. -/
def out_A_11 (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : cond0 i) (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) : Vec F S2x200x128 .f32 :=
  VO_11.read (Elt F) (VO_11.writes (Elt F) VO_11.junk (kernelRun_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).2.1)
/-- What the first point leaves in the scratch. -/
def sout_A (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : cond0 i) (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) : Vec F S10000x128 .f32 :=
  VS.read (Elt F) (VS.writes (Elt F) VS.junk (kernelRun_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).2.2.1)

/-! ## A later point -/

theorem cover_B_10 (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : ¬cond0 i) (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) (xs : Vec F S10000x128 .f32) (y : S2x200x128.Idx) :
    ∃ pc ∈ (kernelRun_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs).1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs).1 S1x200x128.size (by sl_kernel_rfl) y
theorem cover_B_11 (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : ¬cond0 i) (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) (xs : Vec F S10000x128 .f32) (y : S2x200x128.Idx) :
    ∃ pc ∈ (kernelRun_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs).2.1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs).2.1 S1x200x128.size (by sl_kernel_rfl) y

def out_B_10 (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : ¬cond0 i) (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) (xs : Vec F S10000x128 .f32) : Vec F S2x200x128 .f32 :=
  VO_10.read (Elt F) (VO_10.writes (Elt F) VO_10.junk (kernelRun_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs).1)
def out_B_11 (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : ¬cond0 i) (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) (xs : Vec F S10000x128 .f32) : Vec F S2x200x128 .f32 :=
  VO_11.read (Elt F) (VO_11.writes (Elt F) VO_11.junk (kernelRun_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs).2.1)

/-! ## What the buffers hold after each point -/

/-- After point `n`: the hidden-state block, the cell-state block, the scratch. The first point runs the branch;
    a later point reads the scratch the point before left and leaves it in place. -/
def outsAt (c : Dev nD) : (n : ℕ) → n < cfg0.N → Vec F S2x200x128 .f32 × Vec F S2x200x128 .f32 × Vec F S10000x128 .f32
  | 0, hn => (out_A_10 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) scM (Memref.isWhole_whole _) ((hcond0 ⟨0, hn⟩).mpr rfl) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩),
      out_A_11 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) scM (Memref.isWhole_whole _) ((hcond0 ⟨0, hn⟩).mpr rfl) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩),
      sout_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) scM (Memref.isWhole_whole _) ((hcond0 ⟨0, hn⟩).mpr rfl) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩))
  | n + 1, hn => (out_B_10 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) scM (Memref.isWhole_whole _) (fun h => Nat.succ_ne_zero n ((hcond0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt c n (Nat.lt_of_succ_lt hn)).2.2,
      out_B_11 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) scM (Memref.isWhole_whole _) (fun h => Nat.succ_ne_zero n ((hcond0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt c n (Nat.lt_of_succ_lt hn)).2.2,
      (outsAt c n (Nat.lt_of_succ_lt hn)).2.2)

theorem outsAt_zero (c : Dev nD) (t : Fin cfg0.N) (h0 : t.val = 0) :
    outsAt V c t.val t.isLt = (out_A_10 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM (Memref.isWhole_whole _) ((hcond0 t).mpr h0) (iblk V c 0 t) (iblk V c 1 t) (iblk V c 2 t) (iblk V c 3 t) (iblk V c 4 t) (iblk V c 5 t) (iblk V c 6 t) (iblk V c 7 t) (iblk V c 8 t) (iblk V c 9 t),
      out_A_11 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM (Memref.isWhole_whole _) ((hcond0 t).mpr h0) (iblk V c 0 t) (iblk V c 1 t) (iblk V c 2 t) (iblk V c 3 t) (iblk V c 4 t) (iblk V c 5 t) (iblk V c 6 t) (iblk V c 7 t) (iblk V c 8 t) (iblk V c 9 t),
      sout_A c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM (Memref.isWhole_whole _) ((hcond0 t).mpr h0) (iblk V c 0 t) (iblk V c 1 t) (iblk V c 2 t) (iblk V c 3 t) (iblk V c 4 t) (iblk V c 5 t) (iblk V c 6 t) (iblk V c 7 t) (iblk V c 8 t) (iblk V c 9 t)) := by
  obtain ⟨n, hn⟩ := t
  cases n with
  | zero => rfl
  | succ n => exact absurd h0 (Nat.succ_ne_zero n)

theorem outsAt_pos (c : Dev nD) (t : Fin cfg0.N) (h0 : ¬t.val = 0) :
    outsAt V c t.val t.isLt = (out_B_10 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM (Memref.isWhole_whole _) (fun h => h0 ((hcond0 t).mp h)) (iblk V c 0 t) (iblk V c 1 t) (iblk V c 2 t) (iblk V c 3 t) (iblk V c 4 t) (iblk V c 5 t) (iblk V c 6 t) (iblk V c 7 t) (iblk V c 8 t) (iblk V c 9 t) (outsAt V c (t.val - 1) (Nat.lt_of_le_of_lt (Nat.sub_le _ _) t.isLt)).2.2,
      out_B_11 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM (Memref.isWhole_whole _) (fun h => h0 ((hcond0 t).mp h)) (iblk V c 0 t) (iblk V c 1 t) (iblk V c 2 t) (iblk V c 3 t) (iblk V c 4 t) (iblk V c 5 t) (iblk V c 6 t) (iblk V c 7 t) (iblk V c 8 t) (iblk V c 9 t) (outsAt V c (t.val - 1) (Nat.lt_of_le_of_lt (Nat.sub_le _ _) t.isLt)).2.2,
      (outsAt V c (t.val - 1) (Nat.lt_of_le_of_lt (Nat.sub_le _ _) t.isLt)).2.2) := by
  obtain ⟨n, hn⟩ := t
  cases n with
  | zero => exact absurd rfl h0
  | succ n => rfl

/-- The region invariant before position `n`: before the first point the scratch is at anything; afterwards at
    what the point before left; the generator register at some state throughout. -/
def PhiS (c : Dev nD) : (n : ℕ) → n ≤ cfg0.N → sProp 𝕄
  | 0, _ => Pipeline.ΦA spec0 c
  | n + 1, hn => iprop(iprop(owns (c : Thread nD τ) scM fullShare ((outsAt V c n hn).2.2)) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare ((outsAt V c n hn).2.2)) ∗ (∃ r, prngReg c r)) := rfl
theorem PhiS_pos (c : Dev nD) (n : ℕ) (h : n ≤ cfg0.N) (hz : n ≠ 0) :
    PhiS V c n h = iprop(iprop(owns (c : Thread nD τ) scM fullShare ((outsAt V c (n - 1) (by omega)).2.2)) ∗ (∃ r, prngReg c r)) := by
  cases n with
  | zero => exact absurd rfl hz
  | succ n => rfl

/-! ## The pipeline's proof data -/

/-- The share of its array an input window holds: the adjacency array is read through windows 0 and 1, half each. -/
def qOf (w : Fin cfg0.W) : PosShare TreeShare :=
  if w.val = 0 then fullShare.left else if w.val = 1 then fullShare.right else fullShare

def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => (outsAt V c t.val t.isLt).1
    | ⟨11, _⟩ => (outsAt V c t.val t.isLt).2.1
  Φ t := PhiS V c t.val (Nat.le_of_lt_succ t.isLt)
  q w := qOf w
  owed _ := 0

theorem A_eq (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = iblk V c 4 t := by dsimp only [dat0]
theorem after_5 (c : Dev nD) (t : Fin cfg0.N) : (dat0 V c).after 5 t = iblk V c 5 t := by dsimp only [dat0]
theorem after_6 (c : Dev nD) (t : Fin cfg0.N) : (dat0 V c).after 6 t = iblk V c 6 t := by dsimp only [dat0]
theorem after_7 (c : Dev nD) (t : Fin cfg0.N) : (dat0 V c).after 7 t = iblk V c 7 t := by dsimp only [dat0]
theorem after_8 (c : Dev nD) (t : Fin cfg0.N) : (dat0 V c).after 8 t = iblk V c 8 t := by dsimp only [dat0]
theorem after_9 (c : Dev nD) (t : Fin cfg0.N) : (dat0 V c).after 9 t = iblk V c 9 t := by dsimp only [dat0]
theorem after_10 (c : Dev nD) (t : Fin cfg0.N) : (dat0 V c).after 10 t = (outsAt V c t.val t.isLt).1 := by dsimp only [dat0]
theorem after_11 (c : Dev nD) (t : Fin cfg0.N) : (dat0 V c).after 11 t = (outsAt V c t.val t.isLt).2.1 := by dsimp only [dat0]

theorem before_0 (c : Dev nD) (t : Fin cfg0.N) (d) : (dat0 V c).before 0 t d = iblk V c 0 t :=
  before_0_of V (dat0 V c) (A_eq V c 0) (after_0 V c) t d
theorem before_1 (c : Dev nD) (t : Fin cfg0.N) (d) : (dat0 V c).before 1 t d = iblk V c 1 t :=
  before_1_of V (dat0 V c) (A_eq V c 1) (after_1 V c) t d
theorem before_2 (c : Dev nD) (t : Fin cfg0.N) (d) : (dat0 V c).before 2 t d = iblk V c 2 t :=
  before_2_of V (dat0 V c) (A_eq V c 2) (after_2 V c) t d
theorem before_3 (c : Dev nD) (t : Fin cfg0.N) (d) : (dat0 V c).before 3 t d = iblk V c 3 t :=
  before_3_of V (dat0 V c) (A_eq V c 3) (after_3 V c) t d
theorem before_4 (c : Dev nD) (t : Fin cfg0.N) (d) : (dat0 V c).before 4 t d = iblk V c 4 t :=
  before_4_of V (dat0 V c) (A_eq V c 4) (after_4 V c) t d
theorem before_5 (c : Dev nD) (t : Fin cfg0.N) (d) : (dat0 V c).before 5 t d = iblk V c 5 t :=
  before_5_of V (dat0 V c) (A_eq V c 5) (after_5 V c) t d
theorem before_6 (c : Dev nD) (t : Fin cfg0.N) (d) : (dat0 V c).before 6 t d = iblk V c 6 t :=
  before_6_of V (dat0 V c) (A_eq V c 6) (after_6 V c) t d
theorem before_7 (c : Dev nD) (t : Fin cfg0.N) (d) : (dat0 V c).before 7 t d = iblk V c 7 t :=
  before_7_of V (dat0 V c) (A_eq V c 7) (after_7 V c) t d
theorem before_8 (c : Dev nD) (t : Fin cfg0.N) (d) : (dat0 V c).before 8 t d = iblk V c 8 t :=
  before_8_of V (dat0 V c) (A_eq V c 8) (after_8 V c) t d
theorem before_9 (c : Dev nD) (t : Fin cfg0.N) (d) : (dat0 V c).before 9 t d = iblk V c 9 t :=
  before_9_of V (dat0 V c) (A_eq V c 9) (after_9 V c) t d

/-! ## The body obligation, at a generic point -/

def bodyPre (c : Dev nD) (t : Fin cfg0.N) : sProp 𝕄 :=
  iprop((dat0 V c).Φ t.castSucc ∗ (dat0 V c).owesAt () t.castSucc
    ∗ (∃ d, owns (c : Thread nD τ) (ms_0 t) fullShare ((dat0 V c).before 0 t d))
    ∗ (∃ d, owns (c : Thread nD τ) (ms_1 t) fullShare ((dat0 V c).before 1 t d))
    ∗ (∃ d, owns (c : Thread nD τ) (ms_2 t) fullShare ((dat0 V c).before 2 t d))
    ∗ (∃ d, owns (c : Thread nD τ) (ms_3 t) fullShare ((dat0 V c).before 3 t d))
    ∗ (∃ d, owns (c : Thread nD τ) (ms_4 t) fullShare ((dat0 V c).before 4 t d))
    ∗ (∃ d, owns (c : Thread nD τ) (ms_5 t) fullShare ((dat0 V c).before 5 t d))
    ∗ (∃ d, owns (c : Thread nD τ) (ms_6 t) fullShare ((dat0 V c).before 6 t d))
    ∗ (∃ d, owns (c : Thread nD τ) (ms_7 t) fullShare ((dat0 V c).before 7 t d))
    ∗ (∃ d, owns (c : Thread nD τ) (ms_8 t) fullShare ((dat0 V c).before 8 t d))
    ∗ (∃ d, owns (c : Thread nD τ) (ms_9 t) fullShare ((dat0 V c).before 9 t d))
    ∗ (∃ d, owns (c : Thread nD τ) (ms_10 t) fullShare ((dat0 V c).before 10 t d))
    ∗ (∃ d, owns (c : Thread nD τ) (ms_11 t) fullShare ((dat0 V c).before 11 t d)))

def bodyPost (c : Dev nD) (t : Fin cfg0.N) : sProp 𝕄 :=
  iprop((dat0 V c).Φ t.succ ∗ (dat0 V c).owesAt () t.succ
    ∗ owns (c : Thread nD τ) (ms_0 t) fullShare ((dat0 V c).after 0 t)
    ∗ owns (c : Thread nD τ) (ms_1 t) fullShare ((dat0 V c).after 1 t)
    ∗ owns (c : Thread nD τ) (ms_2 t) fullShare ((dat0 V c).after 2 t)
    ∗ owns (c : Thread nD τ) (ms_3 t) fullShare ((dat0 V c).after 3 t)
    ∗ owns (c : Thread nD τ) (ms_4 t) fullShare ((dat0 V c).after 4 t)
    ∗ owns (c : Thread nD τ) (ms_5 t) fullShare ((dat0 V c).after 5 t)
    ∗ owns (c : Thread nD τ) (ms_6 t) fullShare ((dat0 V c).after 6 t)
    ∗ owns (c : Thread nD τ) (ms_7 t) fullShare ((dat0 V c).after 7 t)
    ∗ owns (c : Thread nD τ) (ms_8 t) fullShare ((dat0 V c).after 8 t)
    ∗ owns (c : Thread nD τ) (ms_9 t) fullShare ((dat0 V c).after 9 t)
    ∗ owns (c : Thread nD τ) (ms_10 t) fullShare ((dat0 V c).after 10 t)
    ∗ owns (c : Thread nD τ) (ms_11 t) fullShare ((dat0 V c).after 11 t))

set_option maxHeartbeats 4800000 in
/-- The body at any point: the inputs' buffers hold their blocks; the point is the first or a later one; that case's
    run applies; the invariant hands the body the scratch (at anything at the first point, at what the point before left
    afterwards) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9]
  rw [show (dat0 V c).owesAt () t.succ = (dat0 V c).owesAt () t.castSucc from rfl]
  rw [show (dat0 V c).Φ t.succ = PhiS V c (t.val + 1) t.isLt from rfl, PhiS_succ]
  rw [after_0, after_1, after_2, after_3, after_4, after_5, after_6, after_7, after_8, after_9, after_10, after_11]
  by_cases h0 : t.val = 0
  · rw [outsAt_zero V c t h0]
    unfold out_A_10 out_A_11 sout_A; (try dsimp only)
    rw [PhiS_castSucc V c t, PhiS_zero V c _ _ h0, PhiA_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun_A c (grid0.coords t) _ _ _ _ _ _ _ _ _ _ _ _ _ _ _ _ _ _ _ _ _ _ _ _ _ _ ((hcond0 t).mpr h0) (iblk V c 0 t) (iblk V c 1 t) (iblk V c 2 t) (iblk V c 3 t) (iblk V c 4 t) (iblk V c 5 t) (iblk V c 6 t) (iblk V c 7 t) (iblk V c 8 t) (iblk V c 9 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS]; · iexact HS
    iintro ⟨H0, H1, H2, H3, H4, H5, H6, H7, H8, H9, ⟨%e10, H10⟩, ⟨%e11, H11⟩, ⟨%es, HS⟩⟩
    isplitl [HS Hg]
    · isplitl [HS]
      · unfold owns; iexists _; isplitr
        swap; · iexact HS
        ipureintro; exact View.read_writes_of_cover _ _ _ _ _ (scover_A c _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover_A_10 c _ _ _ _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover_A_11 c _ _ _ _ _ _ _ _ _ _ _ _ _ _ _ _ _ _ _ _ _ _ _ _ _ _ _ _ _ _ _ _ _ _ _ _ _ _)
  · rw [outsAt_pos V c t h0]
    unfold out_B_10 out_B_11; (try dsimp only)
    rw [PhiS_castSucc V c t, PhiS_pos V c _ _ h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun_B c (grid0.coords t) _ _ _ _ _ _ _ _ _ _ _ _ _ _ _ _ _ _ _ _ _ _ _ _ _ _ (fun h => h0 ((hcond0 t).mp h)) (iblk V c 0 t) (iblk V c 1 t) (iblk V c 2 t) (iblk V c 3 t) (iblk V c 4 t) (iblk V c 5 t) (iblk V c 6 t) (iblk V c 7 t) (iblk V c 8 t) (iblk V c 9 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS]; · iexact HS
    iintro ⟨H0, H1, H2, H3, H4, H5, H6, H7, H8, H9, ⟨%e10, H10⟩, ⟨%e11, H11⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover_B_10 c _ _ _ _ _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover_B_11 c _ _ _ _ _ _ _ _ _ _ _ _ _ _ _ _ _ _ _ _ _ _ _ _ _ _ _ _ _ _ _ _ _ _ _ _ _ _ _)

/-- The library's body obligation, at every point. -/
theorem body_obligation (c : Dev nD) : BodyObligation (dat0 (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives it back: the scratch's contents are forgotten. -/
theorem hout (c : Dev nD) : (dat0 V c).Φ (Fin.last cfg0.N) ⊢ Pipeline.ΦA spec0 c := by
  have ht : (Fin.last cfg0.N).val ≠ 0 := by rw [Fin.val_last]; have : cfg0.N = 25 := N_0; omega
  rw [show (dat0 V c).Φ (Fin.last cfg0.N) = PhiS V c (Fin.last cfg0.N).val (Nat.le_of_lt_succ (Fin.last cfg0.N).isLt) from rfl, PhiS_pos V c _ _ ht, PhiA_eq]
  iintro ⟨HS, Hg⟩
  isplitl [HS]
  · iexists _; iexact HS
  iexact Hg

end Cert.Kernel.Frame

end
-- ==== Proof.BitsFrame.Arrays.lean ====
/-
  One array under two windows. Windows 0 and 1 are the top and bottom row stripes of a single buffer, so the core's
  unscoped buffers are not one buffer per window: the shared buffer is held at the left half share for window 0 and at
  the right half share for window 1, and every other window's array at the full share. The two entailments below split
  the windows' arrays out of the unscoped buffers and put them back.
-/
import proofs.«129324_g90469191123580_cont_sun_m_503_16_alg».proof.Proof.BitsFrame.Shared

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The eleven distinct buffers behind the twelve windows' arrays: window 0's is window 1's, the others differ. -/
abbrev arrList : List (Ref sig .tc) :=
  [Pipeline.arrRef spec0 1, Pipeline.arrRef spec0 2, Pipeline.arrRef spec0 3, Pipeline.arrRef spec0 4, Pipeline.arrRef spec0 5,
    Pipeline.arrRef spec0 6, Pipeline.arrRef spec0 7, Pipeline.arrRef spec0 8, Pipeline.arrRef spec0 9, Pipeline.arrRef spec0 10,
    Pipeline.arrRef spec0 11]

theorem arrImage_eq : Finset.univ.image (Pipeline.arrRef spec0) = arrList.toFinset := by decide

theorem arrList_nodup : arrList.Nodup := by decide

/-- The core's unscoped buffers at contents `V` are the buffers behind the windows' arrays and the rest. -/
theorem unscopedBufs_split0 (c : Dev nD) (V : (b : Ref sig .tc) → Buf (Elt F) ((c : Thread nD τ).loc b)) :
    (unscopedBufs c V : sProp 𝕄)
      = iprop(Pipeline.arrBufs (Ix := Unit) (Name := ℕ) (U := UR sig nD τ) (Lvl := ℕ) spec0 c V ∗ Pipeline.unscopedRest (Ix := Unit) (Name := ℕ) (U := UR sig nD τ) (Lvl := ℕ) spec0 c V) := by
  classical
  have hA : Finset.univ.image (Pipeline.arrRef spec0) ⊆ Finset.univ.filter fun b : Ref sig .tc => ¬ b.isScoped := fun b hb => by
    obtain ⟨w, -, rfl⟩ := Finset.mem_image.mp hb
    exact Finset.mem_filter.mpr ⟨Finset.mem_univ _, by simp [winFacts₀0.arr_unscoped w]⟩
  unfold unscopedBufs Pipeline.unscopedRest Pipeline.arrBufs
  rw [bigSep_sdiff_split hA]
  rfl

/-- The buffers behind the windows' arrays conjoined one by one, each named by a window that lies on it. -/
theorem bigSep_arr {M : Type} [URA M] (Φ : Ref sig .tc → sProp M) :
    bigSep (Finset.univ.image (Pipeline.arrRef spec0)) Φ
      = iprop(Φ (Pipeline.arrRef spec0 1) ∗ Φ (Pipeline.arrRef spec0 2) ∗ Φ (Pipeline.arrRef spec0 3) ∗ Φ (Pipeline.arrRef spec0 4)
          ∗ Φ (Pipeline.arrRef spec0 5) ∗ Φ (Pipeline.arrRef spec0 6) ∗ Φ (Pipeline.arrRef spec0 7) ∗ Φ (Pipeline.arrRef spec0 8)
          ∗ Φ (Pipeline.arrRef spec0 9) ∗ Φ (Pipeline.arrRef spec0 10) ∗ Φ (Pipeline.arrRef spec0 11)) :=
  bigSep_eq_bigSepL_of_eq arrList arrImage_eq arrList_nodup Φ

/-- The windows' arrays are whole buffers: each is held over all of its buffer, at the window's share. -/
theorem arrays_eq_whole {c : Dev nD} (dat : Dat τ (Elt F) Unit ℕ (UR sig nD τ) ℕ cfg0 c)
    (Fz : (w : Fin cfg0.W) → Buf (Elt F) ((cfg0.win w).arr.view.loc (c : Thread nD τ))) :
    (dat.arrays Fz : sProp 𝕄)
      = bigSep Finset.univ fun w : Fin 12 => (((c : Thread nD τ).loc (Pipeline.arrRef spec0 w)) ↦{dat.share w} Fz w : sProp 𝕄) := by
  unfold Dat.arrays
  exact bigSep_congr fun w _ => by rw [(arr_whole0 w).set_eq_univ]

/-- One window's array at the window's share and contents, read at a known share `q` and off a valuation `V`. -/
theorem arr_at {c : Dev nD} (dat : Dat τ (Elt F) Unit ℕ (UR sig nD τ) ℕ cfg0 c) (w : Fin cfg0.W) {q : PosShare TreeShare}
    (hq : dat.share w = q) (V : (b : Ref sig .tc) → Buf (Elt F) ((c : Thread nD τ).loc b))
    (Fz : (w : Fin cfg0.W) → Buf (Elt F) ((cfg0.win w).arr.view.loc (c : Thread nD τ))) (hF : Fz w = V (Pipeline.arrRef spec0 w)) :
    ((((c : Thread nD τ).loc (Pipeline.arrRef spec0 w)) ↦{dat.share w} Fz w : sProp 𝕄))
      = (((c : Thread nD τ).loc (Pipeline.arrRef spec0 w)) ↦{q} V (Pipeline.arrRef spec0 w)) := by
  rw [hq, hF]

/-- ENTRY: the core's unscoped buffers at contents `V` are the windows' arrays at contents read off `V` — the buffer
    under windows 0 and 1 split along its share into the left and the right half — and the unscoped rest. -/
theorem arrays_of_unscoped {c : Dev nD} (dat : Dat τ (Elt F) Unit ℕ (UR sig nD τ) ℕ cfg0 c)
    (hs0 : dat.share 0 = fullShare.left) (hs1 : dat.share 1 = fullShare.right) (hs : ∀ w : Fin cfg0.W, 2 ≤ w.val → dat.share w = fullShare)
    (V : (b : Ref sig .tc) → Buf (Elt F) ((c : Thread nD τ).loc b))
    (Fz : (w : Fin cfg0.W) → Buf (Elt F) ((cfg0.win w).arr.view.loc (c : Thread nD τ))) (hF : ∀ w, Fz w = V (Pipeline.arrRef spec0 w)) :
    (unscopedBufs c V : sProp 𝕄) ⊢ iprop(dat.arrays Fz ∗ Pipeline.unscopedRest (Ix := Unit) (Name := ℕ) (U := UR sig nD τ) (Lvl := ℕ) spec0 c V) := by
  rw [unscopedBufs_split0 c V]
  refine BIClass.sep_mono ?_ .rfl
  unfold Pipeline.arrBufs
  rw [arrays_eq_whole, bigSep_arr, bigSep_W0]
  -- the shared buffer's two halves, then the other ten windows one by one
  have h01 : ((((c : Thread nD τ).loc (Pipeline.arrRef spec0 1)) ↦{fullShare} V (Pipeline.arrRef spec0 1) : sProp 𝕄))
      ⊢ iprop((((c : Thread nD τ).loc (Pipeline.arrRef spec0 0)) ↦{dat.share 0} Fz 0)
          ∗ (((c : Thread nD τ).loc (Pipeline.arrRef spec0 1)) ↦{dat.share 1} Fz 1)) :=
    (pointsTo_share (PosShare.mem_left_op_right fullShare)).1.trans
      (BIClass.sep_mono (Entails.of_eq (arr_at dat 0 hs0 V Fz (hF 0)).symm) (Entails.of_eq (arr_at dat 1 hs1 V Fz (hF 1)).symm))
  refine (BIClass.sep_mono h01 ?_).trans sep_assoc.1
  refine BIClass.sep_mono (Entails.of_eq (arr_at dat 2 (hs 2 (by decide)) V Fz (hF 2)).symm) ?_
  refine BIClass.sep_mono (Entails.of_eq (arr_at dat 3 (hs 3 (by decide)) V Fz (hF 3)).symm) ?_
  refine BIClass.sep_mono (Entails.of_eq (arr_at dat 4 (hs 4 (by decide)) V Fz (hF 4)).symm) ?_
  refine BIClass.sep_mono (Entails.of_eq (arr_at dat 5 (hs 5 (by decide)) V Fz (hF 5)).symm) ?_
  refine BIClass.sep_mono (Entails.of_eq (arr_at dat 6 (hs 6 (by decide)) V Fz (hF 6)).symm) ?_
  refine BIClass.sep_mono (Entails.of_eq (arr_at dat 7 (hs 7 (by decide)) V Fz (hF 7)).symm) ?_
  refine BIClass.sep_mono (Entails.of_eq (arr_at dat 8 (hs 8 (by decide)) V Fz (hF 8)).symm) ?_
  refine BIClass.sep_mono (Entails.of_eq (arr_at dat 9 (hs 9 (by decide)) V Fz (hF 9)).symm) ?_
  refine BIClass.sep_mono (Entails.of_eq (arr_at dat 10 (hs 10 (by decide)) V Fz (hF 10)).symm) ?_
  exact Entails.of_eq (arr_at dat 11 (hs 11 (by decide)) V Fz (hF 11)).symm

/-- EXIT: the windows' arrays at contents `Fz` and the unscoped rest at `V` are the core's unscoped buffers at any
    valuation `V'` that has the arrays at `Fz` and agrees with `V` off them — the two halves of the buffer under
    windows 0 and 1, both at that buffer's contents under `V'`, joined along the share. -/
theorem unscoped_of_arrays {c : Dev nD} (dat : Dat τ (Elt F) Unit ℕ (UR sig nD τ) ℕ cfg0 c)
    (hs0 : dat.share 0 = fullShare.left) (hs1 : dat.share 1 = fullShare.right) (hs : ∀ w : Fin cfg0.W, 2 ≤ w.val → dat.share w = fullShare)
    (V V' : (b : Ref sig .tc) → Buf (Elt F) ((c : Thread nD τ).loc b))
    (Fz : (w : Fin cfg0.W) → Buf (Elt F) ((cfg0.win w).arr.view.loc (c : Thread nD τ))) (hF : ∀ w, Fz w = V' (Pipeline.arrRef spec0 w))
    (hrest : ∀ b, b ∉ Finset.univ.image (Pipeline.arrRef spec0) → V' b = V b) :
    iprop(dat.arrays Fz ∗ Pipeline.unscopedRest (Ix := Unit) (Name := ℕ) (U := UR sig nD τ) (Lvl := ℕ) spec0 c V) ⊢ (unscopedBufs c V' : sProp 𝕄) := by
  rw [unscopedBufs_split0 c V']
  refine BIClass.sep_mono ?_ (Entails.of_eq ?_)
  · unfold Pipeline.arrBufs
    rw [arrays_eq_whole, bigSep_arr, bigSep_W0]
    have h01 : iprop((((c : Thread nD τ).loc (Pipeline.arrRef spec0 0)) ↦{dat.share 0} Fz 0)
          ∗ (((c : Thread nD τ).loc (Pipeline.arrRef spec0 1)) ↦{dat.share 1} Fz 1))
        ⊢ ((((c : Thread nD τ).loc (Pipeline.arrRef spec0 1)) ↦{fullShare} V' (Pipeline.arrRef spec0 1) : sProp 𝕄)) :=
      (BIClass.sep_mono (Entails.of_eq (arr_at dat 0 hs0 V' Fz (hF 0))) (Entails.of_eq (arr_at dat 1 hs1 V' Fz (hF 1)))).trans
        (pointsTo_share (PosShare.mem_left_op_right fullShare)).2
    refine sep_assoc.2.trans (BIClass.sep_mono h01 ?_)
    refine BIClass.sep_mono (Entails.of_eq (arr_at dat 2 (hs 2 (by decide)) V' Fz (hF 2))) ?_
    refine BIClass.sep_mono (Entails.of_eq (arr_at dat 3 (hs 3 (by decide)) V' Fz (hF 3))) ?_
    refine BIClass.sep_mono (Entails.of_eq (arr_at dat 4 (hs 4 (by decide)) V' Fz (hF 4))) ?_
    refine BIClass.sep_mono (Entails.of_eq (arr_at dat 5 (hs 5 (by decide)) V' Fz (hF 5))) ?_
    refine BIClass.sep_mono (Entails.of_eq (arr_at dat 6 (hs 6 (by decide)) V' Fz (hF 6))) ?_
    refine BIClass.sep_mono (Entails.of_eq (arr_at dat 7 (hs 7 (by decide)) V' Fz (hF 7))) ?_
    refine BIClass.sep_mono (Entails.of_eq (arr_at dat 8 (hs 8 (by decide)) V' Fz (hF 8))) ?_
    refine BIClass.sep_mono (Entails.of_eq (arr_at dat 9 (hs 9 (by decide)) V' Fz (hF 9))) ?_
    refine BIClass.sep_mono (Entails.of_eq (arr_at dat 10 (hs 10 (by decide)) V' Fz (hF 10))) ?_
    exact Entails.of_eq (arr_at dat 11 (hs 11 (by decide)) V' Fz (hF 11))
  · unfold Pipeline.unscopedRest
    exact bigSep_congr fun b hb => by rw [hrest b (Finset.mem_sdiff.mp hb).2]

end Cert.Kernel.Frame
-- ==== Proof.BitsFrame.Launch.lean ====
/-
  The run of @main: host operations (two transposes, the sum of the gate biases, six reshapes), the kernel region, host
  operations (the two results reshaped back to [10000,128]). The TensorCore's unscoped buffers are followed as a
  valuation through the three segments: at the launch, after the first host stretch (what the region is entered from),
  at the region's exit (the two output arrays at what the write-backs left, every other buffer as entered), and after
  the last stretch. The adjacency array enters the region split in two half shares, one per window laid on it, and the
  halves are joined again at the exit.
-/
import proofs.«129324_g90469191123580_cont_sun_m_503_16_alg».proof.Proof.BitsFrame.Data
import proofs.«129324_g90469191123580_cont_sun_m_503_16_alg».proof.Proof.BitsFrame.Arrays

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the first host stretch: the region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At the region's exit: the two output arrays at what the pipeline's write-backs leave, every other buffer as entered. -/
def W2 (c : Dev nD) : Valuation τ sig (Elt F) := fun b =>
  if h : Proc.devRef .tc (Pipeline.arrRef spec0 10) = b then
    cast (congrArg (fun b' : DevRef τ sig => b'.ty.Contents (Elt F)) h) ((dat0 (V1 m ρ) c).arrAt 10 cfg0.N)
  else if h : Proc.devRef .tc (Pipeline.arrRef spec0 11) = b then
    cast (congrArg (fun b' : DevRef τ sig => b'.ty.Contents (Elt F)) h) ((dat0 (V1 m ρ) c).arrAt 11 cfg0.N)
  else W1 m ρ c b

theorem W2_10 (c : Dev nD) : W2 m ρ c (Proc.devRef .tc (Pipeline.arrRef spec0 10)) = (dat0 (V1 m ρ) c).arrAt 10 cfg0.N := by
  unfold W2; rw [dif_pos rfl]; rfl
theorem W2_11 (c : Dev nD) : W2 m ρ c (Proc.devRef .tc (Pipeline.arrRef spec0 11)) = (dat0 (V1 m ρ) c).arrAt 11 cfg0.N := by
  unfold W2; rw [dif_neg (StableHlo.devRef_ne_of_ne (by decide)), dif_pos rfl]; rfl
theorem W2_of_ne (c : Dev nD) (b : Ref sig .tc) (h10 : Pipeline.arrRef spec0 10 ≠ b) (h11 : Pipeline.arrRef spec0 11 ≠ b) :
    W2 m ρ c (Proc.devRef .tc b) = W1 m ρ c (Proc.devRef .tc b) := by
  unfold W2; rw [dif_neg (StableHlo.devRef_ne_of_ne h10), dif_neg (StableHlo.devRef_ne_of_ne h11)]
abbrev V2 : (c : Dev nD) → (b : Ref sig .tc) → Buf (Elt F) ((c : Thread nD τ).loc b) := fun c b => W2 m ρ c b

/-- At the exit every window's array holds what the pipeline computes for it: an input's is never written. -/
theorem hF (c : Dev nD) : ∀ w : Fin cfg0.W, (dat0 (V1 m ρ) c).arrAt w cfg0.N = V2 m ρ c (Pipeline.arrRef spec0 w)
  | ⟨0, _⟩ => (((dat0 (V1 m ρ) c).arrAt_in 0 rfl _).trans (A_eq (V1 m ρ) c 0)).trans (W2_of_ne m ρ c _ (by decide) (by decide)).symm
  | ⟨1, _⟩ => (((dat0 (V1 m ρ) c).arrAt_in 1 rfl _).trans (A_eq (V1 m ρ) c 1)).trans (W2_of_ne m ρ c _ (by decide) (by decide)).symm
  | ⟨2, _⟩ => (((dat0 (V1 m ρ) c).arrAt_in 2 rfl _).trans (A_eq (V1 m ρ) c 2)).trans (W2_of_ne m ρ c _ (by decide) (by decide)).symm
  | ⟨3, _⟩ => (((dat0 (V1 m ρ) c).arrAt_in 3 rfl _).trans (A_eq (V1 m ρ) c 3)).trans (W2_of_ne m ρ c _ (by decide) (by decide)).symm
  | ⟨4, _⟩ => (((dat0 (V1 m ρ) c).arrAt_in 4 rfl _).trans (A_eq (V1 m ρ) c 4)).trans (W2_of_ne m ρ c _ (by decide) (by decide)).symm
  | ⟨5, _⟩ => (((dat0 (V1 m ρ) c).arrAt_in 5 rfl _).trans (A_eq (V1 m ρ) c 5)).trans (W2_of_ne m ρ c _ (by decide) (by decide)).symm
  | ⟨6, _⟩ => (((dat0 (V1 m ρ) c).arrAt_in 6 rfl _).trans (A_eq (V1 m ρ) c 6)).trans (W2_of_ne m ρ c _ (by decide) (by decide)).symm
  | ⟨7, _⟩ => (((dat0 (V1 m ρ) c).arrAt_in 7 rfl _).trans (A_eq (V1 m ρ) c 7)).trans (W2_of_ne m ρ c _ (by decide) (by decide)).symm
  | ⟨8, _⟩ => (((dat0 (V1 m ρ) c).arrAt_in 8 rfl _).trans (A_eq (V1 m ρ) c 8)).trans (W2_of_ne m ρ c _ (by decide) (by decide)).symm
  | ⟨9, _⟩ => (((dat0 (V1 m ρ) c).arrAt_in 9 rfl _).trans (A_eq (V1 m ρ) c 9)).trans (W2_of_ne m ρ c _ (by decide) (by decide)).symm
  | ⟨10, _⟩ => (W2_10 m ρ c).symm
  | ⟨11, _⟩ => (W2_11 m ρ c).symm
theorem hrest (c : Dev nD) : ∀ b, b ∉ Finset.univ.image (Pipeline.arrRef spec0) → V2 m ρ c b = V1 m ρ c b :=
  fun b hb => W2_of_ne m ρ c b (fun e => hb (Finset.mem_image.mpr ⟨10, Finset.mem_univ _, e⟩))
    (fun e => hb (Finset.mem_image.mpr ⟨11, Finset.mem_univ _, e⟩))

/-- After the last host stretch: the return. -/
abbrev W3 : Dev nD → Valuation τ sig (Elt F) := fun c => StableHlo.after hostOps1 (W2 m ρ c)

/-! ## No host operation writes an argument -/

theorem keep0 (V : Valuation τ sig (Elt F)) (r : Ref sig .tc)
    (hr : r ∉ [main_call0_v0, main_call0_v1, main_call0_v2, main_call0_v3, main_call0_v4, main_call0_v5, main_call0_v6, main_call0_v7]) :
    StableHlo.after hostOps0 V (Proc.devRef .tc r) = V (Proc.devRef .tc r) :=
  StableHlo.after_of_writes_sub hostOps0 V (by
    simp only [hostOps0, List.Forall, StableHlo.unary_writes, StableHlo.binary_writes, StableHlo.reshape_writes, Finset.singleton_subset_iff, List.mem_toFinset]
    repeat' apply And.intro
    all_goals exact List.mem_map_of_mem (by decide)) hr

theorem keep1 (V : Valuation τ sig (Elt F)) (r : Ref sig .tc) (hr : r ∉ [main_v0_0, main_v0_1]) :
    StableHlo.after hostOps1 V (Proc.devRef .tc r) = V (Proc.devRef .tc r) :=
  StableHlo.after_of_writes_sub hostOps1 V (by
    simp only [hostOps1, List.Forall, StableHlo.unary_writes, StableHlo.binary_writes, StableHlo.reshape_writes, Finset.singleton_subset_iff, List.mem_toFinset]
    repeat' apply And.intro
    all_goals exact List.mem_map_of_mem (by decide)) hr

/-- An argument array ends as launched: neither host stretch writes it and the region only reads it. -/
theorem W3_arg (c : Dev nD) (r : Ref sig .tc)
    (h0 : r ∉ [main_call0_v0, main_call0_v1, main_call0_v2, main_call0_v3, main_call0_v4, main_call0_v5, main_call0_v6, main_call0_v7])
    (h1 : r ∉ [main_v0_0, main_v0_1]) (h10 : Pipeline.arrRef spec0 10 ≠ r) (h11 : Pipeline.arrRef spec0 11 ≠ r) :
    W3 m ρ c (Proc.devRef .tc r) = m ((c : Thread nD τ).loc r) :=
  calc W3 m ρ c (Proc.devRef .tc r)
    _ = W2 m ρ c (Proc.devRef .tc r) := keep1 _ r h1
    _ = W1 m ρ c (Proc.devRef .tc r) := W2_of_ne m ρ c r h10 h11
    _ = W0 m ρ c (Proc.devRef .tc r) := keep0 _ r h0
    _ = m ((c : Thread nD τ).loc r) := rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The shares the proof data hold the arrays at -/

theorem share_0 (V : (c : Dev nD) → (b : Ref sig .tc) → Buf (Elt F) ((c : Thread nD τ).loc b)) (c : Dev nD) :
    (dat0 V c).share 0 = fullShare.left := by
  unfold Dat.share; rw [if_neg (by decide)]; rfl
theorem share_1 (V : (c : Dev nD) → (b : Ref sig .tc) → Buf (Elt F) ((c : Thread nD τ).loc b)) (c : Dev nD) :
    (dat0 V c).share 1 = fullShare.right := by
  unfold Dat.share; rw [if_neg (by decide)]; rfl
theorem share_ge2 (V : (c : Dev nD) → (b : Ref sig .tc) → Buf (Elt F) ((c : Thread nD τ).loc b)) (c : Dev nD) :
    ∀ w : Fin cfg0.W, 2 ≤ w.val → (dat0 V c).share w = fullShare := by
  intro w hw
  unfold Dat.share
  split
  · rfl
  · show qOf w = fullShare
    unfold qOf
    rw [if_neg (by omega), if_neg (by omega)]

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := arrays_of_unscoped (pdats m ρ 0 c) (share_0 (V1 m ρ) c) (share_1 (V1 m ρ) c) (share_ge2 (V1 m ρ) c)
      (V1 m ρ c) ((pdats m ρ 0 c).arrAt · 0) (fun w => A_eq (V1 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin (V1 m ρ) c)
    unfold Pipeline.ΦA
    iintro ⟨Hp, -, Hr⟩
    isplitl [Hr]; · iexact Hr
    iexact Hp
  hout c := by
    rw [Pipeline.ownSems0_none]
    refine (hout (V1 m ρ) c).trans ?_
    unfold Pipeline.ΦA
    iintro ⟨Hr, Hp⟩
    isplitl [Hp]; · iexact Hp
    isplitr; · iempintro
    iexact Hr
  hexit c := by
    have hjoin := unscoped_of_arrays (pdats m ρ 0 c) (share_0 (V1 m ρ) c) (share_1 (V1 m ρ) c) (share_ge2 (V1 m ρ) c)
      (V1 m ρ c) (V2 m ρ c) ((pdats m ρ 0 c).arrAt · cfg0.N) (hF m ρ c) (hrest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- From any memory with zero counters every weakly fair execution of @main terminates, nothing faulting, and every
    unscoped buffer of the TensorCore ends at the last boundary's contents. -/
theorem run_W3 : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the program runs to the end, faults nowhere, and leaves its ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_arg0 (by decide))).trans (W3_arg m ρ c main_arg0 (by decide) (by decide) (by decide) (by decide)),
    (h c _ (mem_uc main_arg1 (by decide))).trans (W3_arg m ρ c main_arg1 (by decide) (by decide) (by decide) (by decide)),
    (h c _ (mem_uc main_arg2 (by decide))).trans (W3_arg m ρ c main_arg2 (by decide) (by decide) (by decide) (by decide)),
    (h c _ (mem_uc main_arg3 (by decide))).trans (W3_arg m ρ c main_arg3 (by decide) (by decide) (by decide) (by decide)),
    (h c _ (mem_uc main_arg4 (by decide))).trans (W3_arg m ρ c main_arg4 (by decide) (by decide) (by decide) (by decide)),
    (h c _ (mem_uc main_arg5 (by decide))).trans (W3_arg m ρ c main_arg5 (by decide) (by decide) (by decide) (by decide)),
    (h c _ (mem_uc main_arg6 (by decide))).trans (W3_arg m ρ c main_arg6 (by decide) (by decide) (by decide) (by decide)),
    (h c _ (mem_uc main_arg7 (by decide))).trans (W3_arg m ρ c main_arg7 (by decide) (by decide) (by decide) (by decide)),
    (h c _ (mem_uc main_arg8 (by decide))).trans (W3_arg m ρ c main_arg8 (by decide) (by decide) (by decide) (by decide)),
    (h c _ (mem_uc main_arg9 (by decide))).trans (W3_arg m ρ c main_arg9 (by decide) (by decide) (by decide) (by decide))⟩)
    (run_W3 m ρ)

end Cert.Kernel.Frame

end
-- ==== Proof.IdealFrame.Shared.lean ====
/-
  What the two runs of the kernel body and the proof data share, stated at a parameter `V`: the contents of the
  TensorCore's buffers when the region is entered. A window's block at a grid point is its rectangle of the array read
  off `V`; an input window's staging buffer holds that block at every point, whether the point fetches it or not
  (the six operands whose block index never moves are fetched once, at the first point). The body branches once, on
  "this is the first grid point", which holds exactly at point 0.
-/
import proofs.«129324_g90469191123580_cont_sun_m_503_16_alg».proof.Proof.Gen.KernelIdeal.Launch
import proofs.«129324_g90469191123580_cont_sun_m_503_16_alg».proof.Proof.Gen.KernelIdeal.Skeleton
import proofs.«129324_g90469191123580_cont_sun_m_503_16_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: its rectangle of the array, read off the region-entry contents `V`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched
    point has the block index of the point before it, and the body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: an unfetched
    point has the block index of the point before it, and the body leaves the block in place. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: an unfetched
    point has the block index of the point before it, and the body leaves the block in place. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: an unfetched
    point has the block index of the point before it, and the body leaves the block in place. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: an unfetched
    point has the block index of the point before it, and the body leaves the block in place. -/
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: an unfetched
    point has the block index of the point before it, and the body leaves the block in place. -/
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not: an unfetched
    point has the block index of the point before it, and the body leaves the block in place. -/
theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not: an unfetched
    point has the block index of the point before it, and the body leaves the block in place. -/
theorem before_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not: an unfetched
    point has the block index of the point before it, and the body leaves the block in place. -/
theorem before_8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not: an unfetched
    point has the block index of the point before it, and the body leaves the block in place. -/
theorem before_9_of {c : Dev nD} (dat : Dat τ (Elt F) Unit ℕ (UR sig nD τ) ℕ cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one `scf.if`: the grid coordinate is zero. -/
abbrev cond0 (i : grid0.Coords) : Prop := (Scalar.cmpi .ne (Scalar.extui (Scalar.cmpi .eq (BitVec.ofNat 32 (i 0).val) 0#32)) 0#32) = 1#1
/-- It holds at the first point only — decided over the 25 points. -/
theorem hcond0 : ∀ t : Fin cfg0.N, cond0 (grid0.coords t) ↔ t.val = 0 :=
  (by decide +kernel : ∀ t : Fin grid0.N, cond0 (grid0.coords t) ↔ t.val = 0)

/-! ## The staging memrefs at a point, and the scratch -/

abbrev ms_0 (t : Fin cfg0.N) : Memref sig .tc .vmem S1x200x10000 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x200x10000 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S10000x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S128x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S2x200x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S2x200x128 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S128x512 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S128x512 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S1x512 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1x128 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S2x200x128 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S2x200x128 .f32 := win0_11.stage (cfg0.slots t 11)
abbrev hs_11 (t : Fin cfg0.N) : (ms_11 t).IsWhole := hstage0_11 ((cfg0.slots t 11).cast nbuf0_11)
/-- One staging buffer of each output window, through which its contents are stated (the choice does not matter). -/
abbrev VO_10 : View sig .tc .vmem S2x200x128 .f32 := (Memref.whole cc0_stg10_0 : Memref sig .tc .vmem S2x200x128 .f32).view
abbrev VO_11 : View sig .tc .vmem S2x200x128 .f32 := (Memref.whole cc0_stg11_0 : Memref sig .tc .vmem S2x200x128 .f32).view
/-- The scratch operand: a whole scoped buffer of the kernel's own, which holds the support matrix from the first
    point on. -/
abbrev scM : Memref sig .tc .vmem S10000x128 .f32 := Memref.whole cc0_scratch0
abbrev VS : View sig .tc .vmem S10000x128 .f32 := scM.view

/-- The region invariant every class of kernel starts from — the scoped buffers no window stages, at anything, and the
    generator register — with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Frame

end
-- ==== Proof.IdealFrame.RunA.lean ====
/-
  The kernel body run once AT THE FIRST GRID POINT (the branch taken): on whole staging buffers — the ten inputs' at
  their blocks, the two outputs' and the scratch at anything — it runs to the end, leaves the inputs as they were, and
  leaves in each output's buffer and in the scratch the pieces its stores wrote. The pieces are found by the symbolic
  run itself: the scratch gets one whole store (the support matrix), each output two stores, one per half.
-/
import proofs.«129324_g90469191123580_cont_sun_m_503_16_alg».proof.Proof.IdealFrame.Shared

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, with the pieces each written buffer ends with as its witness. -/
noncomputable def kernelRun_A (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : cond0 i)
    (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) :
    Σ' (L10 : List (View.Piece (Elt F) S2x200x128 .f32)) (L11 : List (View.Piece (Elt F) S2x200x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS)) -∗ K ⟨⟩))
          ⊢ wp frame (wpE (defs₀ (F := F)) Variants.none c none) E (cc0__main_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__main_kernel_eq_skeleton]; unfold cc0__main_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    iexists _; iexact HS

end Cert.KernelIdeal.Frame

end
-- ==== Proof.IdealFrame.RunB.lean ====
/-
  The kernel body run once AT A LATER GRID POINT (the branch not taken): on whole staging buffers — the ten inputs' at
  their blocks, the scratch at the contents `xs` the point before left, the two outputs' at anything — it runs to the
  end, leaves the inputs and the scratch as they were, and leaves in each output's buffer the pieces its stores wrote
  (two stores each, one per half), found by the symbolic run itself.
-/
import proofs.«129324_g90469191123580_cont_sun_m_503_16_alg».proof.Proof.IdealFrame.RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, with the pieces each written buffer ends with as its witness. -/
noncomputable def kernelRun_B (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : ¬cond0 i)
    (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) (xs : Vec F S10000x128 .f32) :
    Σ' (L10 : List (View.Piece (Elt F) S2x200x128 .f32)), { L11 : List (View.Piece (Elt F) S2x200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ owns (c : Thread nD τ) arg13 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ owns (c : Thread nD τ) arg13 fullShare xs) -∗ K ⟨⟩))
          ⊢ wp frame (wpE (defs₀ (F := F)) Variants.none c none) E (cc0__main_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__main_kernel_eq_skeleton]; unfold cc0__main_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hfs
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    iexists _; isplitr; · ipureintro; exact harg13.read_unread _
    iexact HS

end Cert.KernelIdeal.Frame

end
-- ==== Proof.IdealFrame.Data.lean ====
/-
  What each grid point leaves behind, and the pipeline's proof data.

  At the first point the body stores the support matrix `x · g` whole into the scratch and both halves of the two
  output blocks; at every later point it stores the two output blocks only and the scratch keeps what the first point
  left. So the contents after point `n` are a recursion on `n` whose scratch component is constant from point 0 on.
  The adjacency array is handed to the kernel through TWO input windows (the top and the bottom half's stripes): the
  proof data hold it at one half share each; every other array is held whole.
-/
import proofs.«129324_g90469191123580_cont_sun_m_503_16_alg».proof.Proof.IdealFrame.RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The first point: the pieces cover each written buffer -/

theorem cover_A_10 (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : cond0 i) (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) (y : S2x200x128.Idx) :
    ∃ pc ∈ (kernelRun_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).1 S1x200x128.size (by sl_kernel_rfl) y
theorem cover_A_11 (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : cond0 i) (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) (y : S2x200x128.Idx) :
    ∃ pc ∈ (kernelRun_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).2.1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).2.1 S1x200x128.size (by sl_kernel_rfl) y
theorem scover_A (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : cond0 i) (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) (y : S10000x128.Idx) :
    ∃ pc ∈ (kernelRun_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).2.2.1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).2.2.1 S10000x128.size (by sl_kernel_rfl) y

/-- What the first point leaves in the hidden-state output's buffer: its pieces read back. -/
def out_A_10 (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : cond0 i) (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) : Vec F S2x200x128 .f32 :=
  VO_10.read (Elt F) (VO_10.writes (Elt F) VO_10.junk (kernelRun_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).1)
/-- What the first point leaves in the cell-state output's buffer. -/
def out_A_11 (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : cond0 i) (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) : Vec F S2x200x128 .f32 :=
  VO_11.read (Elt F) (VO_11.writes (Elt F) VO_11.junk (kernelRun_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).2.1)
/-- What the first point leaves in the scratch. -/
def sout_A (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : cond0 i) (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) : Vec F S10000x128 .f32 :=
  VS.read (Elt F) (VS.writes (Elt F) VS.junk (kernelRun_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).2.2.1)

/-! ## A later point -/

theorem cover_B_10 (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : ¬cond0 i) (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) (xs : Vec F S10000x128 .f32) (y : S2x200x128.Idx) :
    ∃ pc ∈ (kernelRun_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs).1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs).1 S1x200x128.size (by sl_kernel_rfl) y
theorem cover_B_11 (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : ¬cond0 i) (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) (xs : Vec F S10000x128 .f32) (y : S2x200x128.Idx) :
    ∃ pc ∈ (kernelRun_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs).2.1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs).2.1 S1x200x128.size (by sl_kernel_rfl) y

def out_B_10 (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : ¬cond0 i) (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) (xs : Vec F S10000x128 .f32) : Vec F S2x200x128 .f32 :=
  VO_10.read (Elt F) (VO_10.writes (Elt F) VO_10.junk (kernelRun_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs).1)
def out_B_11 (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : ¬cond0 i) (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) (xs : Vec F S10000x128 .f32) : Vec F S2x200x128 .f32 :=
  VO_11.read (Elt F) (VO_11.writes (Elt F) VO_11.junk (kernelRun_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs).2.1)

/-! ## What the buffers hold after each point -/

/-- After point `n`: the hidden-state block, the cell-state block, the scratch. The first point runs the branch;
    a later point reads the scratch the point before left and leaves it in place. -/
def outsAt (c : Dev nD) : (n : ℕ) → n < cfg0.N → Vec F S2x200x128 .f32 × Vec F S2x200x128 .f32 × Vec F S10000x128 .f32
  | 0, hn => (out_A_10 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) scM (Memref.isWhole_whole _) ((hcond0 ⟨0, hn⟩).mpr rfl) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩),
      out_A_11 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) scM (Memref.isWhole_whole _) ((hcond0 ⟨0, hn⟩).mpr rfl) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩),
      sout_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) scM (Memref.isWhole_whole _) ((hcond0 ⟨0, hn⟩).mpr rfl) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩))
  | n + 1, hn => (out_B_10 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) scM (Memref.isWhole_whole _) (fun h => Nat.succ_ne_zero n ((hcond0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt c n (Nat.lt_of_succ_lt hn)).2.2,
      out_B_11 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) scM (Memref.isWhole_whole _) (fun h => Nat.succ_ne_zero n ((hcond0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt c n (Nat.lt_of_succ_lt hn)).2.2,
      (outsAt c n (Nat.lt_of_succ_lt hn)).2.2)

theorem outsAt_zero (c : Dev nD) (t : Fin cfg0.N) (h0 : t.val = 0) :
    outsAt V c t.val t.isLt = (out_A_10 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM (Memref.isWhole_whole _) ((hcond0 t).mpr h0) (iblk V c 0 t) (iblk V c 1 t) (iblk V c 2 t) (iblk V c 3 t) (iblk V c 4 t) (iblk V c 5 t) (iblk V c 6 t) (iblk V c 7 t) (iblk V c 8 t) (iblk V c 9 t),
      out_A_11 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM (Memref.isWhole_whole _) ((hcond0 t).mpr h0) (iblk V c 0 t) (iblk V c 1 t) (iblk V c 2 t) (iblk V c 3 t) (iblk V c 4 t) (iblk V c 5 t) (iblk V c 6 t) (iblk V c 7 t) (iblk V c 8 t) (iblk V c 9 t),
      sout_A c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM (Memref.isWhole_whole _) ((hcond0 t).mpr h0) (iblk V c 0 t) (iblk V c 1 t) (iblk V c 2 t) (iblk V c 3 t) (iblk V c 4 t) (iblk V c 5 t) (iblk V c 6 t) (iblk V c 7 t) (iblk V c 8 t) (iblk V c 9 t)) := by
  obtain ⟨n, hn⟩ := t
  cases n with
  | zero => rfl
  | succ n => exact absurd h0 (Nat.succ_ne_zero n)

theorem outsAt_pos (c : Dev nD) (t : Fin cfg0.N) (h0 : ¬t.val = 0) :
    outsAt V c t.val t.isLt = (out_B_10 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM (Memref.isWhole_whole _) (fun h => h0 ((hcond0 t).mp h)) (iblk V c 0 t) (iblk V c 1 t) (iblk V c 2 t) (iblk V c 3 t) (iblk V c 4 t) (iblk V c 5 t) (iblk V c 6 t) (iblk V c 7 t) (iblk V c 8 t) (iblk V c 9 t) (outsAt V c (t.val - 1) (Nat.lt_of_le_of_lt (Nat.sub_le _ _) t.isLt)).2.2,
      out_B_11 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) scM (Memref.isWhole_whole _) (fun h => h0 ((hcond0 t).mp h)) (iblk V c 0 t) (iblk V c 1 t) (iblk V c 2 t) (iblk V c 3 t) (iblk V c 4 t) (iblk V c 5 t) (iblk V c 6 t) (iblk V c 7 t) (iblk V c 8 t) (iblk V c 9 t) (outsAt V c (t.val - 1) (Nat.lt_of_le_of_lt (Nat.sub_le _ _) t.isLt)).2.2,
      (outsAt V c (t.val - 1) (Nat.lt_of_le_of_lt (Nat.sub_le _ _) t.isLt)).2.2) := by
  obtain ⟨n, hn⟩ := t
  cases n with
  | zero => exact absurd rfl h0
  | succ n => rfl

/-- The region invariant before position `n`: before the first point the scratch is at anything; afterwards at
    what the point before left; the generator register at some state throughout. -/
def PhiS (c : Dev nD) : (n : ℕ) → n ≤ cfg0.N → sProp 𝕄
  | 0, _ => Pipeline.ΦA spec0 c
  | n + 1, hn => iprop(iprop(owns (c : Thread nD τ) scM fullShare ((outsAt V c n hn).2.2)) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare ((outsAt V c n hn).2.2)) ∗ (∃ r, prngReg c r)) := rfl
theorem PhiS_pos (c : Dev nD) (n : ℕ) (h : n ≤ cfg0.N) (hz : n ≠ 0) :
    PhiS V c n h = iprop(iprop(owns (c : Thread nD τ) scM fullShare ((outsAt V c (n - 1) (by omega)).2.2)) ∗ (∃ r, prngReg c r)) := by
  cases n with
  | zero => exact absurd rfl hz
  | succ n => rfl

/-! ## The pipeline's proof data -/

/-- The share of its array an input window holds: the adjacency array is read through windows 0 and 1, half each. -/
def qOf (w : Fin cfg0.W) : PosShare TreeShare :=
  if w.val = 0 then fullShare.left else if w.val = 1 then fullShare.right else fullShare

def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => (outsAt V c t.val t.isLt).1
    | ⟨11, _⟩ => (outsAt V c t.val t.isLt).2.1
  Φ t := PhiS V c t.val (Nat.le_of_lt_succ t.isLt)
  q w := qOf w
  owed _ := 0

theorem A_eq (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = iblk V c 4 t := by dsimp only [dat0]
theorem after_5 (c : Dev nD) (t : Fin cfg0.N) : (dat0 V c).after 5 t = iblk V c 5 t := by dsimp only [dat0]
theorem after_6 (c : Dev nD) (t : Fin cfg0.N) : (dat0 V c).after 6 t = iblk V c 6 t := by dsimp only [dat0]
theorem after_7 (c : Dev nD) (t : Fin cfg0.N) : (dat0 V c).after 7 t = iblk V c 7 t := by dsimp only [dat0]
theorem after_8 (c : Dev nD) (t : Fin cfg0.N) : (dat0 V c).after 8 t = iblk V c 8 t := by dsimp only [dat0]
theorem after_9 (c : Dev nD) (t : Fin cfg0.N) : (dat0 V c).after 9 t = iblk V c 9 t := by dsimp only [dat0]
theorem after_10 (c : Dev nD) (t : Fin cfg0.N) : (dat0 V c).after 10 t = (outsAt V c t.val t.isLt).1 := by dsimp only [dat0]
theorem after_11 (c : Dev nD) (t : Fin cfg0.N) : (dat0 V c).after 11 t = (outsAt V c t.val t.isLt).2.1 := by dsimp only [dat0]

theorem before_0 (c : Dev nD) (t : Fin cfg0.N) (d) : (dat0 V c).before 0 t d = iblk V c 0 t :=
  before_0_of V (dat0 V c) (A_eq V c 0) (after_0 V c) t d
theorem before_1 (c : Dev nD) (t : Fin cfg0.N) (d) : (dat0 V c).before 1 t d = iblk V c 1 t :=
  before_1_of V (dat0 V c) (A_eq V c 1) (after_1 V c) t d
theorem before_2 (c : Dev nD) (t : Fin cfg0.N) (d) : (dat0 V c).before 2 t d = iblk V c 2 t :=
  before_2_of V (dat0 V c) (A_eq V c 2) (after_2 V c) t d
theorem before_3 (c : Dev nD) (t : Fin cfg0.N) (d) : (dat0 V c).before 3 t d = iblk V c 3 t :=
  before_3_of V (dat0 V c) (A_eq V c 3) (after_3 V c) t d
theorem before_4 (c : Dev nD) (t : Fin cfg0.N) (d) : (dat0 V c).before 4 t d = iblk V c 4 t :=
  before_4_of V (dat0 V c) (A_eq V c 4) (after_4 V c) t d
theorem before_5 (c : Dev nD) (t : Fin cfg0.N) (d) : (dat0 V c).before 5 t d = iblk V c 5 t :=
  before_5_of V (dat0 V c) (A_eq V c 5) (after_5 V c) t d
theorem before_6 (c : Dev nD) (t : Fin cfg0.N) (d) : (dat0 V c).before 6 t d = iblk V c 6 t :=
  before_6_of V (dat0 V c) (A_eq V c 6) (after_6 V c) t d
theorem before_7 (c : Dev nD) (t : Fin cfg0.N) (d) : (dat0 V c).before 7 t d = iblk V c 7 t :=
  before_7_of V (dat0 V c) (A_eq V c 7) (after_7 V c) t d
theorem before_8 (c : Dev nD) (t : Fin cfg0.N) (d) : (dat0 V c).before 8 t d = iblk V c 8 t :=
  before_8_of V (dat0 V c) (A_eq V c 8) (after_8 V c) t d
theorem before_9 (c : Dev nD) (t : Fin cfg0.N) (d) : (dat0 V c).before 9 t d = iblk V c 9 t :=
  before_9_of V (dat0 V c) (A_eq V c 9) (after_9 V c) t d

/-! ## The body obligation, at a generic point -/

def bodyPre (c : Dev nD) (t : Fin cfg0.N) : sProp 𝕄 :=
  iprop((dat0 V c).Φ t.castSucc ∗ (dat0 V c).owesAt () t.castSucc
    ∗ (∃ d, owns (c : Thread nD τ) (ms_0 t) fullShare ((dat0 V c).before 0 t d))
    ∗ (∃ d, owns (c : Thread nD τ) (ms_1 t) fullShare ((dat0 V c).before 1 t d))
    ∗ (∃ d, owns (c : Thread nD τ) (ms_2 t) fullShare ((dat0 V c).before 2 t d))
    ∗ (∃ d, owns (c : Thread nD τ) (ms_3 t) fullShare ((dat0 V c).before 3 t d))
    ∗ (∃ d, owns (c : Thread nD τ) (ms_4 t) fullShare ((dat0 V c).before 4 t d))
    ∗ (∃ d, owns (c : Thread nD τ) (ms_5 t) fullShare ((dat0 V c).before 5 t d))
    ∗ (∃ d, owns (c : Thread nD τ) (ms_6 t) fullShare ((dat0 V c).before 6 t d))
    ∗ (∃ d, owns (c : Thread nD τ) (ms_7 t) fullShare ((dat0 V c).before 7 t d))
    ∗ (∃ d, owns (c : Thread nD τ) (ms_8 t) fullShare ((dat0 V c).before 8 t d))
    ∗ (∃ d, owns (c : Thread nD τ) (ms_9 t) fullShare ((dat0 V c).before 9 t d))
    ∗ (∃ d, owns (c : Thread nD τ) (ms_10 t) fullShare ((dat0 V c).before 10 t d))
    ∗ (∃ d, owns (c : Thread nD τ) (ms_11 t) fullShare ((dat0 V c).before 11 t d)))

def bodyPost (c : Dev nD) (t : Fin cfg0.N) : sProp 𝕄 :=
  iprop((dat0 V c).Φ t.succ ∗ (dat0 V c).owesAt () t.succ
    ∗ owns (c : Thread nD τ) (ms_0 t) fullShare ((dat0 V c).after 0 t)
    ∗ owns (c : Thread nD τ) (ms_1 t) fullShare ((dat0 V c).after 1 t)
    ∗ owns (c : Thread nD τ) (ms_2 t) fullShare ((dat0 V c).after 2 t)
    ∗ owns (c : Thread nD τ) (ms_3 t) fullShare ((dat0 V c).after 3 t)
    ∗ owns (c : Thread nD τ) (ms_4 t) fullShare ((dat0 V c).after 4 t)
    ∗ owns (c : Thread nD τ) (ms_5 t) fullShare ((dat0 V c).after 5 t)
    ∗ owns (c : Thread nD τ) (ms_6 t) fullShare ((dat0 V c).after 6 t)
    ∗ owns (c : Thread nD τ) (ms_7 t) fullShare ((dat0 V c).after 7 t)
    ∗ owns (c : Thread nD τ) (ms_8 t) fullShare ((dat0 V c).after 8 t)
    ∗ owns (c : Thread nD τ) (ms_9 t) fullShare ((dat0 V c).after 9 t)
    ∗ owns (c : Thread nD τ) (ms_10 t) fullShare ((dat0 V c).after 10 t)
    ∗ owns (c : Thread nD τ) (ms_11 t) fullShare ((dat0 V c).after 11 t))

set_option maxHeartbeats 4800000 in
/-- The body at any point: the inputs' buffers hold their blocks; the point is the first or a later one; that case's
    run applies; the invariant hands the body the scratch (at anything at the first point, at what the point before left
    afterwards) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9]
  rw [show (dat0 V c).owesAt () t.succ = (dat0 V c).owesAt () t.castSucc from rfl]
  rw [show (dat0 V c).Φ t.succ = PhiS V c (t.val + 1) t.isLt from rfl, PhiS_succ]
  rw [after_0, after_1, after_2, after_3, after_4, after_5, after_6, after_7, after_8, after_9, after_10, after_11]
  by_cases h0 : t.val = 0
  · rw [outsAt_zero V c t h0]
    unfold out_A_10 out_A_11 sout_A; (try dsimp only)
    rw [PhiS_castSucc V c t, PhiS_zero V c _ _ h0, PhiA_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun_A c (grid0.coords t) _ _ _ _ _ _ _ _ _ _ _ _ _ _ _ _ _ _ _ _ _ _ _ _ _ _ ((hcond0 t).mpr h0) (iblk V c 0 t) (iblk V c 1 t) (iblk V c 2 t) (iblk V c 3 t) (iblk V c 4 t) (iblk V c 5 t) (iblk V c 6 t) (iblk V c 7 t) (iblk V c 8 t) (iblk V c 9 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS]; · iexact HS
    iintro ⟨H0, H1, H2, H3, H4, H5, H6, H7, H8, H9, ⟨%e10, H10⟩, ⟨%e11, H11⟩, ⟨%es, HS⟩⟩
    isplitl [HS Hg]
    · isplitl [HS]
      · unfold owns; iexists _; isplitr
        swap; · iexact HS
        ipureintro; exact View.read_writes_of_cover _ _ _ _ _ (scover_A c _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover_A_10 c _ _ _ _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover_A_11 c _ _ _ _ _ _ _ _ _ _ _ _ _ _ _ _ _ _ _ _ _ _ _ _ _ _ _ _ _ _ _ _ _ _ _ _ _ _)
  · rw [outsAt_pos V c t h0]
    unfold out_B_10 out_B_11; (try dsimp only)
    rw [PhiS_castSucc V c t, PhiS_pos V c _ _ h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun_B c (grid0.coords t) _ _ _ _ _ _ _ _ _ _ _ _ _ _ _ _ _ _ _ _ _ _ _ _ _ _ (fun h => h0 ((hcond0 t).mp h)) (iblk V c 0 t) (iblk V c 1 t) (iblk V c 2 t) (iblk V c 3 t) (iblk V c 4 t) (iblk V c 5 t) (iblk V c 6 t) (iblk V c 7 t) (iblk V c 8 t) (iblk V c 9 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS]; · iexact HS
    iintro ⟨H0, H1, H2, H3, H4, H5, H6, H7, H8, H9, ⟨%e10, H10⟩, ⟨%e11, H11⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover_B_10 c _ _ _ _ _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover_B_11 c _ _ _ _ _ _ _ _ _ _ _ _ _ _ _ _ _ _ _ _ _ _ _ _ _ _ _ _ _ _ _ _ _ _ _ _ _ _ _)

/-- The library's body obligation, at every point. -/
theorem body_obligation (c : Dev nD) : BodyObligation (dat0 (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives it back: the scratch's contents are forgotten. -/
theorem hout (c : Dev nD) : (dat0 V c).Φ (Fin.last cfg0.N) ⊢ Pipeline.ΦA spec0 c := by
  have ht : (Fin.last cfg0.N).val ≠ 0 := by rw [Fin.val_last]; have : cfg0.N = 25 := N_0; omega
  rw [show (dat0 V c).Φ (Fin.last cfg0.N) = PhiS V c (Fin.last cfg0.N).val (Nat.le_of_lt_succ (Fin.last cfg0.N).isLt) from rfl, PhiS_pos V c _ _ ht, PhiA_eq]
  iintro ⟨HS, Hg⟩
  isplitl [HS]
  · iexists _; iexact HS
  iexact Hg

end Cert.KernelIdeal.Frame

end
-- ==== Proof.IdealFrame.Arrays.lean ====
/-
  One array under two windows. Windows 0 and 1 are the top and bottom row stripes of a single buffer, so the core's
  unscoped buffers are not one buffer per window: the shared buffer is held at the left half share for window 0 and at
  the right half share for window 1, and every other window's array at the full share. The two entailments below split
  the windows' arrays out of the unscoped buffers and put them back.
-/
import proofs.«129324_g90469191123580_cont_sun_m_503_16_alg».proof.Proof.IdealFrame.Shared

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The eleven distinct buffers behind the twelve windows' arrays: window 0's is window 1's, the others differ. -/
abbrev arrList : List (Ref sig .tc) :=
  [Pipeline.arrRef spec0 1, Pipeline.arrRef spec0 2, Pipeline.arrRef spec0 3, Pipeline.arrRef spec0 4, Pipeline.arrRef spec0 5,
    Pipeline.arrRef spec0 6, Pipeline.arrRef spec0 7, Pipeline.arrRef spec0 8, Pipeline.arrRef spec0 9, Pipeline.arrRef spec0 10,
    Pipeline.arrRef spec0 11]

theorem arrImage_eq : Finset.univ.image (Pipeline.arrRef spec0) = arrList.toFinset := by decide

theorem arrList_nodup : arrList.Nodup := by decide

/-- The core's unscoped buffers at contents `V` are the buffers behind the windows' arrays and the rest. -/
theorem unscopedBufs_split0 (c : Dev nD) (V : (b : Ref sig .tc) → Buf (Elt F) ((c : Thread nD τ).loc b)) :
    (unscopedBufs c V : sProp 𝕄)
      = iprop(Pipeline.arrBufs (Ix := Unit) (Name := ℕ) (U := UR sig nD τ) (Lvl := ℕ) spec0 c V ∗ Pipeline.unscopedRest (Ix := Unit) (Name := ℕ) (U := UR sig nD τ) (Lvl := ℕ) spec0 c V) := by
  classical
  have hA : Finset.univ.image (Pipeline.arrRef spec0) ⊆ Finset.univ.filter fun b : Ref sig .tc => ¬ b.isScoped := fun b hb => by
    obtain ⟨w, -, rfl⟩ := Finset.mem_image.mp hb
    exact Finset.mem_filter.mpr ⟨Finset.mem_univ _, by simp [winFacts₀0.arr_unscoped w]⟩
  unfold unscopedBufs Pipeline.unscopedRest Pipeline.arrBufs
  rw [bigSep_sdiff_split hA]
  rfl

/-- The buffers behind the windows' arrays conjoined one by one, each named by a window that lies on it. -/
theorem bigSep_arr {M : Type} [URA M] (Φ : Ref sig .tc → sProp M) :
    bigSep (Finset.univ.image (Pipeline.arrRef spec0)) Φ
      = iprop(Φ (Pipeline.arrRef spec0 1) ∗ Φ (Pipeline.arrRef spec0 2) ∗ Φ (Pipeline.arrRef spec0 3) ∗ Φ (Pipeline.arrRef spec0 4)
          ∗ Φ (Pipeline.arrRef spec0 5) ∗ Φ (Pipeline.arrRef spec0 6) ∗ Φ (Pipeline.arrRef spec0 7) ∗ Φ (Pipeline.arrRef spec0 8)
          ∗ Φ (Pipeline.arrRef spec0 9) ∗ Φ (Pipeline.arrRef spec0 10) ∗ Φ (Pipeline.arrRef spec0 11)) :=
  bigSep_eq_bigSepL_of_eq arrList arrImage_eq arrList_nodup Φ

/-- The windows' arrays are whole buffers: each is held over all of its buffer, at the window's share. -/
theorem arrays_eq_whole {c : Dev nD} (dat : Dat τ (Elt F) Unit ℕ (UR sig nD τ) ℕ cfg0 c)
    (Fz : (w : Fin cfg0.W) → Buf (Elt F) ((cfg0.win w).arr.view.loc (c : Thread nD τ))) :
    (dat.arrays Fz : sProp 𝕄)
      = bigSep Finset.univ fun w : Fin 12 => (((c : Thread nD τ).loc (Pipeline.arrRef spec0 w)) ↦{dat.share w} Fz w : sProp 𝕄) := by
  unfold Dat.arrays
  exact bigSep_congr fun w _ => by rw [(arr_whole0 w).set_eq_univ]

/-- One window's array at the window's share and contents, read at a known share `q` and off a valuation `V`. -/
theorem arr_at {c : Dev nD} (dat : Dat τ (Elt F) Unit ℕ (UR sig nD τ) ℕ cfg0 c) (w : Fin cfg0.W) {q : PosShare TreeShare}
    (hq : dat.share w = q) (V : (b : Ref sig .tc) → Buf (Elt F) ((c : Thread nD τ).loc b))
    (Fz : (w : Fin cfg0.W) → Buf (Elt F) ((cfg0.win w).arr.view.loc (c : Thread nD τ))) (hF : Fz w = V (Pipeline.arrRef spec0 w)) :
    ((((c : Thread nD τ).loc (Pipeline.arrRef spec0 w)) ↦{dat.share w} Fz w : sProp 𝕄))
      = (((c : Thread nD τ).loc (Pipeline.arrRef spec0 w)) ↦{q} V (Pipeline.arrRef spec0 w)) := by
  rw [hq, hF]

/-- ENTRY: the core's unscoped buffers at contents `V` are the windows' arrays at contents read off `V` — the buffer
    under windows 0 and 1 split along its share into the left and the right half — and the unscoped rest. -/
theorem arrays_of_unscoped {c : Dev nD} (dat : Dat τ (Elt F) Unit ℕ (UR sig nD τ) ℕ cfg0 c)
    (hs0 : dat.share 0 = fullShare.left) (hs1 : dat.share 1 = fullShare.right) (hs : ∀ w : Fin cfg0.W, 2 ≤ w.val → dat.share w = fullShare)
    (V : (b : Ref sig .tc) → Buf (Elt F) ((c : Thread nD τ).loc b))
    (Fz : (w : Fin cfg0.W) → Buf (Elt F) ((cfg0.win w).arr.view.loc (c : Thread nD τ))) (hF : ∀ w, Fz w = V (Pipeline.arrRef spec0 w)) :
    (unscopedBufs c V : sProp 𝕄) ⊢ iprop(dat.arrays Fz ∗ Pipeline.unscopedRest (Ix := Unit) (Name := ℕ) (U := UR sig nD τ) (Lvl := ℕ) spec0 c V) := by
  rw [unscopedBufs_split0 c V]
  refine BIClass.sep_mono ?_ .rfl
  unfold Pipeline.arrBufs
  rw [arrays_eq_whole, bigSep_arr, bigSep_W0]
  -- the shared buffer's two halves, then the other ten windows one by one
  have h01 : ((((c : Thread nD τ).loc (Pipeline.arrRef spec0 1)) ↦{fullShare} V (Pipeline.arrRef spec0 1) : sProp 𝕄))
      ⊢ iprop((((c : Thread nD τ).loc (Pipeline.arrRef spec0 0)) ↦{dat.share 0} Fz 0)
          ∗ (((c : Thread nD τ).loc (Pipeline.arrRef spec0 1)) ↦{dat.share 1} Fz 1)) :=
    (pointsTo_share (PosShare.mem_left_op_right fullShare)).1.trans
      (BIClass.sep_mono (Entails.of_eq (arr_at dat 0 hs0 V Fz (hF 0)).symm) (Entails.of_eq (arr_at dat 1 hs1 V Fz (hF 1)).symm))
  refine (BIClass.sep_mono h01 ?_).trans sep_assoc.1
  refine BIClass.sep_mono (Entails.of_eq (arr_at dat 2 (hs 2 (by decide)) V Fz (hF 2)).symm) ?_
  refine BIClass.sep_mono (Entails.of_eq (arr_at dat 3 (hs 3 (by decide)) V Fz (hF 3)).symm) ?_
  refine BIClass.sep_mono (Entails.of_eq (arr_at dat 4 (hs 4 (by decide)) V Fz (hF 4)).symm) ?_
  refine BIClass.sep_mono (Entails.of_eq (arr_at dat 5 (hs 5 (by decide)) V Fz (hF 5)).symm) ?_
  refine BIClass.sep_mono (Entails.of_eq (arr_at dat 6 (hs 6 (by decide)) V Fz (hF 6)).symm) ?_
  refine BIClass.sep_mono (Entails.of_eq (arr_at dat 7 (hs 7 (by decide)) V Fz (hF 7)).symm) ?_
  refine BIClass.sep_mono (Entails.of_eq (arr_at dat 8 (hs 8 (by decide)) V Fz (hF 8)).symm) ?_
  refine BIClass.sep_mono (Entails.of_eq (arr_at dat 9 (hs 9 (by decide)) V Fz (hF 9)).symm) ?_
  refine BIClass.sep_mono (Entails.of_eq (arr_at dat 10 (hs 10 (by decide)) V Fz (hF 10)).symm) ?_
  exact Entails.of_eq (arr_at dat 11 (hs 11 (by decide)) V Fz (hF 11)).symm

/-- EXIT: the windows' arrays at contents `Fz` and the unscoped rest at `V` are the core's unscoped buffers at any
    valuation `V'` that has the arrays at `Fz` and agrees with `V` off them — the two halves of the buffer under
    windows 0 and 1, both at that buffer's contents under `V'`, joined along the share. -/
theorem unscoped_of_arrays {c : Dev nD} (dat : Dat τ (Elt F) Unit ℕ (UR sig nD τ) ℕ cfg0 c)
    (hs0 : dat.share 0 = fullShare.left) (hs1 : dat.share 1 = fullShare.right) (hs : ∀ w : Fin cfg0.W, 2 ≤ w.val → dat.share w = fullShare)
    (V V' : (b : Ref sig .tc) → Buf (Elt F) ((c : Thread nD τ).loc b))
    (Fz : (w : Fin cfg0.W) → Buf (Elt F) ((cfg0.win w).arr.view.loc (c : Thread nD τ))) (hF : ∀ w, Fz w = V' (Pipeline.arrRef spec0 w))
    (hrest : ∀ b, b ∉ Finset.univ.image (Pipeline.arrRef spec0) → V' b = V b) :
    iprop(dat.arrays Fz ∗ Pipeline.unscopedRest (Ix := Unit) (Name := ℕ) (U := UR sig nD τ) (Lvl := ℕ) spec0 c V) ⊢ (unscopedBufs c V' : sProp 𝕄) := by
  rw [unscopedBufs_split0 c V']
  refine BIClass.sep_mono ?_ (Entails.of_eq ?_)
  · unfold Pipeline.arrBufs
    rw [arrays_eq_whole, bigSep_arr, bigSep_W0]
    have h01 : iprop((((c : Thread nD τ).loc (Pipeline.arrRef spec0 0)) ↦{dat.share 0} Fz 0)
          ∗ (((c : Thread nD τ).loc (Pipeline.arrRef spec0 1)) ↦{dat.share 1} Fz 1))
        ⊢ ((((c : Thread nD τ).loc (Pipeline.arrRef spec0 1)) ↦{fullShare} V' (Pipeline.arrRef spec0 1) : sProp 𝕄)) :=
      (BIClass.sep_mono (Entails.of_eq (arr_at dat 0 hs0 V' Fz (hF 0))) (Entails.of_eq (arr_at dat 1 hs1 V' Fz (hF 1)))).trans
        (pointsTo_share (PosShare.mem_left_op_right fullShare)).2
    refine sep_assoc.2.trans (BIClass.sep_mono h01 ?_)
    refine BIClass.sep_mono (Entails.of_eq (arr_at dat 2 (hs 2 (by decide)) V' Fz (hF 2))) ?_
    refine BIClass.sep_mono (Entails.of_eq (arr_at dat 3 (hs 3 (by decide)) V' Fz (hF 3))) ?_
    refine BIClass.sep_mono (Entails.of_eq (arr_at dat 4 (hs 4 (by decide)) V' Fz (hF 4))) ?_
    refine BIClass.sep_mono (Entails.of_eq (arr_at dat 5 (hs 5 (by decide)) V' Fz (hF 5))) ?_
    refine BIClass.sep_mono (Entails.of_eq (arr_at dat 6 (hs 6 (by decide)) V' Fz (hF 6))) ?_
    refine BIClass.sep_mono (Entails.of_eq (arr_at dat 7 (hs 7 (by decide)) V' Fz (hF 7))) ?_
    refine BIClass.sep_mono (Entails.of_eq (arr_at dat 8 (hs 8 (by decide)) V' Fz (hF 8))) ?_
    refine BIClass.sep_mono (Entails.of_eq (arr_at dat 9 (hs 9 (by decide)) V' Fz (hF 9))) ?_
    refine BIClass.sep_mono (Entails.of_eq (arr_at dat 10 (hs 10 (by decide)) V' Fz (hF 10))) ?_
    exact Entails.of_eq (arr_at dat 11 (hs 11 (by decide)) V' Fz (hF 11))
  · unfold Pipeline.unscopedRest
    exact bigSep_congr fun b hb => by rw [hrest b (Finset.mem_sdiff.mp hb).2]

end Cert.KernelIdeal.Frame
-- ==== Proof.IdealFrame.Launch.lean ====
/-
  The run of @main: host operations (two transposes, the sum of the gate biases, six reshapes), the kernel region, host
  operations (the two results reshaped back to [10000,128]). The TensorCore's unscoped buffers are followed as a
  valuation through the three segments: at the launch, after the first host stretch (what the region is entered from),
  at the region's exit (the two output arrays at what the write-backs left, every other buffer as entered), and after
  the last stretch. The adjacency array enters the region split in two half shares, one per window laid on it, and the
  halves are joined again at the exit.
-/
import proofs.«129324_g90469191123580_cont_sun_m_503_16_alg».proof.Proof.IdealFrame.Data
import proofs.«129324_g90469191123580_cont_sun_m_503_16_alg».proof.Proof.IdealFrame.Arrays

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the first host stretch: the region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At the region's exit: the two output arrays at what the pipeline's write-backs leave, every other buffer as entered. -/
def W2 (c : Dev nD) : Valuation τ sig (Elt F) := fun b =>
  if h : Proc.devRef .tc (Pipeline.arrRef spec0 10) = b then
    cast (congrArg (fun b' : DevRef τ sig => b'.ty.Contents (Elt F)) h) ((dat0 (V1 m ρ) c).arrAt 10 cfg0.N)
  else if h : Proc.devRef .tc (Pipeline.arrRef spec0 11) = b then
    cast (congrArg (fun b' : DevRef τ sig => b'.ty.Contents (Elt F)) h) ((dat0 (V1 m ρ) c).arrAt 11 cfg0.N)
  else W1 m ρ c b

theorem W2_10 (c : Dev nD) : W2 m ρ c (Proc.devRef .tc (Pipeline.arrRef spec0 10)) = (dat0 (V1 m ρ) c).arrAt 10 cfg0.N := by
  unfold W2; rw [dif_pos rfl]; rfl
theorem W2_11 (c : Dev nD) : W2 m ρ c (Proc.devRef .tc (Pipeline.arrRef spec0 11)) = (dat0 (V1 m ρ) c).arrAt 11 cfg0.N := by
  unfold W2; rw [dif_neg (StableHlo.devRef_ne_of_ne (by decide)), dif_pos rfl]; rfl
theorem W2_of_ne (c : Dev nD) (b : Ref sig .tc) (h10 : Pipeline.arrRef spec0 10 ≠ b) (h11 : Pipeline.arrRef spec0 11 ≠ b) :
    W2 m ρ c (Proc.devRef .tc b) = W1 m ρ c (Proc.devRef .tc b) := by
  unfold W2; rw [dif_neg (StableHlo.devRef_ne_of_ne h10), dif_neg (StableHlo.devRef_ne_of_ne h11)]
abbrev V2 : (c : Dev nD) → (b : Ref sig .tc) → Buf (Elt F) ((c : Thread nD τ).loc b) := fun c b => W2 m ρ c b

/-- At the exit every window's array holds what the pipeline computes for it: an input's is never written. -/
theorem hF (c : Dev nD) : ∀ w : Fin cfg0.W, (dat0 (V1 m ρ) c).arrAt w cfg0.N = V2 m ρ c (Pipeline.arrRef spec0 w)
  | ⟨0, _⟩ => (((dat0 (V1 m ρ) c).arrAt_in 0 rfl _).trans (A_eq (V1 m ρ) c 0)).trans (W2_of_ne m ρ c _ (by decide) (by decide)).symm
  | ⟨1, _⟩ => (((dat0 (V1 m ρ) c).arrAt_in 1 rfl _).trans (A_eq (V1 m ρ) c 1)).trans (W2_of_ne m ρ c _ (by decide) (by decide)).symm
  | ⟨2, _⟩ => (((dat0 (V1 m ρ) c).arrAt_in 2 rfl _).trans (A_eq (V1 m ρ) c 2)).trans (W2_of_ne m ρ c _ (by decide) (by decide)).symm
  | ⟨3, _⟩ => (((dat0 (V1 m ρ) c).arrAt_in 3 rfl _).trans (A_eq (V1 m ρ) c 3)).trans (W2_of_ne m ρ c _ (by decide) (by decide)).symm
  | ⟨4, _⟩ => (((dat0 (V1 m ρ) c).arrAt_in 4 rfl _).trans (A_eq (V1 m ρ) c 4)).trans (W2_of_ne m ρ c _ (by decide) (by decide)).symm
  | ⟨5, _⟩ => (((dat0 (V1 m ρ) c).arrAt_in 5 rfl _).trans (A_eq (V1 m ρ) c 5)).trans (W2_of_ne m ρ c _ (by decide) (by decide)).symm
  | ⟨6, _⟩ => (((dat0 (V1 m ρ) c).arrAt_in 6 rfl _).trans (A_eq (V1 m ρ) c 6)).trans (W2_of_ne m ρ c _ (by decide) (by decide)).symm
  | ⟨7, _⟩ => (((dat0 (V1 m ρ) c).arrAt_in 7 rfl _).trans (A_eq (V1 m ρ) c 7)).trans (W2_of_ne m ρ c _ (by decide) (by decide)).symm
  | ⟨8, _⟩ => (((dat0 (V1 m ρ) c).arrAt_in 8 rfl _).trans (A_eq (V1 m ρ) c 8)).trans (W2_of_ne m ρ c _ (by decide) (by decide)).symm
  | ⟨9, _⟩ => (((dat0 (V1 m ρ) c).arrAt_in 9 rfl _).trans (A_eq (V1 m ρ) c 9)).trans (W2_of_ne m ρ c _ (by decide) (by decide)).symm
  | ⟨10, _⟩ => (W2_10 m ρ c).symm
  | ⟨11, _⟩ => (W2_11 m ρ c).symm
theorem hrest (c : Dev nD) : ∀ b, b ∉ Finset.univ.image (Pipeline.arrRef spec0) → V2 m ρ c b = V1 m ρ c b :=
  fun b hb => W2_of_ne m ρ c b (fun e => hb (Finset.mem_image.mpr ⟨10, Finset.mem_univ _, e⟩))
    (fun e => hb (Finset.mem_image.mpr ⟨11, Finset.mem_univ _, e⟩))

/-- After the last host stretch: the return. -/
abbrev W3 : Dev nD → Valuation τ sig (Elt F) := fun c => StableHlo.after hostOps1 (W2 m ρ c)

/-! ## No host operation writes an argument -/

theorem keep0 (V : Valuation τ sig (Elt F)) (r : Ref sig .tc)
    (hr : r ∉ [main_call0_v0, main_call0_v1, main_call0_v2, main_call0_v3, main_call0_v4, main_call0_v5, main_call0_v6, main_call0_v7]) :
    StableHlo.after hostOps0 V (Proc.devRef .tc r) = V (Proc.devRef .tc r) :=
  StableHlo.after_of_writes_sub hostOps0 V (by
    simp only [hostOps0, List.Forall, StableHlo.unary_writes, StableHlo.binary_writes, StableHlo.reshape_writes, Finset.singleton_subset_iff, List.mem_toFinset]
    repeat' apply And.intro
    all_goals exact List.mem_map_of_mem (by decide)) hr

theorem keep1 (V : Valuation τ sig (Elt F)) (r : Ref sig .tc) (hr : r ∉ [main_v0_0, main_v0_1]) :
    StableHlo.after hostOps1 V (Proc.devRef .tc r) = V (Proc.devRef .tc r) :=
  StableHlo.after_of_writes_sub hostOps1 V (by
    simp only [hostOps1, List.Forall, StableHlo.unary_writes, StableHlo.binary_writes, StableHlo.reshape_writes, Finset.singleton_subset_iff, List.mem_toFinset]
    repeat' apply And.intro
    all_goals exact List.mem_map_of_mem (by decide)) hr

/-- An argument array ends as launched: neither host stretch writes it and the region only reads it. -/
theorem W3_arg (c : Dev nD) (r : Ref sig .tc)
    (h0 : r ∉ [main_call0_v0, main_call0_v1, main_call0_v2, main_call0_v3, main_call0_v4, main_call0_v5, main_call0_v6, main_call0_v7])
    (h1 : r ∉ [main_v0_0, main_v0_1]) (h10 : Pipeline.arrRef spec0 10 ≠ r) (h11 : Pipeline.arrRef spec0 11 ≠ r) :
    W3 m ρ c (Proc.devRef .tc r) = m ((c : Thread nD τ).loc r) :=
  calc W3 m ρ c (Proc.devRef .tc r)
    _ = W2 m ρ c (Proc.devRef .tc r) := keep1 _ r h1
    _ = W1 m ρ c (Proc.devRef .tc r) := W2_of_ne m ρ c r h10 h11
    _ = W0 m ρ c (Proc.devRef .tc r) := keep0 _ r h0
    _ = m ((c : Thread nD τ).loc r) := rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The shares the proof data hold the arrays at -/

theorem share_0 (V : (c : Dev nD) → (b : Ref sig .tc) → Buf (Elt F) ((c : Thread nD τ).loc b)) (c : Dev nD) :
    (dat0 V c).share 0 = fullShare.left := by
  unfold Dat.share; rw [if_neg (by decide)]; rfl
theorem share_1 (V : (c : Dev nD) → (b : Ref sig .tc) → Buf (Elt F) ((c : Thread nD τ).loc b)) (c : Dev nD) :
    (dat0 V c).share 1 = fullShare.right := by
  unfold Dat.share; rw [if_neg (by decide)]; rfl
theorem share_ge2 (V : (c : Dev nD) → (b : Ref sig .tc) → Buf (Elt F) ((c : Thread nD τ).loc b)) (c : Dev nD) :
    ∀ w : Fin cfg0.W, 2 ≤ w.val → (dat0 V c).share w = fullShare := by
  intro w hw
  unfold Dat.share
  split
  · rfl
  · show qOf w = fullShare
    unfold qOf
    rw [if_neg (by omega), if_neg (by omega)]

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := arrays_of_unscoped (pdats m ρ 0 c) (share_0 (V1 m ρ) c) (share_1 (V1 m ρ) c) (share_ge2 (V1 m ρ) c)
      (V1 m ρ c) ((pdats m ρ 0 c).arrAt · 0) (fun w => A_eq (V1 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin (V1 m ρ) c)
    unfold Pipeline.ΦA
    iintro ⟨Hp, -, Hr⟩
    isplitl [Hr]; · iexact Hr
    iexact Hp
  hout c := by
    rw [Pipeline.ownSems0_none]
    refine (hout (V1 m ρ) c).trans ?_
    unfold Pipeline.ΦA
    iintro ⟨Hr, Hp⟩
    isplitl [Hp]; · iexact Hp
    isplitr; · iempintro
    iexact Hr
  hexit c := by
    have hjoin := unscoped_of_arrays (pdats m ρ 0 c) (share_0 (V1 m ρ) c) (share_1 (V1 m ρ) c) (share_ge2 (V1 m ρ) c)
      (V1 m ρ c) (V2 m ρ c) ((pdats m ρ 0 c).arrAt · cfg0.N) (hF m ρ c) (hrest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- From any memory with zero counters every weakly fair execution of @main terminates, nothing faulting, and every
    unscoped buffer of the TensorCore ends at the last boundary's contents. -/
theorem run_W3 : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the program runs to the end, faults nowhere, and leaves its ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c _ (mem_uc main_arg0 (by decide))).trans (W3_arg m ρ c main_arg0 (by decide) (by decide) (by decide) (by decide)),
    (h c _ (mem_uc main_arg1 (by decide))).trans (W3_arg m ρ c main_arg1 (by decide) (by decide) (by decide) (by decide)),
    (h c _ (mem_uc main_arg2 (by decide))).trans (W3_arg m ρ c main_arg2 (by decide) (by decide) (by decide) (by decide)),
    (h c _ (mem_uc main_arg3 (by decide))).trans (W3_arg m ρ c main_arg3 (by decide) (by decide) (by decide) (by decide)),
    (h c _ (mem_uc main_arg4 (by decide))).trans (W3_arg m ρ c main_arg4 (by decide) (by decide) (by decide) (by decide)),
    (h c _ (mem_uc main_arg5 (by decide))).trans (W3_arg m ρ c main_arg5 (by decide) (by decide) (by decide) (by decide)),
    (h c _ (mem_uc main_arg6 (by decide))).trans (W3_arg m ρ c main_arg6 (by decide) (by decide) (by decide) (by decide)),
    (h c _ (mem_uc main_arg7 (by decide))).trans (W3_arg m ρ c main_arg7 (by decide) (by decide) (by decide) (by decide)),
    (h c _ (mem_uc main_arg8 (by decide))).trans (W3_arg m ρ c main_arg8 (by decide) (by decide) (by decide) (by decide)),
    (h c _ (mem_uc main_arg9 (by decide))).trans (W3_arg m ρ c main_arg9 (by decide) (by decide) (by decide) (by decide))⟩)
    (run_W3 m ρ)

end Cert.KernelIdeal.Frame

end
-- ==== Proof.IdealFrame.Pieces.lean ====
/-
  What the two runs leave, read back as values. The first point's one store into the scratch is the support matrix
  `x · g` (the payload of the matrix product of the two loaded blocks). Each output block is written in two stores —
  rows [0] by the top-half arithmetic, rows [1] by the bottom-half arithmetic — and each store's payload is the
  skeleton's pure function of the blocks the body loaded: the adjacency stripe, the support scratch, the bias row, the
  two weight matrices, the hidden rows and cell rows of that half, and the gate-bias row.
-/
import proofs.«129324_g90469191123580_cont_sun_m_503_16_alg».proof.Proof.IdealFrame.Data
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The two halves of a [2,200,128] block: rows [0] and rows [1]. -/
abbrev rc0 : Rect S2x200x128 := Rect.unit (s := S2x200x128) ![0, 0, 0] S1x200x128.size inb_S2x200x128_S1x200x128_0_0_0
abbrev rc1 : Rect S2x200x128 := Rect.unit (s := S2x200x128) ![1, 0, 0] S1x200x128.size inb_S2x200x128_S1x200x128_1_0_0

/-- The top half's new cell rows and hidden rows, and the bottom half's, as functions of what the body loads: the
    adjacency stripe `a`, the support `s`, the bias row `b`, the weights `wx wh`, the hidden rows `h`, the gate
    bias row `gb`, the cell rows `cx`. -/
def topCy (a : Vec F S1x200x10000 .f32) (s : Vec F S10000x128 .f32) (b : Vec F S1x128 .f32) (wx : Vec F S128x512 .f32)
    (h : Vec F S1x200x128 .f32) (wh : Vec F S128x512 .f32) (gb : Vec F S1x512 .f32) (cx : Vec F S1x200x128 .f32) : Vec F S1x200x128 .f32 :=
  k0_pay12 (k0_pay7 a s b wx h wh gb) (k0_pay8 a s b wx h wh gb) (k0_pay9 a s b wx h wh gb) cx
def topHy (a : Vec F S1x200x10000 .f32) (s : Vec F S10000x128 .f32) (b : Vec F S1x128 .f32) (wx : Vec F S128x512 .f32)
    (h : Vec F S1x200x128 .f32) (wh : Vec F S128x512 .f32) (gb : Vec F S1x512 .f32) (cx : Vec F S1x200x128 .f32) : Vec F S1x200x128 .f32 :=
  k0_pay13 (k0_pay7 a s b wx h wh gb) (k0_pay8 a s b wx h wh gb) (k0_pay9 a s b wx h wh gb) (k0_pay10 a s b wx h wh gb) cx
def botCy (a : Vec F S1x200x10000 .f32) (s : Vec F S10000x128 .f32) (b : Vec F S1x128 .f32) (wx : Vec F S128x512 .f32)
    (h : Vec F S1x200x128 .f32) (wh : Vec F S128x512 .f32) (gb : Vec F S1x512 .f32) (cx : Vec F S1x200x128 .f32) : Vec F S1x200x128 .f32 :=
  k0_pay3 (k0_pay14 a s b wx h wh) gb cx
def botHy (a : Vec F S1x200x10000 .f32) (s : Vec F S10000x128 .f32) (b : Vec F S1x128 .f32) (wx : Vec F S128x512 .f32)
    (h : Vec F S1x200x128 .f32) (wh : Vec F S128x512 .f32) (gb : Vec F S1x512 .f32) (cx : Vec F S1x200x128 .f32) : Vec F S1x200x128 .f32 :=
  k0_pay4 (k0_pay14 a s b wx h wh) gb cx

/-- The first point leaves the support matrix in the scratch. -/
theorem sout_A_eq (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : cond0 i) (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) :
    sout_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = k0_pay5 x2 x3 := by
  unfold sout_A
  rw [View.read_writes_eq_canon _ _ _ (scover_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  unfold kernelRun_A
  dsimp only
  sl_unfold_words
  rw [View.canon_unit_zero (S := S10000x128) hz2]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S1x200x10000) hz3, View.ld_unit_zero (S := S10000x128) hz2, View.ld_unit_zero (S := S128x128) hz2,
    View.ld_unit_zero (S := S128x512) hz2, View.ld_unit_zero (S := S1x512) hz2, View.ld_unit_zero (S := S1x128) hz2,
    View.readCov_unit_zero (S := S10000x128) _ hz2]

/-- The first point's hidden-state block: two stores, the bottom half's then the top half's, over the support it has
    just stored. -/
theorem out_A_10_eq (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : cond0 i) (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) :
    out_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9
      = View.canon [⟨rc1, botHy x1 (k0_pay5 x2 x3) x9 x6 (View.ld x4 rc1) x7 x8 (View.ld x5 rc1)⟩, ⟨rc0, topHy x0 (k0_pay5 x2 x3) x9 x6 (View.ld x4 rc0) x7 x8 (View.ld x5 rc0)⟩] := by
  unfold out_A_10
  rw [View.read_writes_eq_canon _ _ _ (cover_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  unfold kernelRun_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread,
    View.ld_unit_zero (S := S1x200x10000) hz3, View.ld_unit_zero (S := S10000x128) hz2, View.ld_unit_zero (S := S128x128) hz2,
    View.ld_unit_zero (S := S128x512) hz2, View.ld_unit_zero (S := S1x512) hz2, View.ld_unit_zero (S := S1x128) hz2,
    View.readCov_unit_zero (S := S10000x128) _ hz2]
  rfl

theorem out_A_11_eq (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : cond0 i) (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) :
    out_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9
      = View.canon [⟨rc1, botCy x1 (k0_pay5 x2 x3) x9 x6 (View.ld x4 rc1) x7 x8 (View.ld x5 rc1)⟩, ⟨rc0, topCy x0 (k0_pay5 x2 x3) x9 x6 (View.ld x4 rc0) x7 x8 (View.ld x5 rc0)⟩] := by
  unfold out_A_11
  rw [View.read_writes_eq_canon _ _ _ (cover_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  unfold kernelRun_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread,
    View.ld_unit_zero (S := S1x200x10000) hz3, View.ld_unit_zero (S := S10000x128) hz2, View.ld_unit_zero (S := S128x128) hz2,
    View.ld_unit_zero (S := S128x512) hz2, View.ld_unit_zero (S := S1x512) hz2, View.ld_unit_zero (S := S1x128) hz2,
    View.readCov_unit_zero (S := S10000x128) _ hz2]
  rfl

/-- A later point's blocks: the same two stores, over the scratch `xs` the point before left. -/
theorem out_B_10_eq (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : ¬cond0 i) (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) (xs : Vec F S10000x128 .f32) :
    out_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs
      = View.canon [⟨rc1, botHy x1 xs x9 x6 (View.ld x4 rc1) x7 x8 (View.ld x5 rc1)⟩, ⟨rc0, topHy x0 xs x9 x6 (View.ld x4 rc0) x7 x8 (View.ld x5 rc0)⟩] := by
  unfold out_B_10
  rw [View.read_writes_eq_canon _ _ _ (cover_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs)]
  unfold kernelRun_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg13.read_unread,
    View.ld_unit_zero (S := S1x200x10000) hz3, View.ld_unit_zero (S := S10000x128) hz2, View.ld_unit_zero (S := S128x128) hz2,
    View.ld_unit_zero (S := S128x512) hz2, View.ld_unit_zero (S := S1x512) hz2, View.ld_unit_zero (S := S1x128) hz2]
  rfl

theorem out_B_11_eq (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S2x200x128 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2x200x128 .f32) (harg11 : arg11.IsWhole) (arg12 : Memref sig .tc .vmem S2x200x128 .f32) (harg12 : arg12.IsWhole) (arg13 : Memref sig .tc .vmem S10000x128 .f32) (harg13 : arg13.IsWhole) (hc0 : ¬cond0 i) (x0 : Vec F S1x200x10000 .f32) (x1 : Vec F S1x200x10000 .f32) (x2 : Vec F S10000x128 .f32) (x3 : Vec F S128x128 .f32) (x4 : Vec F S2x200x128 .f32) (x5 : Vec F S2x200x128 .f32) (x6 : Vec F S128x512 .f32) (x7 : Vec F S128x512 .f32) (x8 : Vec F S1x512 .f32) (x9 : Vec F S1x128 .f32) (xs : Vec F S10000x128 .f32) :
    out_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs
      = View.canon [⟨rc1, botCy x1 xs x9 x6 (View.ld x4 rc1) x7 x8 (View.ld x5 rc1)⟩, ⟨rc0, topCy x0 xs x9 x6 (View.ld x4 rc0) x7 x8 (View.ld x5 rc0)⟩] := by
  unfold out_B_11
  rw [View.read_writes_eq_canon _ _ _ (cover_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs)]
  unfold kernelRun_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg13.read_unread,
    View.ld_unit_zero (S := S1x200x10000) hz3, View.ld_unit_zero (S := S10000x128) hz2, View.ld_unit_zero (S := S128x128) hz2,
    View.ld_unit_zero (S := S128x512) hz2, View.ld_unit_zero (S := S1x512) hz2, View.ld_unit_zero (S := S1x128) hz2]
  rfl

/-! ## The two halves at an index -/

theorem rc0_idx (r : Fin 200) (l : Fin 128) : rc0.idx (ix3 (0 : Fin 1) r l) = (ix3 (0 : Fin 2) r l : S2x200x128.Idx) := by
  funext a; apply Fin.ext
  match a with
  | ⟨0, _⟩ => show 0 + 1 * 0 = 0; rfl
  | ⟨1, _⟩ => show 0 + 1 * r.val = r.val; omega
  | ⟨2, _⟩ => show 0 + 1 * l.val = l.val; omega
theorem rc1_idx (r : Fin 200) (l : Fin 128) : rc1.idx (ix3 (0 : Fin 1) r l) = (ix3 (1 : Fin 2) r l : S2x200x128.Idx) := by
  funext a; apply Fin.ext
  match a with
  | ⟨0, _⟩ => show 1 + 1 * 0 = 1; rfl
  | ⟨1, _⟩ => show 0 + 1 * r.val = r.val; omega
  | ⟨2, _⟩ => show 0 + 1 * l.val = l.val; omega

/-- A load of rows [0] of a [2,200,128] block reads it at (0, r, l); of rows [1], at (1, r, l). -/
theorem ld_rc0_apply (X : Vec F S2x200x128 .f32) (r : Fin 200) (l : Fin 128) :
    View.ld X rc0 (ix3 (0 : Fin 1) r l) = X (ix3 (0 : Fin 2) r l) := by
  show X (rc0.idx (ix3 (0 : Fin 1) r l)) = _; rw [rc0_idx]
theorem ld_rc1_apply (X : Vec F S2x200x128 .f32) (r : Fin 200) (l : Fin 128) :
    View.ld X rc1 (ix3 (0 : Fin 1) r l) = X (ix3 (1 : Fin 2) r l) := by
  show X (rc1.idx (ix3 (0 : Fin 1) r l)) = _; rw [rc1_idx]

/-- A block written as rows [1] then rows [0], read at (h, r, l): the half's payload at (0, r, l). -/
theorem canon2_apply [∀ e, Nonempty (Elt F e)] (p1 p0 : Vec F S1x200x128 .f32) (h : Fin 2) (r : Fin 200) (l : Fin 128) :
    View.canon [(⟨rc1, p1⟩ : View.Piece (Elt F) S2x200x128 .f32), ⟨rc0, p0⟩] (ix3 h r l)
      = if h.val = 0 then p0 (ix3 (0 : Fin 1) r l) else p1 (ix3 (0 : Fin 1) r l) := by
  by_cases hh : h.val = 0
  · rw [if_pos hh]
    have h0 : h = 0 := Fin.ext hh
    subst h0
    have hnm : (ix3 (0 : Fin 2) r l : S2x200x128.Idx) ∉ (⟨rc1, p1⟩ : View.Piece (Elt F) S2x200x128 .f32).1.set := by
      show _ ∉ rc1.set
      rw [Rect.mem_set_unit]
      intro hm
      have := (hm 0).1
      exact absurd (show (1 : ℕ) ≤ 0 from this) (by omega)
    rw [View.canon_cons_of_not_mem _ _ hnm, ← rc0_idx r l]
    exact View.canon_cons_emb rc0 p0 [] (ix3 (0 : Fin 1) r l)
  · rw [if_neg hh]
    have h1 : h = 1 := Fin.ext (by have := h.isLt; omega)
    subst h1
    rw [← rc1_idx r l]
    exact View.canon_cons_emb rc1 p1 _ (ix3 (0 : Fin 1) r l)

end Cert.KernelIdeal.Frame

end
-- ==== Proof.IdealFrame.BlockIdx.lean ====
/-
  Each window's block at a grid point, read at an index, is the window's array at the global index. The grid has 25
  points. A block's coordinate on an axis is the block index times the block's size plus the coordinate inside the
  block. The two adjacency windows take rows 200 t … 200 t + 199 of halves 0 and 1; the hidden, cell and the two
  output windows take the same rows of both halves; the six remaining operands are whole arrays at block index 0. The
  output windows' 25 blocks cover their arrays: row R lies in the block of point R / 200.
-/
import proofs.«129324_g90469191123580_cont_sun_m_503_16_alg».proof.Proof.IdealFrame.Shared
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

/-! ## The index maps, decided over the grid -/

/-- The rank-3 windows' block indices at point `t`: `(0, t, 0)`, for the second adjacency window `(1, t, 0)`. -/
theorem idx_facts3 : ∀ t : Fin cfg0.N,
    (win0_0.index t (0 : Fin 3) = 0 ∧ win0_0.index t (1 : Fin 3) = t.val ∧ win0_0.index t (2 : Fin 3) = 0)
    ∧ (win0_1.index t (0 : Fin 3) = 1 ∧ win0_1.index t (1 : Fin 3) = t.val ∧ win0_1.index t (2 : Fin 3) = 0)
    ∧ (win0_4.index t (0 : Fin 3) = 0 ∧ win0_4.index t (1 : Fin 3) = t.val ∧ win0_4.index t (2 : Fin 3) = 0)
    ∧ (win0_5.index t (0 : Fin 3) = 0 ∧ win0_5.index t (1 : Fin 3) = t.val ∧ win0_5.index t (2 : Fin 3) = 0)
    ∧ (win0_10.index t (0 : Fin 3) = 0 ∧ win0_10.index t (1 : Fin 3) = t.val ∧ win0_10.index t (2 : Fin 3) = 0)
    ∧ (win0_11.index t (0 : Fin 3) = 0 ∧ win0_11.index t (1 : Fin 3) = t.val ∧ win0_11.index t (2 : Fin 3) = 0) :=
  (by decide +kernel : ∀ t : Fin grid0.N, _)

/-- The whole-array windows' block indices at every point: `(0, 0)`. -/
theorem idx_facts2 : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- Row `r` of the block at point `t` is row `200 t + r` of a half of the array. -/
def grow (t : Fin cfg0.N) (r : Fin 200) : Fin 5000 :=
  ⟨200 * t.val + r.val, by have := t.isLt; have h : cfg0.N = 25 := N_0; have := r.isLt; omega⟩
@[simp] theorem grow_val (t : Fin cfg0.N) (r : Fin 200) : (grow t r).val = 200 * t.val + r.val := rfl

/-! ## The row-stripe input windows -/

theorem iblk_0_apply (c : Dev nD) (t : Fin cfg0.N) (r : Fin 200) (k : Fin 10000) :
    (iblk V c 0 t : Vec F S1x200x10000 .f32) (ix3 (0 : Fin 1) r k)
      = (V c main_call0_v5 : Vec F S2x5000x10000 .f32) (ix3 (0 : Fin 2) (grow t r) k) := by
  obtain ⟨e0, e1, e2⟩ := (fun x => x.1) (idx_facts3 t)
  show V c main_call0_v5 (((cfg0.win 0).blk t).view.emb (ix3 (0 : Fin 1) r k)) = V c main_call0_v5 (ix3 (0 : Fin 2) (grow t r) k)
  refine congrArg _ ?_
  funext a; apply Fin.ext
  match a with
  | ⟨0, _⟩ => show win0_0.index t (0 : Fin 3) * 1 + 1 * ((0 : ℕ)) = 0; omega
  | ⟨1, _⟩ => show win0_0.index t (1 : Fin 3) * 200 + 1 * r.val = 200 * t.val + r.val; omega
  | ⟨2, _⟩ => show win0_0.index t (2 : Fin 3) * 10000 + 1 * k.val = k.val; omega

theorem iblk_1_apply (c : Dev nD) (t : Fin cfg0.N) (r : Fin 200) (k : Fin 10000) :
    (iblk V c 1 t : Vec F S1x200x10000 .f32) (ix3 (0 : Fin 1) r k)
      = (V c main_call0_v5 : Vec F S2x5000x10000 .f32) (ix3 (1 : Fin 2) (grow t r) k) := by
  obtain ⟨e0, e1, e2⟩ := (fun x => x.2.1) (idx_facts3 t)
  show V c main_call0_v5 (((cfg0.win 1).blk t).view.emb (ix3 (0 : Fin 1) r k)) = V c main_call0_v5 (ix3 (1 : Fin 2) (grow t r) k)
  refine congrArg _ ?_
  funext a; apply Fin.ext
  match a with
  | ⟨0, _⟩ => show win0_1.index t (0 : Fin 3) * 1 + 1 * ((0 : ℕ)) = 1; omega
  | ⟨1, _⟩ => show win0_1.index t (1 : Fin 3) * 200 + 1 * r.val = 200 * t.val + r.val; omega
  | ⟨2, _⟩ => show win0_1.index t (2 : Fin 3) * 10000 + 1 * k.val = k.val; omega

theorem iblk_4_apply (c : Dev nD) (t : Fin cfg0.N) (h : Fin 2) (r : Fin 200) (l : Fin 128) :
    (iblk V c 4 t : Vec F S2x200x128 .f32) (ix3 h r l)
      = (V c main_call0_v6 : Vec F S2x5000x128 .f32) (ix3 h (grow t r) l) := by
  obtain ⟨e0, e1, e2⟩ := (fun x => x.2.2.1) (idx_facts3 t)
  show V c main_call0_v6 (((cfg0.win 4).blk t).view.emb (ix3 h r l)) = V c main_call0_v6 (ix3 h (grow t r) l)
  refine congrArg _ ?_
  funext a; apply Fin.ext
  match a with
  | ⟨0, _⟩ => show win0_4.index t (0 : Fin 3) * 2 + 1 * (h.val) = h.val; omega
  | ⟨1, _⟩ => show win0_4.index t (1 : Fin 3) * 200 + 1 * r.val = 200 * t.val + r.val; omega
  | ⟨2, _⟩ => show win0_4.index t (2 : Fin 3) * 128 + 1 * l.val = l.val; omega

theorem iblk_5_apply (c : Dev nD) (t : Fin cfg0.N) (h : Fin 2) (r : Fin 200) (l : Fin 128) :
    (iblk V c 5 t : Vec F S2x200x128 .f32) (ix3 h r l)
      = (V c main_call0_v7 : Vec F S2x5000x128 .f32) (ix3 h (grow t r) l) := by
  obtain ⟨e0, e1, e2⟩ := (fun x => x.2.2.2.1) (idx_facts3 t)
  show V c main_call0_v7 (((cfg0.win 5).blk t).view.emb (ix3 h r l)) = V c main_call0_v7 (ix3 h (grow t r) l)
  refine congrArg _ ?_
  funext a; apply Fin.ext
  match a with
  | ⟨0, _⟩ => show win0_5.index t (0 : Fin 3) * 2 + 1 * (h.val) = h.val; omega
  | ⟨1, _⟩ => show win0_5.index t (1 : Fin 3) * 200 + 1 * r.val = 200 * t.val + r.val; omega
  | ⟨2, _⟩ => show win0_5.index t (2 : Fin 3) * 128 + 1 * l.val = l.val; omega

/-! ## The whole-array input windows -/

theorem iblk_2_eq (c : Dev nD) (t : Fin cfg0.N) :
    (iblk V c 2 t : Vec F S10000x128 .f32) = (V c main_arg0 : Vec F S10000x128 .f32) := by
  obtain ⟨e0, e1⟩ := (fun x => x.1) (idx_facts2 t)
  funext j
  show V c main_arg0 (((cfg0.win 2).blk t).view.emb j) = V c main_arg0 j
  refine congrArg _ ?_
  funext a; apply Fin.ext
  match a with
  | ⟨0, _⟩ => show win0_2.index t (0 : Fin 2) * 10000 + 1 * (j 0).val = (j 0).val; omega
  | ⟨1, _⟩ => show win0_2.index t (1 : Fin 2) * 128 + 1 * (j 1).val = (j 1).val; omega

theorem iblk_3_eq (c : Dev nD) (t : Fin cfg0.N) :
    (iblk V c 3 t : Vec F S128x128 .f32) = (V c main_arg4 : Vec F S128x128 .f32) := by
  obtain ⟨e0, e1⟩ := (fun x => x.2.1) (idx_facts2 t)
  funext j
  show V c main_arg4 (((cfg0.win 3).blk t).view.emb j) = V c main_arg4 j
  refine congrArg _ ?_
  funext a; apply Fin.ext
  match a with
  | ⟨0, _⟩ => show win0_3.index t (0 : Fin 2) * 128 + 1 * (j 0).val = (j 0).val; omega
  | ⟨1, _⟩ => show win0_3.index t (1 : Fin 2) * 128 + 1 * (j 1).val = (j 1).val; omega

theorem iblk_6_eq (c : Dev nD) (t : Fin cfg0.N) :
    (iblk V c 6 t : Vec F S128x512 .f32) = (V c main_call0_v0 : Vec F S128x512 .f32) := by
  obtain ⟨e0, e1⟩ := (fun x => x.2.2.1) (idx_facts2 t)
  funext j
  show V c main_call0_v0 (((cfg0.win 6).blk t).view.emb j) = V c main_call0_v0 j
  refine congrArg _ ?_
  funext a; apply Fin.ext
  match a with
  | ⟨0, _⟩ => show win0_6.index t (0 : Fin 2) * 128 + 1 * (j 0).val = (j 0).val; omega
  | ⟨1, _⟩ => show win0_6.index t (1 : Fin 2) * 512 + 1 * (j 1).val = (j 1).val; omega

theorem iblk_7_eq (c : Dev nD) (t : Fin cfg0.N) :
    (iblk V c 7 t : Vec F S128x512 .f32) = (V c main_call0_v1 : Vec F S128x512 .f32) := by
  obtain ⟨e0, e1⟩ := (fun x => x.2.2.2.1) (idx_facts2 t)
  funext j
  show V c main_call0_v1 (((cfg0.win 7).blk t).view.emb j) = V c main_call0_v1 j
  refine congrArg _ ?_
  funext a; apply Fin.ext
  match a with
  | ⟨0, _⟩ => show win0_7.index t (0 : Fin 2) * 128 + 1 * (j 0).val = (j 0).val; omega
  | ⟨1, _⟩ => show win0_7.index t (1 : Fin 2) * 512 + 1 * (j 1).val = (j 1).val; omega

theorem iblk_8_eq (c : Dev nD) (t : Fin cfg0.N) :
    (iblk V c 8 t : Vec F S1x512 .f32) = (V c main_call0_v3 : Vec F S1x512 .f32) := by
  obtain ⟨e0, e1⟩ := (fun x => x.2.2.2.2.1) (idx_facts2 t)
  funext j
  show V c main_call0_v3 (((cfg0.win 8).blk t).view.emb j) = V c main_call0_v3 j
  refine congrArg _ ?_
  funext a; apply Fin.ext
  match a with
  | ⟨0, _⟩ => show win0_8.index t (0 : Fin 2) * 1 + 1 * (j 0).val = (j 0).val; omega
  | ⟨1, _⟩ => show win0_8.index t (1 : Fin 2) * 512 + 1 * (j 1).val = (j 1).val; omega

theorem iblk_9_eq (c : Dev nD) (t : Fin cfg0.N) :
    (iblk V c 9 t : Vec F S1x128 .f32) = (V c main_call0_v4 : Vec F S1x128 .f32) := by
  obtain ⟨e0, e1⟩ := (fun x => x.2.2.2.2.2) (idx_facts2 t)
  funext j
  show V c main_call0_v4 (((cfg0.win 9).blk t).view.emb j) = V c main_call0_v4 j
  refine congrArg _ ?_
  funext a; apply Fin.ext
  match a with
  | ⟨0, _⟩ => show win0_9.index t (0 : Fin 2) * 1 + 1 * (j 0).val = (j 0).val; omega
  | ⟨1, _⟩ => show win0_9.index t (1 : Fin 2) * 128 + 1 * (j 1).val = (j 1).val; omega

/-! ## The output windows: where a block lands, and that the blocks cover the array -/

/-- Where an index of window 10's block at point `t` lands in the array: row `r` of the block is row `200 t + r`. -/
theorem emb_10 (t : Fin cfg0.N) (h : Fin 2) (r : Fin 200) (l : Fin 128) :
    ((cfg0.win 10).blk t).view.emb (ix3 h r l) = (ix3 h (grow t r) l : S2x5000x128.Idx) := by
  obtain ⟨e0, e1, e2⟩ := (fun x => x.2.2.2.2.1) (idx_facts3 t)
  funext a; apply Fin.ext
  match a with
  | ⟨0, _⟩ => show win0_10.index t (0 : Fin 3) * 2 + 1 * h.val = h.val; omega
  | ⟨1, _⟩ => show win0_10.index t (1 : Fin 3) * 200 + 1 * r.val = 200 * t.val + r.val; omega
  | ⟨2, _⟩ => show win0_10.index t (2 : Fin 3) * 128 + 1 * l.val = l.val; omega

/-- An index of the array is in point `t`'s block of window 10 iff each coordinate is in the block's range on its axis. -/
theorem mem_blk10 (t : Fin cfg0.N) (i : S2x5000x128.Idx) :
    i ∈ ((cfg0.win 10).blk t).view.set ↔ ∀ a : Fin 3, win0_10.index t a * S2x200x128.size a ≤ (i a).val
      ∧ (i a).val < win0_10.index t a * S2x200x128.size a + S2x200x128.size a := by
  show i ∈ ((View.whole main_call0_v8_0).slice (win0_10.rect t)).set ↔ _
  rw [View.set_slice_whole, Rect.mem_set_unit]
  exact Iff.rfl

/-- The 25 blocks of window 10 cover its array: row `R` is in the block of point `R / 200`. -/
theorem cover_10 : ∀ i : S2x5000x128.Idx, ∃ t : Fin cfg0.N, (cfg0.win 10).flush t = true ∧ i ∈ ((cfg0.win 10).blk t).view.set := by
  intro i
  have hi0 : (i 0).val < 2 := (i 0).isLt
  have hi1 : (i 1).val < 5000 := (i 1).isLt
  have hi2 : (i 2).val < 128 := (i 2).isLt
  obtain ⟨t, ht⟩ : ∃ t : Fin cfg0.N, t.val = (i 1).val / 200 :=
    ⟨⟨(i 1).val / 200, by have h : cfg0.N = 25 := N_0; omega⟩, rfl⟩
  obtain ⟨e0, e1, e2⟩ := (fun x => x.2.2.2.2.1) (idx_facts3 t)
  refine ⟨t, flush0_10 t, ?_⟩
  rw [mem_blk10]
  intro a
  match a with
  | ⟨0, _⟩ => show win0_10.index t (0 : Fin 3) * 2 ≤ (i 0).val ∧ (i 0).val < win0_10.index t (0 : Fin 3) * 2 + 2; omega
  | ⟨1, _⟩ => show win0_10.index t (1 : Fin 3) * 200 ≤ (i 1).val ∧ (i 1).val < win0_10.index t (1 : Fin 3) * 200 + 200; omega
  | ⟨2, _⟩ => show win0_10.index t (2 : Fin 3) * 128 ≤ (i 2).val ∧ (i 2).val < win0_10.index t (2 : Fin 3) * 128 + 128; omega

/-- Where an index of window 11's block at point `t` lands in the array: row `r` of the block is row `200 t + r`. -/
theorem emb_11 (t : Fin cfg0.N) (h : Fin 2) (r : Fin 200) (l : Fin 128) :
    ((cfg0.win 11).blk t).view.emb (ix3 h r l) = (ix3 h (grow t r) l : S2x5000x128.Idx) := by
  obtain ⟨e0, e1, e2⟩ := (fun x => x.2.2.2.2.2) (idx_facts3 t)
  funext a; apply Fin.ext
  match a with
  | ⟨0, _⟩ => show win0_11.index t (0 : Fin 3) * 2 + 1 * h.val = h.val; omega
  | ⟨1, _⟩ => show win0_11.index t (1 : Fin 3) * 200 + 1 * r.val = 200 * t.val + r.val; omega
  | ⟨2, _⟩ => show win0_11.index t (2 : Fin 3) * 128 + 1 * l.val = l.val; omega

/-- An index of the array is in point `t`'s block of window 11 iff each coordinate is in the block's range on its axis. -/
theorem mem_blk11 (t : Fin cfg0.N) (i : S2x5000x128.Idx) :
    i ∈ ((cfg0.win 11).blk t).view.set ↔ ∀ a : Fin 3, win0_11.index t a * S2x200x128.size a ≤ (i a).val
      ∧ (i a).val < win0_11.index t a * S2x200x128.size a + S2x200x128.size a := by
  show i ∈ ((View.whole main_call0_v8_1).slice (win0_11.rect t)).set ↔ _
  rw [View.set_slice_whole, Rect.mem_set_unit]
  exact Iff.rfl

/-- The 25 blocks of window 11 cover its array: row `R` is in the block of point `R / 200`. -/
theorem cover_11 : ∀ i : S2x5000x128.Idx, ∃ t : Fin cfg0.N, (cfg0.win 11).flush t = true ∧ i ∈ ((cfg0.win 11).blk t).view.set := by
  intro i
  have hi0 : (i 0).val < 2 := (i 0).isLt
  have hi1 : (i 1).val < 5000 := (i 1).isLt
  have hi2 : (i 2).val < 128 := (i 2).isLt
  obtain ⟨t, ht⟩ : ∃ t : Fin cfg0.N, t.val = (i 1).val / 200 :=
    ⟨⟨(i 1).val / 200, by have h : cfg0.N = 25 := N_0; omega⟩, rfl⟩
  obtain ⟨e0, e1, e2⟩ := (fun x => x.2.2.2.2.2) (idx_facts3 t)
  refine ⟨t, flush0_11 t, ?_⟩
  rw [mem_blk11]
  intro a
  match a with
  | ⟨0, _⟩ => show win0_11.index t (0 : Fin 3) * 2 ≤ (i 0).val ∧ (i 0).val < win0_11.index t (0 : Fin 3) * 2 + 2; omega
  | ⟨1, _⟩ => show win0_11.index t (1 : Fin 3) * 200 ≤ (i 1).val ∧ (i 1).val < win0_11.index t (1 : Fin 3) * 200 + 200; omega
  | ⟨2, _⟩ => show win0_11.index t (2 : Fin 3) * 128 ≤ (i 2).val ∧ (i 2).val < win0_11.index t (2 : Fin 3) * 128 + 128; omega

end Cert.KernelIdeal.Frame

end
-- ==== Proof.LibGcLstmRow.lean ====
/-
  One row of a graph-convolution LSTM cell on the extended reals, over arbitrary finite index types.

  For a node (row) with adjacency row `a : K → EReal`, hidden row `h : C → EReal` and cell row `cx : C → EReal`:
    support      s k c   = ∑ j, x k j * g j c                       (the feature matrix times the graph weight)
    conv         xs c    = max (∑ k, a k * s k c) 0 + bias c        (aggregate over the neighbours, positive part, bias)
    gates        z q     = (∑ c, xs c * wx c q + ∑ c, h c * wh c q) + gb q
    cell         cy l    = cx l * σ (z (f l)) + σ (z (i l)) * tanh (z (u l))
    hidden       hy l    = σ (z (o l)) * tanh (cy l)
  where `i f u o : C → Q` select the four gate columns and σ is the logistic function.
  `gate_bias_split` is the one algebraic fact used to meet a spelling that adds the two gate biases one at a time:
  addition on the extended reals is commutative and associative (no finiteness is needed).
-/
import Idealize.ShloMosaic.PureOps.Ideal

noncomputable section

namespace Cert.Spec

open Idealize.ShloMosaic

variable {K J C Q : Type} [Fintype K] [Fintype J] [Fintype C]

/-- The support matrix `x · g` at `(k, c)`. -/
def sup (x : K → J → EReal) (g : J → C → EReal) (k : K) (c : C) : EReal := ∑ j, x k j * g j c

/-- The graph convolution of one row: neighbours aggregated, positive part, bias added. -/
def conv (a : K → EReal) (s : K → C → EReal) (bias : C → EReal) (c : C) : EReal :=
  max (∑ k, a k * s k c) 0 + bias c

/-- The pre-activation of gate column `q` of one row, the two gate biases already summed into `gb`. -/
def gate (a : K → EReal) (h : C → EReal) (s : K → C → EReal) (wx wh : C → Q → EReal) (gb : Q → EReal)
    (bias : C → EReal) (q : Q) : EReal :=
  ((∑ c, conv a s bias c * wx c q) + (∑ c, h c * wh c q)) + gb q

/-- The new cell state of one row at lane `l`. -/
def cy (a : K → EReal) (h cx : C → EReal) (s : K → C → EReal) (wx wh : C → Q → EReal) (gb : Q → EReal)
    (bias : C → EReal) (i f u : C → Q) (l : C) : EReal :=
  cx l * Ideal.logistic (gate a h s wx wh gb bias (f l))
    + Ideal.logistic (gate a h s wx wh gb bias (i l)) * Ideal.tanh (gate a h s wx wh gb bias (u l))

/-- The new hidden state of one row at lane `l`. -/
def hy (a : K → EReal) (h cx : C → EReal) (s : K → C → EReal) (wx wh : C → Q → EReal) (gb : Q → EReal)
    (bias : C → EReal) (i f u o : C → Q) (l : C) : EReal :=
  Ideal.logistic (gate a h s wx wh gb bias (o l)) * Ideal.tanh (cy a h cx s wx wh gb bias i f u l)

/-- Adding the two gate biases one at a time, the first before the hidden product, is adding their sum at the end. -/
theorem gate_bias_split (A B b₁ b₂ : EReal) : ((A + b₁) + B) + b₂ = (A + B) + (b₁ + b₂) := by
  rw [add_assoc (A + b₁) B b₂, add_add_add_comm]

end Cert.Spec

end
-- ==== Proof.GateCols.lean ====
/-
  The four gate columns of this cell's [·, 512] pre-activation matrix: lane `l` of the input, forget, update (cell
  candidate) and output gates sits in column `l`, `128 + l`, `256 + l`, `384 + l`.
-/
import Idealize.ShloMosaic.PureOps.Ideal

namespace Cert.Cols

/-- Input gate: columns 0 … 127. -/
def colI (l : Fin 128) : Fin 512 := ⟨l.val, by have := l.isLt; omega⟩
/-- Forget gate: columns 128 … 255. -/
def colF (l : Fin 128) : Fin 512 := ⟨l.val + 128, by have := l.isLt; omega⟩
/-- Cell candidate: columns 256 … 383. -/
def colU (l : Fin 128) : Fin 512 := ⟨l.val + 256, by have := l.isLt; omega⟩
/-- Output gate: columns 384 … 511. -/
def colO (l : Fin 128) : Fin 512 := ⟨l.val + 384, by have := l.isLt; omega⟩

@[simp] theorem colI_val (l : Fin 128) : (colI l).val = l.val := rfl
@[simp] theorem colF_val (l : Fin 128) : (colF l).val = l.val + 128 := rfl
@[simp] theorem colU_val (l : Fin 128) : (colU l).val = l.val + 256 := rfl
@[simp] theorem colO_val (l : Fin 128) : (colO l).val = l.val + 384 := rfl

end Cert.Cols
-- ==== Proof.PayRows.lean ====
/-
  The kernel body's arithmetic read at one index. For a 200-row stripe of the adjacency matrix the body forms
  acc = stripe · support, xs = max(acc, 0) + bias, gates = (xs · wx + h · wh) + gb, cuts the gates into four 128-column
  bands (input, forget, candidate, output), and sets cy = cx · σ(f) + σ(i) · tanh(u), hy = σ(o) · tanh(cy). Read at row r
  and lane l these are the row functions of the graph-convolution LSTM cell: each product into a zero accumulator is a
  plain sum over the contracted axis, a dropped or added unit axis and a one-row broadcast only rename coordinates, and
  the band at offset 128·j reads column l + 128·j.
-/
import proofs.«129324_g90469191123580_cont_sun_m_503_16_alg».proof.Proof.Gen.KernelIdeal.Skeleton
import proofs.«129324_g90469191123580_cont_sun_m_503_16_alg».proof.Proof.LibGcLstmRow
import proofs.«129324_g90469191123580_cont_sun_m_503_16_alg».proof.Proof.GateCols
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayRows

open Idealize.ShloMosaic ValueIdx Cert.KernelIdeal Cert.KernelIdeal.Gen Cert.Cols

/-! ## The three products into a zero accumulator, read at an index -/

theorem mm_adj_apply_l0 (j : S200x128.Idx) (q : (dot_S200x10000_S10000x128_S200x128_1_0_0_1_n_n).contr.Idx) : ((dot_S200x10000_S10000x128_S200x128_1_0_0_1_n_n).lhsIdx j q 0).val = (j 0).val := by
  unfold DotDims.lhsIdx
  rw [dif_neg (show ¬(0 : Fin S200x10000.rank) ∈ (dot_S200x10000_S10000x128_S200x128_1_0_0_1_n_n).lhsBatch by decide),
    dif_pos (show (0 : Fin S200x10000.rank) ∈ (dot_S200x10000_S10000x128_S200x128_1_0_0_1_n_n).lhsNonContracting by decide)]
  rfl
theorem mm_adj_apply_l1 (j : S200x128.Idx) (q : (dot_S200x10000_S10000x128_S200x128_1_0_0_1_n_n).contr.Idx) : ((dot_S200x10000_S10000x128_S200x128_1_0_0_1_n_n).lhsIdx j q 1).val = (q ⟨0, by decide⟩).val :=
  (dot_S200x10000_S10000x128_S200x128_1_0_0_1_n_n).lhsIdx_val_of_single rfl j q
theorem mm_adj_apply_r0 (j : S200x128.Idx) (q : (dot_S200x10000_S10000x128_S200x128_1_0_0_1_n_n).contr.Idx) : ((dot_S200x10000_S10000x128_S200x128_1_0_0_1_n_n).rhsIdx j q 0).val = (q ⟨0, by decide⟩).val :=
  (dot_S200x10000_S10000x128_S200x128_1_0_0_1_n_n).rhsIdx_val_of_single rfl j q
theorem mm_adj_apply_r1 (j : S200x128.Idx) (q : (dot_S200x10000_S10000x128_S200x128_1_0_0_1_n_n).contr.Idx) : ((dot_S200x10000_S10000x128_S200x128_1_0_0_1_n_n).rhsIdx j q 1).val = (j 1).val := by
  unfold DotDims.rhsIdx
  rw [dif_neg (show ¬(1 : Fin S10000x128.rank) ∈ (dot_S200x10000_S10000x128_S200x128_1_0_0_1_n_n).rhsBatch by decide),
    dif_pos (show (1 : Fin S10000x128.rank) ∈ (dot_S200x10000_S10000x128_S200x128_1_0_0_1_n_n).rhsNonContracting by decide)]
  rfl

/-- The product into the zero accumulator, read at `(r, c)`: the sum over the contracted axis. -/
theorem mm_adj_apply (A : FVec Ideal S200x10000 .f32) (B : FVec Ideal S10000x128 .f32) (r : Fin 200) (c : Fin 128) :
    matmul dot_S200x10000_S10000x128_S200x128_1_0_0_1_n_n none A B (constant (F := Ideal) S200x128 .f32 0x00000000#32) (ix2 r c)
      = ∑ k : Fin 10000, A (ix2 r k) * B (ix2 k c) := by
  refine (Ideal.matmul_constant_zero_apply dot_S200x10000_S10000x128_S200x128_1_0_0_1_n_n none A B (ix2 r c)).trans ?_
  rw [← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : (dot_S200x10000_S10000x128_S200x128_1_0_0_1_n_n).lhsIdx (ix2 r c) ((contrEquiv1 dot_S200x10000_S10000x128_S200x128_1_0_0_1_n_n 10000 rfl rfl).symm k) = ix2 r k :=
    funext fun a => Fin.ext (by
      match a with
      | ⟨0, _⟩ => exact mm_adj_apply_l0 _ _
      | ⟨1, _⟩ => exact (mm_adj_apply_l1 _ _).trans hk)
  have er : (dot_S200x10000_S10000x128_S200x128_1_0_0_1_n_n).rhsIdx (ix2 r c) ((contrEquiv1 dot_S200x10000_S10000x128_S200x128_1_0_0_1_n_n 10000 rfl rfl).symm k) = ix2 k c :=
    funext fun a => Fin.ext (by
      match a with
      | ⟨0, _⟩ => exact (mm_adj_apply_r0 _ _).trans hk
      | ⟨1, _⟩ => exact mm_adj_apply_r1 _ _)
  rw [el, er]

theorem mm_w_apply_l0 (j : S200x512.Idx) (q : (dot_S200x128_S128x512_S200x512_1_0_0_1_n_n).contr.Idx) : ((dot_S200x128_S128x512_S200x512_1_0_0_1_n_n).lhsIdx j q 0).val = (j 0).val := by
  unfold DotDims.lhsIdx
  rw [dif_neg (show ¬(0 : Fin S200x128.rank) ∈ (dot_S200x128_S128x512_S200x512_1_0_0_1_n_n).lhsBatch by decide),
    dif_pos (show (0 : Fin S200x128.rank) ∈ (dot_S200x128_S128x512_S200x512_1_0_0_1_n_n).lhsNonContracting by decide)]
  rfl
theorem mm_w_apply_l1 (j : S200x512.Idx) (q : (dot_S200x128_S128x512_S200x512_1_0_0_1_n_n).contr.Idx) : ((dot_S200x128_S128x512_S200x512_1_0_0_1_n_n).lhsIdx j q 1).val = (q ⟨0, by decide⟩).val :=
  (dot_S200x128_S128x512_S200x512_1_0_0_1_n_n).lhsIdx_val_of_single rfl j q
theorem mm_w_apply_r0 (j : S200x512.Idx) (q : (dot_S200x128_S128x512_S200x512_1_0_0_1_n_n).contr.Idx) : ((dot_S200x128_S128x512_S200x512_1_0_0_1_n_n).rhsIdx j q 0).val = (q ⟨0, by decide⟩).val :=
  (dot_S200x128_S128x512_S200x512_1_0_0_1_n_n).rhsIdx_val_of_single rfl j q
theorem mm_w_apply_r1 (j : S200x512.Idx) (q : (dot_S200x128_S128x512_S200x512_1_0_0_1_n_n).contr.Idx) : ((dot_S200x128_S128x512_S200x512_1_0_0_1_n_n).rhsIdx j q 1).val = (j 1).val := by
  unfold DotDims.rhsIdx
  rw [dif_neg (show ¬(1 : Fin S128x512.rank) ∈ (dot_S200x128_S128x512_S200x512_1_0_0_1_n_n).rhsBatch by decide),
    dif_pos (show (1 : Fin S128x512.rank) ∈ (dot_S200x128_S128x512_S200x512_1_0_0_1_n_n).rhsNonContracting by decide)]
  rfl

/-- The product into the zero accumulator, read at `(r, c)`: the sum over the contracted axis. -/
theorem mm_w_apply (A : FVec Ideal S200x128 .f32) (B : FVec Ideal S128x512 .f32) (r : Fin 200) (c : Fin 512) :
    matmul dot_S200x128_S128x512_S200x512_1_0_0_1_n_n none A B (constant (F := Ideal) S200x512 .f32 0x00000000#32) (ix2 r c)
      = ∑ k : Fin 128, A (ix2 r k) * B (ix2 k c) := by
  refine (Ideal.matmul_constant_zero_apply dot_S200x128_S128x512_S200x512_1_0_0_1_n_n none A B (ix2 r c)).trans ?_
  rw [← Equiv.sum_comp (contrEquiv1 dot_S200x128_S128x512_S200x512_1_0_0_1_n_n 128 rfl rfl).symm]
  refine Finset.sum_congr rfl fun k _ => ?_
  have hk := contrEquiv1_symm_val dot_S200x128_S128x512_S200x512_1_0_0_1_n_n 128 rfl rfl k
  have el : (dot_S200x128_S128x512_S200x512_1_0_0_1_n_n).lhsIdx (ix2 r c) ((contrEquiv1 dot_S200x128_S128x512_S200x512_1_0_0_1_n_n 128 rfl rfl).symm k) = ix2 r k :=
    funext fun a => Fin.ext (by
      match a with
      | ⟨0, _⟩ => exact mm_w_apply_l0 _ _
      | ⟨1, _⟩ => exact (mm_w_apply_l1 _ _).trans hk)
  have er : (dot_S200x128_S128x512_S200x512_1_0_0_1_n_n).rhsIdx (ix2 r c) ((contrEquiv1 dot_S200x128_S128x512_S200x512_1_0_0_1_n_n 128 rfl rfl).symm k) = ix2 k c :=
    funext fun a => Fin.ext (by
      match a with
      | ⟨0, _⟩ => exact (mm_w_apply_r0 _ _).trans hk
      | ⟨1, _⟩ => exact mm_w_apply_r1 _ _)
  rw [el, er]

theorem mm_sup_apply_l0 (j : S10000x128.Idx) (q : (dot_S10000x128_S128x128_S10000x128_1_0_0_1_n_n).contr.Idx) : ((dot_S10000x128_S128x128_S10000x128_1_0_0_1_n_n).lhsIdx j q 0).val = (j 0).val := by
  unfold DotDims.lhsIdx
  rw [dif_neg (show ¬(0 : Fin S10000x128.rank) ∈ (dot_S10000x128_S128x128_S10000x128_1_0_0_1_n_n).lhsBatch by decide),
    dif_pos (show (0 : Fin S10000x128.rank) ∈ (dot_S10000x128_S128x128_S10000x128_1_0_0_1_n_n).lhsNonContracting by decide)]
  rfl
theorem mm_sup_apply_l1 (j : S10000x128.Idx) (q : (dot_S10000x128_S128x128_S10000x128_1_0_0_1_n_n).contr.Idx) : ((dot_S10000x128_S128x128_S10000x128_1_0_0_1_n_n).lhsIdx j q 1).val = (q ⟨0, by decide⟩).val :=
  (dot_S10000x128_S128x128_S10000x128_1_0_0_1_n_n).lhsIdx_val_of_single rfl j q
theorem mm_sup_apply_r0 (j : S10000x128.Idx) (q : (dot_S10000x128_S128x128_S10000x128_1_0_0_1_n_n).contr.Idx) : ((dot_S10000x128_S128x128_S10000x128_1_0_0_1_n_n).rhsIdx j q 0).val = (q ⟨0, by decide⟩).val :=
  (dot_S10000x128_S128x128_S10000x128_1_0_0_1_n_n).rhsIdx_val_of_single rfl j q
theorem mm_sup_apply_r1 (j : S10000x128.Idx) (q : (dot_S10000x128_S128x128_S10000x128_1_0_0_1_n_n).contr.Idx) : ((dot_S10000x128_S128x128_S10000x128_1_0_0_1_n_n).rhsIdx j q 1).val = (j 1).val := by
  unfold DotDims.rhsIdx
  rw [dif_neg (show ¬(1 : Fin S128x128.rank) ∈ (dot_S10000x128_S128x128_S10000x128_1_0_0_1_n_n).rhsBatch by decide),
    dif_pos (show (1 : Fin S128x128.rank) ∈ (dot_S10000x128_S128x128_S10000x128_1_0_0_1_n_n).rhsNonContracting by decide)]
  rfl

/-- The product into the zero accumulator, read at `(r, c)`: the sum over the contracted axis. -/
theorem mm_sup_apply (A : FVec Ideal S10000x128 .f32) (B : FVec Ideal S128x128 .f32) (r : Fin 10000) (c : Fin 128) :
    matmul dot_S10000x128_S128x128_S10000x128_1_0_0_1_n_n none A B (constant (F := Ideal) S10000x128 .f32 0x00000000#32) (ix2 r c)
      = ∑ k : Fin 128, A (ix2 r k) * B (ix2 k c) := by
  refine (Ideal.matmul_constant_zero_apply dot_S10000x128_S128x128_S10000x128_1_0_0_1_n_n none A B (ix2 r c)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : (dot_S10000x128_S128x128_S10000x128_1_0_0_1_n_n).lhsIdx (ix2 r c) ((contrEquiv1 dot_S10000x128_S128x128_S10000x128_1_0_0_1_n_n 128 rfl rfl).symm k) = ix2 r k :=
    funext fun a => Fin.ext (by
      match a with
      | ⟨0, _⟩ => exact mm_sup_apply_l0 _ _
      | ⟨1, _⟩ => exact (mm_sup_apply_l1 _ _).trans hk)
  have er : (dot_S10000x128_S128x128_S10000x128_1_0_0_1_n_n).rhsIdx (ix2 r c) ((contrEquiv1 dot_S10000x128_S128x128_S10000x128_1_0_0_1_n_n 128 rfl rfl).symm k) = ix2 k c :=
    funext fun a => Fin.ext (by
      match a with
      | ⟨0, _⟩ => exact (mm_sup_apply_r0 _ _).trans hk
      | ⟨1, _⟩ => exact mm_sup_apply_r1 _ _)
  rw [el, er]

/-! ## The elementwise activations at an index -/

theorem logistic_at {s : Shape} {φ : FTy} (X : FVec Ideal s φ) (i : s.Idx) : logistic X i = Ideal.logistic (X i) := rfl
theorem tanh_at {s : Shape} {φ : FTy} (X : FVec Ideal s φ) (i : s.Idx) : tanh X i = Ideal.tanh (X i) := rfl

/-! ## The four column bands of the [200, 512] pre-activation -/

theorem bandI (X : FVec Ideal S200x512 .f32) (r : Fin 200) (l : Fin 128) :
    extractStridedSlice S200x128 ![0, 0] X slices_S200x512_o0_0_S200x128 (ix2 r l) = X (ix2 r (colI l)) :=
  slice2_axis1_apply 0 X slices_S200x512_o0_0_S200x128 r l (colI l) (by rw [colI_val]; omega)
theorem bandF (X : FVec Ideal S200x512 .f32) (r : Fin 200) (l : Fin 128) :
    extractStridedSlice S200x128 ![0, 128] X slices_S200x512_o0_128_S200x128 (ix2 r l) = X (ix2 r (colF l)) :=
  slice2_axis1_apply 128 X slices_S200x512_o0_128_S200x128 r l (colF l) (by rw [colF_val]; omega)
theorem bandU (X : FVec Ideal S200x512 .f32) (r : Fin 200) (l : Fin 128) :
    extractStridedSlice S200x128 ![0, 256] X slices_S200x512_o0_256_S200x128 (ix2 r l) = X (ix2 r (colU l)) :=
  slice2_axis1_apply 256 X slices_S200x512_o0_256_S200x128 r l (colU l) (by rw [colU_val]; omega)
theorem bandO (X : FVec Ideal S200x512 .f32) (r : Fin 200) (l : Fin 128) :
    extractStridedSlice S200x128 ![0, 384] X slices_S200x512_o0_384_S200x128 (ix2 r l) = X (ix2 r (colO l)) :=
  slice2_axis1_apply 384 X slices_S200x512_o0_384_S200x128 r l (colO l) (by rw [colO_val]; omega)

/-! ## The support matrix -/

theorem pay5_apply (x : Vec Ideal S10000x128 .f32) (g : Vec Ideal S128x128 .f32) (k : Fin 10000) (c : Fin 128) :
    k0_pay5 (F := Ideal) x g (ix2 k c)
      = Cert.Spec.sup (fun (k : Fin 10000) (j : Fin 128) => x (ix2 k j)) (fun (j : Fin 128) (c : Fin 128) => g (ix2 j c)) k c := by
  unfold k0_pay5 Cert.Spec.sup
  simp only [shapeCast_self]
  exact mm_sup_apply x g k c

/-! ## The gate pre-activation of one row, top and bottom half -/

theorem pay6_apply (a : Vec Ideal S1x200x10000 .f32) (s : Vec Ideal S10000x128 .f32) (b : Vec Ideal S1x128 .f32) (wx : Vec Ideal S128x512 .f32) (h : Vec Ideal S1x200x128 .f32) (wh : Vec Ideal S128x512 .f32) (gb : Vec Ideal S1x512 .f32) (r : Fin 200) (q : Fin 512) :
    k0_pay6 (F := Ideal) a s b wx h wh gb (ix2 r q)
      = Cert.Spec.gate (fun k : Fin 10000 => a (ix3 (0 : Fin 1) r k)) (fun c : Fin 128 => h (ix3 (0 : Fin 1) r c))
            (fun (k : Fin 10000) (c : Fin 128) => s (ix2 k c)) (fun (c : Fin 128) (q : Fin 512) => wx (ix2 c q)) (fun (c : Fin 128) (q : Fin 512) => wh (ix2 c q))
            (fun q : Fin 512 => gb (ix2 (0 : Fin 1) q)) (fun c : Fin 128 => b (ix2 (0 : Fin 1) c)) q := by
  unfold k0_pay6 Cert.Spec.gate Cert.Spec.conv
  simp only [shapeCast_self]
  simp only [addf_apply, maximumf_apply, broadcast_apply, mm_adj_apply, mm_w_apply, broadcastTo_1b_ab_apply,
    shapeCast_1ab_ab_apply, Ideal.ofBits_def, Ideal.ofBits_zero_f32]

theorem pay1_apply (a : Vec Ideal S1x200x10000 .f32) (s : Vec Ideal S10000x128 .f32) (b : Vec Ideal S1x128 .f32) (wx : Vec Ideal S128x512 .f32) (h : Vec Ideal S1x200x128 .f32) (wh : Vec Ideal S128x512 .f32) (gb : Vec Ideal S1x512 .f32) (r : Fin 200) (q : Fin 512) :
    k0_pay1 (F := Ideal) (k0_pay14 a s b wx h wh) gb (ix2 r q)
      = Cert.Spec.gate (fun k : Fin 10000 => a (ix3 (0 : Fin 1) r k)) (fun c : Fin 128 => h (ix3 (0 : Fin 1) r c))
            (fun (k : Fin 10000) (c : Fin 128) => s (ix2 k c)) (fun (c : Fin 128) (q : Fin 512) => wx (ix2 c q)) (fun (c : Fin 128) (q : Fin 512) => wh (ix2 c q))
            (fun q : Fin 512 => gb (ix2 (0 : Fin 1) q)) (fun c : Fin 128 => b (ix2 (0 : Fin 1) c)) q := by
  unfold k0_pay1 k0_pay14 Cert.Spec.gate Cert.Spec.conv
  simp only [shapeCast_self]
  simp only [addf_apply, maximumf_apply, broadcast_apply, mm_adj_apply, mm_w_apply, broadcastTo_1b_ab_apply,
    shapeCast_1ab_ab_apply, Ideal.ofBits_def, Ideal.ofBits_zero_f32]

/-! ## The cell and hidden rows, top half -/

theorem pay7_apply (a : Vec Ideal S1x200x10000 .f32) (s : Vec Ideal S10000x128 .f32) (b : Vec Ideal S1x128 .f32) (wx : Vec Ideal S128x512 .f32) (h : Vec Ideal S1x200x128 .f32) (wh : Vec Ideal S128x512 .f32) (gb : Vec Ideal S1x512 .f32) (r : Fin 200) (l : Fin 128) :
    k0_pay7 (F := Ideal) a s b wx h wh gb (ix2 r l) = Ideal.logistic (Cert.Spec.gate (fun k : Fin 10000 => a (ix3 (0 : Fin 1) r k)) (fun c : Fin 128 => h (ix3 (0 : Fin 1) r c))
            (fun (k : Fin 10000) (c : Fin 128) => s (ix2 k c)) (fun (c : Fin 128) (q : Fin 512) => wx (ix2 c q)) (fun (c : Fin 128) (q : Fin 512) => wh (ix2 c q))
            (fun q : Fin 512 => gb (ix2 (0 : Fin 1) q)) (fun c : Fin 128 => b (ix2 (0 : Fin 1) c)) (colI l)) := by
  unfold k0_pay7
  simp only [logistic_at, bandI, pay6_apply]
theorem pay8_apply (a : Vec Ideal S1x200x10000 .f32) (s : Vec Ideal S10000x128 .f32) (b : Vec Ideal S1x128 .f32) (wx : Vec Ideal S128x512 .f32) (h : Vec Ideal S1x200x128 .f32) (wh : Vec Ideal S128x512 .f32) (gb : Vec Ideal S1x512 .f32) (r : Fin 200) (l : Fin 128) :
    k0_pay8 (F := Ideal) a s b wx h wh gb (ix2 r l) = Ideal.logistic (Cert.Spec.gate (fun k : Fin 10000 => a (ix3 (0 : Fin 1) r k)) (fun c : Fin 128 => h (ix3 (0 : Fin 1) r c))
            (fun (k : Fin 10000) (c : Fin 128) => s (ix2 k c)) (fun (c : Fin 128) (q : Fin 512) => wx (ix2 c q)) (fun (c : Fin 128) (q : Fin 512) => wh (ix2 c q))
            (fun q : Fin 512 => gb (ix2 (0 : Fin 1) q)) (fun c : Fin 128 => b (ix2 (0 : Fin 1) c)) (colF l)) := by
  unfold k0_pay8
  simp only [logistic_at, bandF, pay6_apply]
theorem pay9_apply (a : Vec Ideal S1x200x10000 .f32) (s : Vec Ideal S10000x128 .f32) (b : Vec Ideal S1x128 .f32) (wx : Vec Ideal S128x512 .f32) (h : Vec Ideal S1x200x128 .f32) (wh : Vec Ideal S128x512 .f32) (gb : Vec Ideal S1x512 .f32) (r : Fin 200) (l : Fin 128) :
    k0_pay9 (F := Ideal) a s b wx h wh gb (ix2 r l) = Ideal.tanh (Cert.Spec.gate (fun k : Fin 10000 => a (ix3 (0 : Fin 1) r k)) (fun c : Fin 128 => h (ix3 (0 : Fin 1) r c))
            (fun (k : Fin 10000) (c : Fin 128) => s (ix2 k c)) (fun (c : Fin 128) (q : Fin 512) => wx (ix2 c q)) (fun (c : Fin 128) (q : Fin 512) => wh (ix2 c q))
            (fun q : Fin 512 => gb (ix2 (0 : Fin 1) q)) (fun c : Fin 128 => b (ix2 (0 : Fin 1) c)) (colU l)) := by
  unfold k0_pay9
  simp only [tanh_at, bandU, pay6_apply]
theorem pay10_apply (a : Vec Ideal S1x200x10000 .f32) (s : Vec Ideal S10000x128 .f32) (b : Vec Ideal S1x128 .f32) (wx : Vec Ideal S128x512 .f32) (h : Vec Ideal S1x200x128 .f32) (wh : Vec Ideal S128x512 .f32) (gb : Vec Ideal S1x512 .f32) (r : Fin 200) (l : Fin 128) :
    k0_pay10 (F := Ideal) a s b wx h wh gb (ix2 r l) = Ideal.logistic (Cert.Spec.gate (fun k : Fin 10000 => a (ix3 (0 : Fin 1) r k)) (fun c : Fin 128 => h (ix3 (0 : Fin 1) r c))
            (fun (k : Fin 10000) (c : Fin 128) => s (ix2 k c)) (fun (c : Fin 128) (q : Fin 512) => wx (ix2 c q)) (fun (c : Fin 128) (q : Fin 512) => wh (ix2 c q))
            (fun q : Fin 512 => gb (ix2 (0 : Fin 1) q)) (fun c : Fin 128 => b (ix2 (0 : Fin 1) c)) (colO l)) := by
  unfold k0_pay10
  simp only [logistic_at, bandO, pay6_apply]

theorem pay11_at (v27 v29 v31 : FVec Ideal S200x128 .f32) (cx : Vec Ideal S1x200x128 .f32) (r : Fin 200) (l : Fin 128) :
    k0_pay11 (F := Ideal) v27 v29 v31 cx (ix2 r l)
      = cx (ix3 (0 : Fin 1) r l) * v29 (ix2 r l) + v27 (ix2 r l) * v31 (ix2 r l) := by
  unfold k0_pay11
  simp only [addf_apply, mulf_apply, shapeCast_1ab_ab_apply]

theorem pay12_apply (a : Vec Ideal S1x200x10000 .f32) (s : Vec Ideal S10000x128 .f32) (b : Vec Ideal S1x128 .f32) (wx : Vec Ideal S128x512 .f32) (h : Vec Ideal S1x200x128 .f32) (wh : Vec Ideal S128x512 .f32) (gb : Vec Ideal S1x512 .f32) (cx : Vec Ideal S1x200x128 .f32) (r : Fin 200) (l : Fin 128) :
    k0_pay12 (F := Ideal) (k0_pay7 a s b wx h wh gb) (k0_pay8 a s b wx h wh gb) (k0_pay9 a s b wx h wh gb) cx (ix3 (0 : Fin 1) r l)
      = Cert.Spec.cy (fun k : Fin 10000 => a (ix3 (0 : Fin 1) r k)) (fun c : Fin 128 => h (ix3 (0 : Fin 1) r c)) (fun c : Fin 128 => cx (ix3 (0 : Fin 1) r c))
            (fun (k : Fin 10000) (c : Fin 128) => s (ix2 k c)) (fun (c : Fin 128) (q : Fin 512) => wx (ix2 c q)) (fun (c : Fin 128) (q : Fin 512) => wh (ix2 c q))
            (fun q : Fin 512 => gb (ix2 (0 : Fin 1) q)) (fun c : Fin 128 => b (ix2 (0 : Fin 1) c)) colI colF colU l := by
  unfold k0_pay12 Cert.Spec.cy
  simp only [shapeCast_ab_1ab_apply, pay11_at, pay7_apply, pay8_apply, pay9_apply]

theorem pay13_apply (a : Vec Ideal S1x200x10000 .f32) (s : Vec Ideal S10000x128 .f32) (b : Vec Ideal S1x128 .f32) (wx : Vec Ideal S128x512 .f32) (h : Vec Ideal S1x200x128 .f32) (wh : Vec Ideal S128x512 .f32) (gb : Vec Ideal S1x512 .f32) (cx : Vec Ideal S1x200x128 .f32) (r : Fin 200) (l : Fin 128) :
    k0_pay13 (F := Ideal) (k0_pay7 a s b wx h wh gb) (k0_pay8 a s b wx h wh gb) (k0_pay9 a s b wx h wh gb) (k0_pay10 a s b wx h wh gb) cx (ix3 (0 : Fin 1) r l)
      = Cert.Spec.hy (fun k : Fin 10000 => a (ix3 (0 : Fin 1) r k)) (fun c : Fin 128 => h (ix3 (0 : Fin 1) r c)) (fun c : Fin 128 => cx (ix3 (0 : Fin 1) r c))
            (fun (k : Fin 10000) (c : Fin 128) => s (ix2 k c)) (fun (c : Fin 128) (q : Fin 512) => wx (ix2 c q)) (fun (c : Fin 128) (q : Fin 512) => wh (ix2 c q))
            (fun q : Fin 512 => gb (ix2 (0 : Fin 1) q)) (fun c : Fin 128 => b (ix2 (0 : Fin 1) c)) colI colF colU colO l := by
  unfold k0_pay13 Cert.Spec.hy Cert.Spec.cy
  simp only [shapeCast_ab_1ab_apply, mulf_apply, tanh_at, pay11_at, pay7_apply, pay8_apply, pay9_apply, pay10_apply]

/-! ## The cell and hidden rows, bottom half -/

theorem pay2_at (v65 : FVec Ideal S200x512 .f32) (v66 : Vec Ideal S1x512 .f32) (cx : Vec Ideal S1x200x128 .f32) (r : Fin 200) (l : Fin 128) :
    k0_pay2 (F := Ideal) v65 v66 cx (ix2 r l)
      = cx (ix3 (0 : Fin 1) r l) * Ideal.logistic (k0_pay1 v65 v66 (ix2 r (colF l)))
        + Ideal.logistic (k0_pay1 v65 v66 (ix2 r (colI l))) * Ideal.tanh (k0_pay1 v65 v66 (ix2 r (colU l))) := by
  unfold k0_pay2
  simp only [addf_apply, mulf_apply, logistic_at, tanh_at, bandI, bandF, bandU, shapeCast_1ab_ab_apply]

theorem pay3_apply (a : Vec Ideal S1x200x10000 .f32) (s : Vec Ideal S10000x128 .f32) (b : Vec Ideal S1x128 .f32) (wx : Vec Ideal S128x512 .f32) (h : Vec Ideal S1x200x128 .f32) (wh : Vec Ideal S128x512 .f32) (gb : Vec Ideal S1x512 .f32) (cx : Vec Ideal S1x200x128 .f32) (r : Fin 200) (l : Fin 128) :
    k0_pay3 (F := Ideal) (k0_pay14 a s b wx h wh) gb cx (ix3 (0 : Fin 1) r l)
      = Cert.Spec.cy (fun k : Fin 10000 => a (ix3 (0 : Fin 1) r k)) (fun c : Fin 128 => h (ix3 (0 : Fin 1) r c)) (fun c : Fin 128 => cx (ix3 (0 : Fin 1) r c))
            (fun (k : Fin 10000) (c : Fin 128) => s (ix2 k c)) (fun (c : Fin 128) (q : Fin 512) => wx (ix2 c q)) (fun (c : Fin 128) (q : Fin 512) => wh (ix2 c q))
            (fun q : Fin 512 => gb (ix2 (0 : Fin 1) q)) (fun c : Fin 128 => b (ix2 (0 : Fin 1) c)) colI colF colU l := by
  unfold k0_pay3 Cert.Spec.cy
  simp only [shapeCast_ab_1ab_apply, pay2_at, pay1_apply]

theorem pay4_apply (a : Vec Ideal S1x200x10000 .f32) (s : Vec Ideal S10000x128 .f32) (b : Vec Ideal S1x128 .f32) (wx : Vec Ideal S128x512 .f32) (h : Vec Ideal S1x200x128 .f32) (wh : Vec Ideal S128x512 .f32) (gb : Vec Ideal S1x512 .f32) (cx : Vec Ideal S1x200x128 .f32) (r : Fin 200) (l : Fin 128) :
    k0_pay4 (F := Ideal) (k0_pay14 a s b wx h wh) gb cx (ix3 (0 : Fin 1) r l)
      = Cert.Spec.hy (fun k : Fin 10000 => a (ix3 (0 : Fin 1) r k)) (fun c : Fin 128 => h (ix3 (0 : Fin 1) r c)) (fun c : Fin 128 => cx (ix3 (0 : Fin 1) r c))
            (fun (k : Fin 10000) (c : Fin 128) => s (ix2 k c)) (fun (c : Fin 128) (q : Fin 512) => wx (ix2 c q)) (fun (c : Fin 128) (q : Fin 512) => wh (ix2 c q))
            (fun q : Fin 512 => gb (ix2 (0 : Fin 1) q)) (fun c : Fin 128 => b (ix2 (0 : Fin 1) c)) colI colF colU colO l := by
  unfold k0_pay4 Cert.Spec.hy Cert.Spec.cy
  simp only [shapeCast_ab_1ab_apply, mulf_apply, logistic_at, tanh_at, bandO, pay2_at, pay1_apply]

end Cert.KernelIdeal.PayRows

end
-- ==== Proof.IdealFrame.Blocks.lean ====
/-
  From blocks to arrays. The scratch holds the support matrix `x · g` from the first point on (induction on the point).
  At grid point `t` the two output blocks hold, at (h, r, l), the cell's row function of global row `200 t + r` of half
  `h`: the adjacency row, the hidden and cell rows of that row, the support, the transposed weights, the summed gate
  bias and the bias row, all read off the region-entry contents. The 25 blocks of each output tile its [2,5000,128]
  array, so after the last write-back the array is that row function at every (h, R, l).
-/
import proofs.«129324_g90469191123580_cont_sun_m_503_16_alg».proof.Proof.IdealFrame.Pieces
import proofs.«129324_g90469191123580_cont_sun_m_503_16_alg».proof.Proof.IdealFrame.BlockIdx
import proofs.«129324_g90469191123580_cont_sun_m_503_16_alg».proof.Proof.PayRows
import proofs.«129324_g90469191123580_cont_sun_m_503_16_alg».proof.Proof.LibGcLstmRow
import proofs.«129324_g90469191123580_cont_sun_m_503_16_alg».proof.Proof.GateCols

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Cols Cert.KernelIdeal.PayRows

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-- The support matrix, from the region-entry contents of `x` and the graph weight. -/
def supOf (c : Dev nD) : Vec Ideal S10000x128 .f32 :=
  k0_pay5 (F := Ideal) (V c main_arg0 : Vec Ideal S10000x128 .f32) (V c main_arg4 : Vec Ideal S128x128 .f32)

/-- The scratch holds it after every point. -/
theorem scratch_eq (c : Dev nD) : ∀ (n : ℕ) (hn : n < cfg0.N), (outsAt V c n hn).2.2 = supOf V c
  | 0, hn => by
    have h := congrArg (fun p => p.2.2) (outsAt_zero V c ⟨0, hn⟩ rfl)
    dsimp only at h
    rw [h, sout_A_eq, iblk_2_eq, iblk_3_eq]
    rfl
  | n + 1, hn => scratch_eq c n (Nat.lt_of_succ_lt hn)

/-- The new cell state at (h, R, l) of the [2,5000,128] result, as a function of the region-entry contents. -/
def GcyAt (c : Dev nD) (h : Fin 2) (R : Fin 5000) (l : Fin 128) : EReal :=
  Cert.Spec.cy (fun k : Fin 10000 => (V c main_call0_v5 : Vec Ideal S2x5000x10000 .f32) (ix3 h R k))
    (fun c' : Fin 128 => (V c main_call0_v6 : Vec Ideal S2x5000x128 .f32) (ix3 h R c'))
    (fun c' : Fin 128 => (V c main_call0_v7 : Vec Ideal S2x5000x128 .f32) (ix3 h R c'))
    (fun (k : Fin 10000) (c' : Fin 128) => supOf V c (ix2 k c'))
    (fun (c' : Fin 128) (q : Fin 512) => (V c main_call0_v0 : Vec Ideal S128x512 .f32) (ix2 c' q))
    (fun (c' : Fin 128) (q : Fin 512) => (V c main_call0_v1 : Vec Ideal S128x512 .f32) (ix2 c' q))
    (fun q : Fin 512 => (V c main_call0_v3 : Vec Ideal S1x512 .f32) (ix2 (0 : Fin 1) q))
    (fun c' : Fin 128 => (V c main_call0_v4 : Vec Ideal S1x128 .f32) (ix2 (0 : Fin 1) c')) colI colF colU l
/-- The new hidden state there. -/
def GhyAt (c : Dev nD) (h : Fin 2) (R : Fin 5000) (l : Fin 128) : EReal :=
  Cert.Spec.hy (fun k : Fin 10000 => (V c main_call0_v5 : Vec Ideal S2x5000x10000 .f32) (ix3 h R k))
    (fun c' : Fin 128 => (V c main_call0_v6 : Vec Ideal S2x5000x128 .f32) (ix3 h R c'))
    (fun c' : Fin 128 => (V c main_call0_v7 : Vec Ideal S2x5000x128 .f32) (ix3 h R c'))
    (fun (k : Fin 10000) (c' : Fin 128) => supOf V c (ix2 k c'))
    (fun (c' : Fin 128) (q : Fin 512) => (V c main_call0_v0 : Vec Ideal S128x512 .f32) (ix2 c' q))
    (fun (c' : Fin 128) (q : Fin 512) => (V c main_call0_v1 : Vec Ideal S128x512 .f32) (ix2 c' q))
    (fun q : Fin 512 => (V c main_call0_v3 : Vec Ideal S1x512 .f32) (ix2 (0 : Fin 1) q))
    (fun c' : Fin 128 => (V c main_call0_v4 : Vec Ideal S1x128 .f32) (ix2 (0 : Fin 1) c')) colI colF colU colO l

/-- Both halves of point `t`'s cell-state block, over a scratch holding the support, are the row function at the global
    row `200 t + r` of half `h`. -/
theorem cy_canon (c : Dev nD) (t : Fin cfg0.N) (s : Vec Ideal S10000x128 .f32) (hs : s = supOf V c) (h : Fin 2) (r : Fin 200) (l : Fin 128) :
    View.canon [(⟨rc1, botCy (iblk V c 1 t) s (iblk V c 9 t) (iblk V c 6 t) (View.ld (iblk V c 4 t) rc1) (iblk V c 7 t) (iblk V c 8 t) (View.ld (iblk V c 5 t) rc1)⟩ : View.Piece (Elt Ideal) S2x200x128 .f32), ⟨rc0, topCy (iblk V c 0 t) s (iblk V c 9 t) (iblk V c 6 t) (View.ld (iblk V c 4 t) rc0) (iblk V c 7 t) (iblk V c 8 t) (View.ld (iblk V c 5 t) rc0)⟩] (ix3 h r l)
      = GcyAt V c h (grow t r) l := by
  subst hs
  rw [canon2_apply]
  by_cases hh : h.val = 0
  · rw [if_pos hh]
    obtain rfl : h = 0 := Fin.ext hh
    unfold topCy GcyAt
    rw [pay12_apply]
    simp only [View.ld, rc0_idx, iblk_0_apply, iblk_4_apply, iblk_5_apply, iblk_6_eq, iblk_7_eq, iblk_8_eq, iblk_9_eq]
  · rw [if_neg hh]
    obtain rfl : h = 1 := Fin.ext (by have := h.isLt; omega)
    unfold botCy GcyAt
    rw [pay3_apply]
    simp only [View.ld, rc1_idx, iblk_1_apply, iblk_4_apply, iblk_5_apply, iblk_6_eq, iblk_7_eq, iblk_8_eq, iblk_9_eq]

theorem cy_at (c : Dev nD) (t : Fin cfg0.N) (h : Fin 2) (r : Fin 200) (l : Fin 128) :
    (outsAt V c t.val t.isLt).2.1 (ix3 h r l) = GcyAt V c h (grow t r) l := by
  by_cases h0 : t.val = 0
  · rw [outsAt_zero V c t h0]
    dsimp only
    rw [out_A_11_eq]
    exact cy_canon V c t _ (by rw [iblk_2_eq, iblk_3_eq]; rfl) h r l
  · rw [outsAt_pos V c t h0]
    dsimp only
    rw [out_B_11_eq]
    exact cy_canon V c t _ (scratch_eq V c _ _) h r l

/-- Both halves of point `t`'s hidden-state block, over a scratch holding the support, are the row function at the global
    row `200 t + r` of half `h`. -/
theorem hy_canon (c : Dev nD) (t : Fin cfg0.N) (s : Vec Ideal S10000x128 .f32) (hs : s = supOf V c) (h : Fin 2) (r : Fin 200) (l : Fin 128) :
    View.canon [(⟨rc1, botHy (iblk V c 1 t) s (iblk V c 9 t) (iblk V c 6 t) (View.ld (iblk V c 4 t) rc1) (iblk V c 7 t) (iblk V c 8 t) (View.ld (iblk V c 5 t) rc1)⟩ : View.Piece (Elt Ideal) S2x200x128 .f32), ⟨rc0, topHy (iblk V c 0 t) s (iblk V c 9 t) (iblk V c 6 t) (View.ld (iblk V c 4 t) rc0) (iblk V c 7 t) (iblk V c 8 t) (View.ld (iblk V c 5 t) rc0)⟩] (ix3 h r l)
      = GhyAt V c h (grow t r) l := by
  subst hs
  rw [canon2_apply]
  by_cases hh : h.val = 0
  · rw [if_pos hh]
    obtain rfl : h = 0 := Fin.ext hh
    unfold topHy GhyAt
    rw [pay13_apply]
    simp only [View.ld, rc0_idx, iblk_0_apply, iblk_4_apply, iblk_5_apply, iblk_6_eq, iblk_7_eq, iblk_8_eq, iblk_9_eq]
  · rw [if_neg hh]
    obtain rfl : h = 1 := Fin.ext (by have := h.isLt; omega)
    unfold botHy GhyAt
    rw [pay4_apply]
    simp only [View.ld, rc1_idx, iblk_1_apply, iblk_4_apply, iblk_5_apply, iblk_6_eq, iblk_7_eq, iblk_8_eq, iblk_9_eq]

theorem hy_at (c : Dev nD) (t : Fin cfg0.N) (h : Fin 2) (r : Fin 200) (l : Fin 128) :
    (outsAt V c t.val t.isLt).1 (ix3 h r l) = GhyAt V c h (grow t r) l := by
  by_cases h0 : t.val = 0
  · rw [outsAt_zero V c t h0]
    dsimp only
    rw [out_A_10_eq]
    exact hy_canon V c t _ (by rw [iblk_2_eq, iblk_3_eq]; rfl) h r l
  · rw [outsAt_pos V c t h0]
    dsimp only
    rw [out_B_10_eq]
    exact hy_canon V c t _ (scratch_eq V c _ _) h r l

/-- The same at any index of the block. -/
theorem cy_at' (c : Dev nD) (t : Fin cfg0.N) (y : S2x200x128.Idx) :
    (outsAt V c t.val t.isLt).2.1 y = GcyAt V c (y 0) (grow t (y 1)) (y 2) :=
  (congrArg (outsAt V c t.val t.isLt).2.1 (eq_ix3 y)).trans (cy_at V c t (y 0) (y 1) (y 2))
theorem emb_11' (t : Fin cfg0.N) (y : S2x200x128.Idx) :
    ((cfg0.win 11).blk t).view.emb y = (ix3 (y 0) (grow t (y 1)) (y 2) : S2x5000x128.Idx) :=
  (congrArg ((cfg0.win 11).blk t).view.emb (eq_ix3 y)).trans (emb_11 t (y 0) (y 1) (y 2))

/-- The whole [2,5000,128] cell-state array the region leaves. -/
def Gcy (c : Dev nD) : Buf (Elt Ideal) ((c : Thread nD τ).loc main_call0_v8_1) :=
  fun i : S2x5000x128.Idx => GcyAt V c (i 0) (i 1) (i 2)

/-- What point `t` writes back is block `t` of it. -/
theorem flushed_11_eq (c : Dev nD) (t : Fin cfg0.N) :
    (dat0 V c).flushed 11 t = ((cfg0.win 11).blk t).view.read (Elt Ideal) (Gcy V c) := by
  show (cfg0.win 11).cut (grid0.coords t) ((dat0 V c).after 11 t) = _
  rw [after_11]
  funext y
  rw [View.read_apply]
  exact ((cy_at' V c t y).trans (show GcyAt V c (y 0) (grow t (y 1)) (y 2) = Gcy V c (ix3 (y 0) (grow t (y 1)) (y 2)) from rfl)).trans
    (congrArg (Gcy V c) (emb_11' t y)).symm

/-- The 25 blocks cover the array, so it ends at that function. -/
theorem final_11 (c : Dev nD) : (dat0 V c).arrAt 11 cfg0.N = Gcy V c :=
  (dat0 V c).arrAt_eq_of_cover 11 (Gcy V c) (fun t _ => flushed_11_eq V c t) cover_11

/-- The same at any index of the block. -/
theorem hy_at' (c : Dev nD) (t : Fin cfg0.N) (y : S2x200x128.Idx) :
    (outsAt V c t.val t.isLt).1 y = GhyAt V c (y 0) (grow t (y 1)) (y 2) :=
  (congrArg (outsAt V c t.val t.isLt).1 (eq_ix3 y)).trans (hy_at V c t (y 0) (y 1) (y 2))
theorem emb_10' (t : Fin cfg0.N) (y : S2x200x128.Idx) :
    ((cfg0.win 10).blk t).view.emb y = (ix3 (y 0) (grow t (y 1)) (y 2) : S2x5000x128.Idx) :=
  (congrArg ((cfg0.win 10).blk t).view.emb (eq_ix3 y)).trans (emb_10 t (y 0) (y 1) (y 2))

/-- The whole [2,5000,128] hidden-state array the region leaves. -/
def Ghy (c : Dev nD) : Buf (Elt Ideal) ((c : Thread nD τ).loc main_call0_v8_0) :=
  fun i : S2x5000x128.Idx => GhyAt V c (i 0) (i 1) (i 2)

/-- What point `t` writes back is block `t` of it. -/
theorem flushed_10_eq (c : Dev nD) (t : Fin cfg0.N) :
    (dat0 V c).flushed 10 t = ((cfg0.win 10).blk t).view.read (Elt Ideal) (Ghy V c) := by
  show (cfg0.win 10).cut (grid0.coords t) ((dat0 V c).after 10 t) = _
  rw [after_10]
  funext y
  rw [View.read_apply]
  exact ((hy_at' V c t y).trans (show GhyAt V c (y 0) (grow t (y 1)) (y 2) = Ghy V c (ix3 (y 0) (grow t (y 1)) (y 2)) from rfl)).trans
    (congrArg (Ghy V c) (emb_10' t y)).symm

/-- The 25 blocks cover the array, so it ends at that function. -/
theorem final_10 (c : Dev nD) : (dat0 V c).arrAt 10 cfg0.N = Ghy V c :=
  (dat0 V c).arrAt_eq_of_cover 10 (Ghy V c) (fun t _ => flushed_10_eq V c t) cover_10

end Cert.KernelIdeal.Frame

end
-- ==== Proof.HostEnds.lean ====
/-
  The host operations around the kernel call, read at an index.

  Before the call: the two gate weight matrices are transposed, the two gate biases are added, the bias vectors gain a
  unit leading axis, and the row axis of the adjacency, hidden and cell arrays is split in two halves of 5000 rows:
  row 5000 · h + R of the array is row R of half h. After the call the two halves of each result are laid end to end
  again: row R of the result is row R mod 5000 of half R / 5000.
-/
import proofs.«129324_g90469191123580_cont_sun_m_503_16_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostEnds

open Idealize.ShloMosaic ValueIdx Cert.KernelIdeal Cert.KernelIdeal.Gen

variable {F : FTy → Type} [FloatOps F]

/-! ## Before the call -/

/-- The adjacency matrix with its rows split in two halves: row `R` of half `h` is row `5000 · h + R`. -/
theorem pre_v5 (W : Valuation τ sig (Elt F)) (h : Fin 2) (R : Fin 5000) (k : Fin 10000) :
    (StableHlo.after hostOps0 W (Proc.devRef .tc main_call0_v5) : Vec F S2x5000x10000 .f32) (ix3 h R k)
      = (W (Proc.devRef .tc main_arg3) : Vec F S10000x10000 .f32) (ix2 (⟨5000 * h.val + R.val, by omega⟩ : Fin 10000) k) := by
  have e : (StableHlo.after hostOps0 W (Proc.devRef .tc main_call0_v5) : Vec F S2x5000x10000 .f32)
      = shapeCast S2x5000x10000 (W (Proc.devRef .tc main_arg3) : Vec F S10000x10000 .f32) shapeCasts_S10000x10000_S2x5000x10000 := by
    after_results
    rfl
  refine (congrFun e _).trans ?_
  exact shapeCast_apply _ _ _ _ (by
    show ((⟨2, ![10000, 10000]⟩ : Shape).rowMajor _).val = ((⟨3, ![2, 5000, 10000]⟩ : Shape).rowMajor _).val
    rw [Shape.rowMajor_val_two, Shape.rowMajor_val_three]
    show (5000 * h.val + R.val) * 10000 + k.val = (h.val * 5000 + R.val) * 10000 + k.val
    omega)

/-- The hidden state, split the same way. -/
theorem pre_v6 (W : Valuation τ sig (Elt F)) (h : Fin 2) (R : Fin 5000) (c : Fin 128) :
    (StableHlo.after hostOps0 W (Proc.devRef .tc main_call0_v6) : Vec F S2x5000x128 .f32) (ix3 h R c)
      = (W (Proc.devRef .tc main_arg1) : Vec F S10000x128 .f32) (ix2 (⟨5000 * h.val + R.val, by omega⟩ : Fin 10000) c) := by
  have e : (StableHlo.after hostOps0 W (Proc.devRef .tc main_call0_v6) : Vec F S2x5000x128 .f32)
      = shapeCast S2x5000x128 (W (Proc.devRef .tc main_arg1) : Vec F S10000x128 .f32) shapeCasts_S10000x128_S2x5000x128 := by
    after_results
    rfl
  refine (congrFun e _).trans ?_
  exact shapeCast_apply _ _ _ _ (by
    show ((⟨2, ![10000, 128]⟩ : Shape).rowMajor _).val = ((⟨3, ![2, 5000, 128]⟩ : Shape).rowMajor _).val
    rw [Shape.rowMajor_val_two, Shape.rowMajor_val_three]
    show (5000 * h.val + R.val) * 128 + c.val = (h.val * 5000 + R.val) * 128 + c.val
    omega)

/-- The cell state, split the same way. -/
theorem pre_v7 (W : Valuation τ sig (Elt F)) (h : Fin 2) (R : Fin 5000) (c : Fin 128) :
    (StableHlo.after hostOps0 W (Proc.devRef .tc main_call0_v7) : Vec F S2x5000x128 .f32) (ix3 h R c)
      = (W (Proc.devRef .tc main_arg2) : Vec F S10000x128 .f32) (ix2 (⟨5000 * h.val + R.val, by omega⟩ : Fin 10000) c) := by
  have e : (StableHlo.after hostOps0 W (Proc.devRef .tc main_call0_v7) : Vec F S2x5000x128 .f32)
      = shapeCast S2x5000x128 (W (Proc.devRef .tc main_arg2) : Vec F S10000x128 .f32) shapeCasts_S10000x128_S2x5000x128 := by
    after_results
    rfl
  refine (congrFun e _).trans ?_
  exact shapeCast_apply _ _ _ _ (by
    show ((⟨2, ![10000, 128]⟩ : Shape).rowMajor _).val = ((⟨3, ![2, 5000, 128]⟩ : Shape).rowMajor _).val
    rw [Shape.rowMajor_val_two, Shape.rowMajor_val_three]
    show (5000 * h.val + R.val) * 128 + c.val = (h.val * 5000 + R.val) * 128 + c.val
    omega)

/-- The input-to-gate weights transposed: entry `(c, q)` is the array's entry `(q, c)`. -/
theorem pre_v0 (W : Valuation τ sig (Elt F)) (c : Fin 128) (q : Fin 512) :
    (StableHlo.after hostOps0 W (Proc.devRef .tc main_call0_v0) : Vec F S128x512 .f32) (ix2 c q)
      = (W (Proc.devRef .tc main_arg5) : Vec F S512x128 .f32) (ix2 q c) := by
  have e : (StableHlo.after hostOps0 W (Proc.devRef .tc main_call0_v0) : Vec F S128x512 .f32)
      = transpose S128x512 [1, 0] (W (Proc.devRef .tc main_arg5) : Vec F S512x128 .f32) transposes_S512x128_S128x512_1_0 := by
    after_results
    rfl
  refine (congrFun e _).trans ?_
  exact transpose_ix2_apply _ _ c q

/-- The hidden-to-gate weights transposed. -/
theorem pre_v1 (W : Valuation τ sig (Elt F)) (c : Fin 128) (q : Fin 512) :
    (StableHlo.after hostOps0 W (Proc.devRef .tc main_call0_v1) : Vec F S128x512 .f32) (ix2 c q)
      = (W (Proc.devRef .tc main_arg7) : Vec F S512x128 .f32) (ix2 q c) := by
  have e : (StableHlo.after hostOps0 W (Proc.devRef .tc main_call0_v1) : Vec F S128x512 .f32)
      = transpose S128x512 [1, 0] (W (Proc.devRef .tc main_arg7) : Vec F S512x128 .f32) transposes_S512x128_S128x512_1_0 := by
    after_results
    rfl
  refine (congrFun e _).trans ?_
  exact transpose_ix2_apply _ _ c q

/-- The two gate biases added, as a one-row matrix: column `q` is the sum of the two biases at `q`. -/
theorem pre_v3 (W : Valuation τ sig (Elt Ideal)) (q : Fin 512) :
    (StableHlo.after hostOps0 W (Proc.devRef .tc main_call0_v3) : Vec Ideal S1x512 .f32) (ix2 (0 : Fin 1) q)
      = @HAdd.hAdd EReal EReal EReal _ ((W (Proc.devRef .tc main_arg6) : Vec Ideal S512 .f32) (ix1 q))
          ((W (Proc.devRef .tc main_arg8) : Vec Ideal S512 .f32) (ix1 q)) := by
  have e : (StableHlo.after hostOps0 W (Proc.devRef .tc main_call0_v3) : Vec Ideal S1x512 .f32)
      = shapeCast S1x512 (addf (F := Ideal) (s := S512) (φ := .f32) (W (Proc.devRef .tc main_arg6)) (W (Proc.devRef .tc main_arg8)))
          shapeCasts_S512_S1x512 := by
    after_results
    rfl
  refine (congrFun e _).trans ?_
  refine (shapeCast_a_1a_apply _ _ (0 : Fin 1) q).trans ?_
  rfl

/-- The convolution bias as a one-row matrix. -/
theorem pre_v4 (W : Valuation τ sig (Elt F)) (c : Fin 128) :
    (StableHlo.after hostOps0 W (Proc.devRef .tc main_call0_v4) : Vec F S1x128 .f32) (ix2 (0 : Fin 1) c)
      = (W (Proc.devRef .tc main_arg9) : Vec F S128 .f32) (ix1 c) := by
  have e : (StableHlo.after hostOps0 W (Proc.devRef .tc main_call0_v4) : Vec F S1x128 .f32)
      = shapeCast S1x128 (W (Proc.devRef .tc main_arg9) : Vec F S128 .f32) shapeCasts_S128_S1x128 := by
    after_results
    rfl
  refine (congrFun e _).trans ?_
  exact shapeCast_a_1a_apply _ _ (0 : Fin 1) c

/-! ## After the call -/

/-- The first result's two halves laid end to end: row `R` is row `R mod 5000` of half `R / 5000`. -/
theorem tail_0 (W : Valuation τ sig (Elt F)) (R : Fin 10000) (l : Fin 128) :
    (StableHlo.after hostOps1 W (Proc.devRef .tc main_v0_0) : Vec F S10000x128 .f32) (ix2 R l)
      = (W (Proc.devRef .tc main_call0_v8_0) : Vec F S2x5000x128 .f32)
          (ix3 (⟨R.val / 5000, by omega⟩ : Fin 2) (⟨R.val % 5000, by omega⟩ : Fin 5000) l) := by
  have e : (StableHlo.after hostOps1 W (Proc.devRef .tc main_v0_0) : Vec F S10000x128 .f32)
      = shapeCast S10000x128 (W (Proc.devRef .tc main_call0_v8_0) : Vec F S2x5000x128 .f32) shapeCasts_S2x5000x128_S10000x128 := by
    after_results
    rfl
  refine (congrFun e _).trans ?_
  exact shapeCast_apply _ _ _ _ (by
    show ((⟨3, ![2, 5000, 128]⟩ : Shape).rowMajor _).val = ((⟨2, ![10000, 128]⟩ : Shape).rowMajor _).val
    rw [Shape.rowMajor_val_two, Shape.rowMajor_val_three]
    show (R.val / 5000 * 5000 + R.val % 5000) * 128 + l.val = R.val * 128 + l.val
    omega)

/-- The second result's two halves laid end to end. -/
theorem tail_1 (W : Valuation τ sig (Elt F)) (R : Fin 10000) (l : Fin 128) :
    (StableHlo.after hostOps1 W (Proc.devRef .tc main_v0_1) : Vec F S10000x128 .f32) (ix2 R l)
      = (W (Proc.devRef .tc main_call0_v8_1) : Vec F S2x5000x128 .f32)
          (ix3 (⟨R.val / 5000, by omega⟩ : Fin 2) (⟨R.val % 5000, by omega⟩ : Fin 5000) l) := by
  have e : (StableHlo.after hostOps1 W (Proc.devRef .tc main_v0_1) : Vec F S10000x128 .f32)
      = shapeCast S10000x128 (W (Proc.devRef .tc main_call0_v8_1) : Vec F S2x5000x128 .f32) shapeCasts_S2x5000x128_S10000x128 := by
    after_results
    rfl
  refine (congrFun e _).trans ?_
  exact shapeCast_apply _ _ _ _ (by
    show ((⟨3, ![2, 5000, 128]⟩ : Shape).rowMajor _).val = ((⟨2, ![10000, 128]⟩ : Shape).rowMajor _).val
    rw [Shape.rowMajor_val_two, Shape.rowMajor_val_three]
    show (R.val / 5000 * 5000 + R.val % 5000) * 128 + l.val = R.val * 128 + l.val
    omega)

end Cert.KernelIdeal.HostEnds

end
-- ==== Proof.IdealFrame.KernelValue.lean ====
/-
  The kernel's two results as functions of its ARGUMENTS. The region's output arrays are the cell's row functions of
  the region-entry contents; those contents are the host prefix of the arguments — the adjacency, hidden and cell arrays
  viewed as two halves of 5000 rows (row R of half h is row 5000 h + R), the two weight matrices transposed, the two
  gate biases added, the bias as a row — and the host suffix views the [2,5000,128] results as [10000,128] again. So
  the result at (R, l) is the row function of row R of the arguments.
-/
import proofs.«129324_g90469191123580_cont_sun_m_503_16_alg».proof.Proof.IdealFrame.Launch
import proofs.«129324_g90469191123580_cont_sun_m_503_16_alg».proof.Proof.IdealFrame.Blocks
import proofs.«129324_g90469191123580_cont_sun_m_503_16_alg».proof.Proof.HostEnds

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Cols Cert.KernelIdeal.PayRows Cert.KernelIdeal.HostEnds

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- Row R of the [10000, ·] arrays is row R % 5000 of half R / 5000. -/
theorem row_split (R : Fin 10000) (h : 5000 * (R.val / 5000) + R.val % 5000 < 10000) :
    (⟨5000 * (R.val / 5000) + R.val % 5000, h⟩ : Fin 10000) = R :=
  Fin.ext (by show 5000 * (R.val / 5000) + R.val % 5000 = R.val; omega)

/-- The region-entry contents of an argument the host prefix does not write. -/
theorem V1_arg0 (c : Dev nD) : (V1 m ρ c main_arg0 : Vec Ideal S10000x128 .f32) = m ((c : Thread nD τ).loc main_arg0) :=
  keep0 _ main_arg0 (by decide)
theorem V1_arg4 (c : Dev nD) : (V1 m ρ c main_arg4 : Vec Ideal S128x128 .f32) = m ((c : Thread nD τ).loc main_arg4) :=
  keep0 _ main_arg4 (by decide)

/-- The support matrix of the region-entry contents is `x · g` of the arguments. -/
theorem supOf_apply (c : Dev nD) (k : Fin 10000) (c' : Fin 128) :
    supOf (V1 m ρ) c (ix2 k c')
      = Cert.Spec.sup (fun (k : Fin 10000) (j : Fin 128) => (m ((c : Thread nD τ).loc main_arg0) : Vec Ideal S10000x128 .f32) (ix2 k j)) (fun (j : Fin 128) (c' : Fin 128) => (m ((c : Thread nD τ).loc main_arg4) : Vec Ideal S128x128 .f32) (ix2 j c')) k c' := by
  unfold supOf
  rw [pay5_apply, V1_arg0, V1_arg4]

/-- The cell-state result at (R, l): the row function of row R of the arguments. -/
theorem result_cy (c : Dev nD) (R : Fin 10000) (l : Fin 128) :
    (W3 m ρ c (Proc.devRef .tc main_v0_1) : Vec Ideal S10000x128 .f32) (ix2 R l)
      = Cert.Spec.cy (fun k : Fin 10000 => (m ((c : Thread nD τ).loc main_arg3) : Vec Ideal S10000x10000 .f32) (ix2 R k))
      (fun c' : Fin 128 => (m ((c : Thread nD τ).loc main_arg1) : Vec Ideal S10000x128 .f32) (ix2 R c'))
      (fun c' : Fin 128 => (m ((c : Thread nD τ).loc main_arg2) : Vec Ideal S10000x128 .f32) (ix2 R c'))
      (Cert.Spec.sup (fun (k : Fin 10000) (j : Fin 128) => (m ((c : Thread nD τ).loc main_arg0) : Vec Ideal S10000x128 .f32) (ix2 k j)) (fun (j : Fin 128) (c' : Fin 128) => (m ((c : Thread nD τ).loc main_arg4) : Vec Ideal S128x128 .f32) (ix2 j c')))
      (fun (c' : Fin 128) (q : Fin 512) => (m ((c : Thread nD τ).loc main_arg5) : Vec Ideal S512x128 .f32) (ix2 q c'))
      (fun (c' : Fin 128) (q : Fin 512) => (m ((c : Thread nD τ).loc main_arg7) : Vec Ideal S512x128 .f32) (ix2 q c'))
      (fun q : Fin 512 => @HAdd.hAdd EReal EReal EReal _ ((m ((c : Thread nD τ).loc main_arg6) : Vec Ideal S512 .f32) (ix1 q)) ((m ((c : Thread nD τ).loc main_arg8) : Vec Ideal S512 .f32) (ix1 q)))
      (fun c' : Fin 128 => (m ((c : Thread nD τ).loc main_arg9) : Vec Ideal S128 .f32) (ix1 c')) colI colF colU l := by
  show (StableHlo.after hostOps1 (W2 m ρ c) (Proc.devRef .tc main_v0_1) : Vec Ideal S10000x128 .f32) (ix2 R l) = _
  rw [tail_1]
  have hW : (W2 m ρ c (Proc.devRef .tc main_call0_v8_1) : Vec Ideal S2x5000x128 .f32) = Gcy (V1 m ρ) c :=
    (W2_11 m ρ c).trans (final_11 (V1 m ρ) c)
  rw [hW]
  show GcyAt (V1 m ρ) c _ _ _ = _
  unfold GcyAt
  have e5 : ∀ (h : Fin 2) (R5 : Fin 5000) (k : Fin 10000), (V1 m ρ c main_call0_v5 : Vec Ideal S2x5000x10000 .f32) (ix3 h R5 k) = (m ((c : Thread nD τ).loc main_arg3) : Vec Ideal S10000x10000 .f32) (ix2 (⟨5000 * h.val + R5.val, by omega⟩ : Fin 10000) k) :=
    fun h R5 k => pre_v5 (W0 m ρ c) h R5 k
  have e6 : ∀ (h : Fin 2) (R5 : Fin 5000) (c' : Fin 128), (V1 m ρ c main_call0_v6 : Vec Ideal S2x5000x128 .f32) (ix3 h R5 c') = (m ((c : Thread nD τ).loc main_arg1) : Vec Ideal S10000x128 .f32) (ix2 (⟨5000 * h.val + R5.val, by omega⟩ : Fin 10000) c') :=
    fun h R5 c' => pre_v6 (W0 m ρ c) h R5 c'
  have e7 : ∀ (h : Fin 2) (R5 : Fin 5000) (c' : Fin 128), (V1 m ρ c main_call0_v7 : Vec Ideal S2x5000x128 .f32) (ix3 h R5 c') = (m ((c : Thread nD τ).loc main_arg2) : Vec Ideal S10000x128 .f32) (ix2 (⟨5000 * h.val + R5.val, by omega⟩ : Fin 10000) c') :=
    fun h R5 c' => pre_v7 (W0 m ρ c) h R5 c'
  have e0 : ∀ (c' : Fin 128) (q : Fin 512), (V1 m ρ c main_call0_v0 : Vec Ideal S128x512 .f32) (ix2 c' q) = (m ((c : Thread nD τ).loc main_arg5) : Vec Ideal S512x128 .f32) (ix2 q c') :=
    fun c' q => pre_v0 (W0 m ρ c) c' q
  have e1 : ∀ (c' : Fin 128) (q : Fin 512), (V1 m ρ c main_call0_v1 : Vec Ideal S128x512 .f32) (ix2 c' q) = (m ((c : Thread nD τ).loc main_arg7) : Vec Ideal S512x128 .f32) (ix2 q c') :=
    fun c' q => pre_v1 (W0 m ρ c) c' q
  have e3 : ∀ q : Fin 512, (V1 m ρ c main_call0_v3 : Vec Ideal S1x512 .f32) (ix2 (0 : Fin 1) q) = @HAdd.hAdd EReal EReal EReal _ ((m ((c : Thread nD τ).loc main_arg6) : Vec Ideal S512 .f32) (ix1 q)) ((m ((c : Thread nD τ).loc main_arg8) : Vec Ideal S512 .f32) (ix1 q)) :=
    fun q => pre_v3 (W0 m ρ c) q
  have e4 : ∀ c' : Fin 128, (V1 m ρ c main_call0_v4 : Vec Ideal S1x128 .f32) (ix2 (0 : Fin 1) c') = (m ((c : Thread nD τ).loc main_arg9) : Vec Ideal S128 .f32) (ix1 c') :=
    fun c' => pre_v4 (W0 m ρ c) c'
  simp only [e5, e6, e7, e0, e1, e3, e4, supOf_apply, row_split]

/-- The hidden-state result at (R, l): the row function of row R of the arguments. -/
theorem result_hy (c : Dev nD) (R : Fin 10000) (l : Fin 128) :
    (W3 m ρ c (Proc.devRef .tc main_v0_0) : Vec Ideal S10000x128 .f32) (ix2 R l)
      = Cert.Spec.hy (fun k : Fin 10000 => (m ((c : Thread nD τ).loc main_arg3) : Vec Ideal S10000x10000 .f32) (ix2 R k))
      (fun c' : Fin 128 => (m ((c : Thread nD τ).loc main_arg1) : Vec Ideal S10000x128 .f32) (ix2 R c'))
      (fun c' : Fin 128 => (m ((c : Thread nD τ).loc main_arg2) : Vec Ideal S10000x128 .f32) (ix2 R c'))
      (Cert.Spec.sup (fun (k : Fin 10000) (j : Fin 128) => (m ((c : Thread nD τ).loc main_arg0) : Vec Ideal S10000x128 .f32) (ix2 k j)) (fun (j : Fin 128) (c' : Fin 128) => (m ((c : Thread nD τ).loc main_arg4) : Vec Ideal S128x128 .f32) (ix2 j c')))
      (fun (c' : Fin 128) (q : Fin 512) => (m ((c : Thread nD τ).loc main_arg5) : Vec Ideal S512x128 .f32) (ix2 q c'))
      (fun (c' : Fin 128) (q : Fin 512) => (m ((c : Thread nD τ).loc main_arg7) : Vec Ideal S512x128 .f32) (ix2 q c'))
      (fun q : Fin 512 => @HAdd.hAdd EReal EReal EReal _ ((m ((c : Thread nD τ).loc main_arg6) : Vec Ideal S512 .f32) (ix1 q)) ((m ((c : Thread nD τ).loc main_arg8) : Vec Ideal S512 .f32) (ix1 q)))
      (fun c' : Fin 128 => (m ((c : Thread nD τ).loc main_arg9) : Vec Ideal S128 .f32) (ix1 c')) colI colF colU colO l := by
  show (StableHlo.after hostOps1 (W2 m ρ c) (Proc.devRef .tc main_v0_0) : Vec Ideal S10000x128 .f32) (ix2 R l) = _
  rw [tail_0]
  have hW : (W2 m ρ c (Proc.devRef .tc main_call0_v8_0) : Vec Ideal S2x5000x128 .f32) = Ghy (V1 m ρ) c :=
    (W2_10 m ρ c).trans (final_10 (V1 m ρ) c)
  rw [hW]
  show GhyAt (V1 m ρ) c _ _ _ = _
  unfold GhyAt
  have e5 : ∀ (h : Fin 2) (R5 : Fin 5000) (k : Fin 10000), (V1 m ρ c main_call0_v5 : Vec Ideal S2x5000x10000 .f32) (ix3 h R5 k) = (m ((c : Thread nD τ).loc main_arg3) : Vec Ideal S10000x10000 .f32) (ix2 (⟨5000 * h.val + R5.val, by omega⟩ : Fin 10000) k) :=
    fun h R5 k => pre_v5 (W0 m ρ c) h R5 k
  have e6 : ∀ (h : Fin 2) (R5 : Fin 5000) (c' : Fin 128), (V1 m ρ c main_call0_v6 : Vec Ideal S2x5000x128 .f32) (ix3 h R5 c') = (m ((c : Thread nD τ).loc main_arg1) : Vec Ideal S10000x128 .f32) (ix2 (⟨5000 * h.val + R5.val, by omega⟩ : Fin 10000) c') :=
    fun h R5 c' => pre_v6 (W0 m ρ c) h R5 c'
  have e7 : ∀ (h : Fin 2) (R5 : Fin 5000) (c' : Fin 128), (V1 m ρ c main_call0_v7 : Vec Ideal S2x5000x128 .f32) (ix3 h R5 c') = (m ((c : Thread nD τ).loc main_arg2) : Vec Ideal S10000x128 .f32) (ix2 (⟨5000 * h.val + R5.val, by omega⟩ : Fin 10000) c') :=
    fun h R5 c' => pre_v7 (W0 m ρ c) h R5 c'
  have e0 : ∀ (c' : Fin 128) (q : Fin 512), (V1 m ρ c main_call0_v0 : Vec Ideal S128x512 .f32) (ix2 c' q) = (m ((c : Thread nD τ).loc main_arg5) : Vec Ideal S512x128 .f32) (ix2 q c') :=
    fun c' q => pre_v0 (W0 m ρ c) c' q
  have e1 : ∀ (c' : Fin 128) (q : Fin 512), (V1 m ρ c main_call0_v1 : Vec Ideal S128x512 .f32) (ix2 c' q) = (m ((c : Thread nD τ).loc main_arg7) : Vec Ideal S512x128 .f32) (ix2 q c') :=
    fun c' q => pre_v1 (W0 m ρ c) c' q
  have e3 : ∀ q : Fin 512, (V1 m ρ c main_call0_v3 : Vec Ideal S1x512 .f32) (ix2 (0 : Fin 1) q) = @HAdd.hAdd EReal EReal EReal _ ((m ((c : Thread nD τ).loc main_arg6) : Vec Ideal S512 .f32) (ix1 q)) ((m ((c : Thread nD τ).loc main_arg8) : Vec Ideal S512 .f32) (ix1 q)) :=
    fun q => pre_v3 (W0 m ρ c) q
  have e4 : ∀ c' : Fin 128, (V1 m ρ c main_call0_v4 : Vec Ideal S1x128 .f32) (ix2 (0 : Fin 1) c') = (m ((c : Thread nD τ).loc main_arg9) : Vec Ideal S128 .f32) (ix1 c') :=
    fun c' => pre_v4 (W0 m ρ c) c'
  simp only [e5, e6, e7, e0, e1, e3, e4, supOf_apply, row_split]

end Cert.KernelIdeal.Frame

end
-- ==== Proof.RefRows.lean ====
/-
  The reference graph-convolution LSTM cell, read one row and one lane at a time.

  Each result element of the reference is a function of one row of the adjacency matrix, of the hidden and cell
  states, and of the whole weight arrays; that function is the row specification of `Cert.Spec`:
    support  = x · g,   conv = max (adj · support) 0 + bias,
    gates    = ((conv · Wxᵀ + bx) + h · Whᵀ) + bh = (conv · Wxᵀ + h · Whᵀ) + (bx + bh),
    the four gates are the column bands 0, 128, 256, 384 of the gate matrix,
    σ z = 1 / (1 + exp (-z)),   cy = cx · σ f + σ i · tanh u,   hy = σ o · tanh cy.
-/
import proofs.«129324_g90469191123580_cont_sun_m_503_16_alg».proof.Proof.Gen.ReferenceIdeal.Read
import proofs.«129324_g90469191123580_cont_sun_m_503_16_alg».proof.Proof.LibGcLstmRow
import proofs.«129324_g90469191123580_cont_sun_m_503_16_alg».proof.Proof.GateCols
import Idealize.ShloMosaic.Lib.ValueIdx
import Idealize.ShloMosaic.Lib.IdealHost
import Idealize.ShloMosaic.PureOps.Ideal.Laws

noncomputable section

namespace Cert.ReferenceIdeal.RefRows

open Idealize.ShloMosaic ValueIdx Cert.ReferenceIdeal Cert.ReferenceIdeal.Read Cert.Cols

variable (x0 x1 x2 : (⟨S10000x128, .f32⟩ : BufTy).Contents (Elt Ideal)) (x3 : (⟨S10000x10000, .f32⟩ : BufTy).Contents (Elt Ideal)) (x4 : (⟨S128x128, .f32⟩ : BufTy).Contents (Elt Ideal))
  (x5 : (⟨S512x128, .f32⟩ : BufTy).Contents (Elt Ideal)) (x6 : (⟨S512, .f32⟩ : BufTy).Contents (Elt Ideal)) (x7 : (⟨S512x128, .f32⟩ : BufTy).Contents (Elt Ideal)) (x8 : (⟨S512, .f32⟩ : BufTy).Contents (Elt Ideal)) (x9 : (⟨S128, .f32⟩ : BufTy).Contents (Elt Ideal))

/-- The support matrix of the specification, from the feature and graph-weight arrays. -/
abbrev supOf : Fin 10000 → Fin 128 → EReal :=
  Cert.Spec.sup (fun (k : Fin 10000) (j : Fin 128) => x0 (ix2 k j)) (fun (j : Fin 128) (c : Fin 128) => x4 (ix2 j c))

/-- The gate pre-activation of row `r` at column `q`, in the specification's terms. -/
abbrev gateOf (r : Fin 10000) (q : Fin 512) : EReal :=
  Cert.Spec.gate (fun k : Fin 10000 => x3 (ix2 r k)) (fun c : Fin 128 => x1 (ix2 r c)) (supOf x0 x4)
    (fun (c : Fin 128) (q : Fin 512) => x5 (ix2 q c)) (fun (c : Fin 128) (q : Fin 512) => x7 (ix2 q c))
    (fun q : Fin 512 => x6 (ix1 q) + x8 (ix1 q)) (fun c : Fin 128 => x9 (ix1 c)) q

/-- The first product, x · g, is the support matrix. -/
theorem sup_row (k : Fin 10000) (c : Fin 128) :
    val_main_v0 (F := Ideal) x0 x4 (ix2 k c) = supOf x0 x4 k c := by
  rw [val_main_v0_apply]
  unfold supOf Cert.Spec.sup
  refine Finset.sum_congr rfl fun j _ => ?_
  have e1 : lidx_main_v0 (ix2 k c) j = ix2 k j := funext fun a => by
    match a with | ⟨0, _⟩ => rfl | ⟨1, _⟩ => rfl
  have e2 : ridx_main_v0 (ix2 k c) j = ix2 j c := funext fun a => by
    match a with | ⟨0, _⟩ => rfl | ⟨1, _⟩ => rfl
  rw [e1, e2]

/-- The convolution stage: neighbours aggregated, positive part, bias. -/
theorem conv_row (r : Fin 10000) (c : Fin 128) :
    val_main_v5 (F := Ideal) x0 x3 x4 x9 (ix2 r c)
      = Cert.Spec.conv (fun k : Fin 10000 => x3 (ix2 r k)) (supOf x0 x4) (fun c : Fin 128 => x9 (ix1 c)) c := by
  rw [val_main_v5_apply, val_main_v2_apply, val_main_v1_apply, val_main_v4_apply, val_main_v3_apply,
    val_main_call0_v0_apply, val_main_call0_cst_apply]
  simp only [Ideal.addf_def, Ideal.maximumf_def, Ideal.ofBits_def, Ideal.ofBits_zero_f32]
  unfold Cert.Spec.conv
  have eb : idx_main_v3 (idx_main_v4 (ix2 r c)) = ix1 c := funext fun a => by
    match a with | ⟨0, _⟩ => rfl
  rw [eb]
  congr 2
  refine Finset.sum_congr rfl fun k _ => ?_
  have e1 : lidx_main_v1 (ix2 r c) k = ix2 r k := funext fun a => by
    match a with | ⟨0, _⟩ => rfl | ⟨1, _⟩ => rfl
  have e2 : ridx_main_v1 (ix2 r c) k = ix2 k c := funext fun a => by
    match a with | ⟨0, _⟩ => rfl | ⟨1, _⟩ => rfl
  rw [e1, e2, sup_row]

/-- The gate matrix before the four bands are cut out: the two biases, added one at a time by the reference, are
    added as their sum by the specification. -/
theorem gate_row (r : Fin 10000) (q : Fin 512) :
    val_main_v16 (F := Ideal) x0 x1 x3 x4 x5 x6 x7 x8 x9 (ix2 r q) = gateOf x0 x1 x3 x4 x5 x6 x7 x8 x9 r q := by
  rw [val_main_v16_apply, val_main_v13_apply, val_main_v10_apply, val_main_v7_apply, val_main_v12_apply,
    val_main_v9_apply, val_main_v8_apply, val_main_v15_apply, val_main_v14_apply]
  simp only [Ideal.addf_def]
  rw [Cert.Spec.gate_bias_split]
  unfold gateOf Cert.Spec.gate
  have eb1 : idx_main_v8 (idx_main_v9 (ix2 r q)) = ix1 q := funext fun a => by
    match a with | ⟨0, _⟩ => rfl
  have eb2 : idx_main_v14 (idx_main_v15 (ix2 r q)) = ix1 q := funext fun a => by
    match a with | ⟨0, _⟩ => rfl
  rw [eb1, eb2]
  congr 2
  · refine Finset.sum_congr rfl fun k _ => ?_
    have e1 : lidx_main_v7 (ix2 r q) k = ix2 r k := funext fun a => by
      match a with | ⟨0, _⟩ => rfl | ⟨1, _⟩ => rfl
    have e2 : idx_main_v6 (ridx_main_v7 (ix2 r q) k) = ix2 q k := funext fun a => by
      match a with | ⟨0, _⟩ => rfl | ⟨1, _⟩ => rfl
    rw [val_main_v6_apply, e1, e2, conv_row]
  · refine Finset.sum_congr rfl fun k _ => ?_
    have e1 : lidx_main_v12 (ix2 r q) k = ix2 r k := funext fun a => by
      match a with | ⟨0, _⟩ => rfl | ⟨1, _⟩ => rfl
    have e2 : idx_main_v11 (ridx_main_v12 (ix2 r q) k) = ix2 q k := funext fun a => by
      match a with | ⟨0, _⟩ => rfl | ⟨1, _⟩ => rfl
    rw [val_main_v11_apply, e1, e2]

/-- The logistic function as the reference spells it: one over one plus the exponential of the negation. -/
theorem sigmoid_spelled (z : EReal) :
    Ideal.div (Ideal.ofBits .f32 0x3F800000#32) (Ideal.ofBits .f32 0x3F800000#32 + Ideal.exp (-z)) = Ideal.logistic z := by
  rw [Ideal.ofBits_one_f32]; rfl

/-- The input gate: the band of columns 0 … 127. -/
theorem sig_i (r : Fin 10000) (l : Fin 128) :
    val_main_v26 (F := Ideal) x0 x1 x3 x4 x5 x6 x7 x8 x9 (ix2 r l)
      = Ideal.logistic (gateOf x0 x1 x3 x4 x5 x6 x7 x8 x9 r (colI l)) := by
  rw [val_main_v26_apply, val_main_v25_apply, val_main_cst_0_apply, val_main_v24_apply, val_main_v23_apply,
    val_main_cst_apply, val_main_v22_apply, val_main_v21_apply, val_main_v17_apply]
  have e : idx_main_v17 (ix2 r l) = ix2 r (colI l) := funext fun a => by
    match a with | ⟨0, _⟩ => rfl | ⟨1, _⟩ => rfl
  rw [e, gate_row]
  simp only [Ideal.addf_def, Ideal.hostDivf_def, Ideal.hostUnary_exp_def, Ideal.hostNegf_def, Ideal.negf_def, Ideal.ofBits_def]
  exact sigmoid_spelled _

/-- The forget gate: the band of columns 128 … 255. -/
theorem sig_f (r : Fin 10000) (l : Fin 128) :
    val_main_v32 (F := Ideal) x0 x1 x3 x4 x5 x6 x7 x8 x9 (ix2 r l)
      = Ideal.logistic (gateOf x0 x1 x3 x4 x5 x6 x7 x8 x9 r (colF l)) := by
  rw [val_main_v32_apply, val_main_v31_apply, val_main_cst_2_apply, val_main_v30_apply, val_main_v29_apply,
    val_main_cst_1_apply, val_main_v28_apply, val_main_v27_apply, val_main_v18_apply]
  have e : idx_main_v18 (ix2 r l) = ix2 r (colF l) := funext fun a => by
    match a with
    | ⟨0, _⟩ => rfl
    | ⟨1, _⟩ => exact Fin.ext (by show 128 + l.val = l.val + 128; omega)
  rw [e, gate_row]
  simp only [Ideal.addf_def, Ideal.hostDivf_def, Ideal.hostUnary_exp_def, Ideal.hostNegf_def, Ideal.negf_def, Ideal.ofBits_def]
  exact sigmoid_spelled _

/-- The cell candidate: the band of columns 256 … 383. -/
theorem tanh_u (r : Fin 10000) (l : Fin 128) :
    val_main_v33 (F := Ideal) x0 x1 x3 x4 x5 x6 x7 x8 x9 (ix2 r l)
      = Ideal.tanh (gateOf x0 x1 x3 x4 x5 x6 x7 x8 x9 r (colU l)) := by
  rw [val_main_v33_apply, val_main_v19_apply]
  have e : idx_main_v19 (ix2 r l) = ix2 r (colU l) := funext fun a => by
    match a with
    | ⟨0, _⟩ => rfl
    | ⟨1, _⟩ => exact Fin.ext (by show 256 + l.val = l.val + 256; omega)
  rw [e, gate_row]
  simp only [Ideal.hostUnary_tanh_def]

/-- The output gate: the band of columns 384 … 511. -/
theorem sig_o (r : Fin 10000) (l : Fin 128) :
    val_main_v39 (F := Ideal) x0 x1 x3 x4 x5 x6 x7 x8 x9 (ix2 r l)
      = Ideal.logistic (gateOf x0 x1 x3 x4 x5 x6 x7 x8 x9 r (colO l)) := by
  rw [val_main_v39_apply, val_main_v38_apply, val_main_cst_4_apply, val_main_v37_apply, val_main_v36_apply,
    val_main_cst_3_apply, val_main_v35_apply, val_main_v34_apply, val_main_v20_apply]
  have e : idx_main_v20 (ix2 r l) = ix2 r (colO l) := funext fun a => by
    match a with
    | ⟨0, _⟩ => rfl
    | ⟨1, _⟩ => exact Fin.ext (by show 384 + l.val = l.val + 384; omega)
  rw [e, gate_row]
  simp only [Ideal.addf_def, Ideal.hostDivf_def, Ideal.hostUnary_exp_def, Ideal.hostNegf_def, Ideal.negf_def, Ideal.ofBits_def]
  exact sigmoid_spelled _

/-- The reference's new cell state at row `r`, lane `l` is the specification's. -/
theorem ref_cy (r : Fin 10000) (l : Fin 128) :
    val_main_v42 (F := Ideal) x0 x1 x2 x3 x4 x5 x6 x7 x8 x9 (ix2 r l)
      = Cert.Spec.cy (fun k : Fin 10000 => x3 (ix2 r k)) (fun c : Fin 128 => x1 (ix2 r c)) (fun c : Fin 128 => x2 (ix2 r c))
          (Cert.Spec.sup (fun (k : Fin 10000) (j : Fin 128) => x0 (ix2 k j)) (fun (j : Fin 128) (c : Fin 128) => x4 (ix2 j c)))
          (fun (c : Fin 128) (q : Fin 512) => x5 (ix2 q c)) (fun (c : Fin 128) (q : Fin 512) => x7 (ix2 q c))
          (fun q : Fin 512 => x6 (ix1 q) + x8 (ix1 q)) (fun c : Fin 128 => x9 (ix1 c)) colI colF colU l := by
  rw [val_main_v42_apply, val_main_v40_apply, val_main_v41_apply, sig_f, sig_i, tanh_u]
  simp only [Ideal.addf_def, Ideal.mulf_def]
  rfl

/-- The reference's new hidden state at row `r`, lane `l` is the specification's. -/
theorem ref_hy (r : Fin 10000) (l : Fin 128) :
    val_main_v44 (F := Ideal) x0 x1 x2 x3 x4 x5 x6 x7 x8 x9 (ix2 r l)
      = Cert.Spec.hy (fun k : Fin 10000 => x3 (ix2 r k)) (fun c : Fin 128 => x1 (ix2 r c)) (fun c : Fin 128 => x2 (ix2 r c))
          (Cert.Spec.sup (fun (k : Fin 10000) (j : Fin 128) => x0 (ix2 k j)) (fun (j : Fin 128) (c : Fin 128) => x4 (ix2 j c)))
          (fun (c : Fin 128) (q : Fin 512) => x5 (ix2 q c)) (fun (c : Fin 128) (q : Fin 512) => x7 (ix2 q c))
          (fun q : Fin 512 => x6 (ix1 q) + x8 (ix1 q)) (fun c : Fin 128 => x9 (ix1 c)) colI colF colU colO l := by
  rw [val_main_v44_apply, val_main_v43_apply, sig_o, ref_cy]
  simp only [Ideal.mulf_def, Ideal.hostUnary_tanh_def]
  rfl

end Cert.ReferenceIdeal.RefRows

end
-- ==== Proof.lean ====
/-
  The proof of `Cert.Claim`: a graph-convolution LSTM cell computed by one Pallas kernel against its jnp reference.

  Both programs compute, for every node (row) R and lane l,
      support = x · g,   xs = max(adj · support, 0) + bias,   gates = xs · W_x2hᵀ + hx · W_h2hᵀ + b_x2h + b_h2h,
      cy = cx · σ(f) + σ(i) · tanh(u),   hy = σ(o) · tanh(cy),
  with i, f, u, o the four 128-column bands of the gates. The kernel streams the adjacency matrix as two row stripes
  per grid point (the top and bottom halves of the rows), keeps the support in a scratch buffer written at the first
  grid point, and adds the two gate biases before the call; the reference adds them one after the other around the
  hidden product. Over the extended reals these are one function: every sum is taken in the same order on both sides,
  the logistic function is by definition 1 / (1 + exp (−z)) on both sides, and regrouping the two bias additions uses
  only commutativity and associativity of addition, so the precondition is never opened.

  The frames: the kernel program (at the word level and idealized) by the launch of its one region between two host
  stretches, the body run once for the first grid point and once for a later one; the reference by its run.
-/
import proofs.«129324_g90469191123580_cont_sun_m_503_16_alg».proof.Defs
import proofs.«129324_g90469191123580_cont_sun_m_503_16_alg».proof.Proof.Gen.Kernel
import proofs.«129324_g90469191123580_cont_sun_m_503_16_alg».proof.Proof.Gen.KernelIdeal
import proofs.«129324_g90469191123580_cont_sun_m_503_16_alg».proof.Proof.Gen.ReferenceIdeal
import proofs.«129324_g90469191123580_cont_sun_m_503_16_alg».proof.Proof.Gen.Pre_finite_inputs
import proofs.«129324_g90469191123580_cont_sun_m_503_16_alg».proof.Proof.Gen.ReferenceIdeal.Run
import proofs.«129324_g90469191123580_cont_sun_m_503_16_alg».proof.Proof.Gen.ReferenceIdeal.Read
import proofs.«129324_g90469191123580_cont_sun_m_503_16_alg».proof.Proof.BitsFrame.Launch
import proofs.«129324_g90469191123580_cont_sun_m_503_16_alg».proof.Proof.IdealFrame.KernelValue
import proofs.«129324_g90469191123580_cont_sun_m_503_16_alg».proof.Proof.RefRows
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Frame.frame m ρ

theorem frame_ki : Cert.frame_KernelIdeal := fun m ρ _ => Cert.KernelIdeal.Frame.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

open Cert.KernelIdeal.Frame in
/-- Run from memories agreeing on the ten arguments, both programs end with the same two result arrays: at (R, l) each
    is the cell's row function of row R of the arguments. -/
theorem algebraic : Cert.algebraic_KernelIdeal_ReferenceIdeal := by
  intro m ρ m' ρ' _ hagree
  refine ⟨fun c => W3 m ρ c (Proc.devRef .tc Cert.KernelIdeal.main_v0_0), fun c => W3 m ρ c (Proc.devRef .tc Cert.KernelIdeal.main_v0_1), ?_, ?_⟩
  · exact (θ_run Cert.KernelIdeal.defs _ _).mono (fun _ h c => ⟨h c _ (mem_uc Cert.KernelIdeal.main_v0_0 (by decide)), h c _ (mem_uc Cert.KernelIdeal.main_v0_1 (by decide)),
      (h c _ (mem_uc Cert.KernelIdeal.main_arg0 (by decide))).trans (W3_arg m ρ c Cert.KernelIdeal.main_arg0 (by decide) (by decide) (by decide) (by decide)),
      (h c _ (mem_uc Cert.KernelIdeal.main_arg1 (by decide))).trans (W3_arg m ρ c Cert.KernelIdeal.main_arg1 (by decide) (by decide) (by decide) (by decide)),
      (h c _ (mem_uc Cert.KernelIdeal.main_arg2 (by decide))).trans (W3_arg m ρ c Cert.KernelIdeal.main_arg2 (by decide) (by decide) (by decide) (by decide)),
      (h c _ (mem_uc Cert.KernelIdeal.main_arg3 (by decide))).trans (W3_arg m ρ c Cert.KernelIdeal.main_arg3 (by decide) (by decide) (by decide) (by decide)),
      (h c _ (mem_uc Cert.KernelIdeal.main_arg4 (by decide))).trans (W3_arg m ρ c Cert.KernelIdeal.main_arg4 (by decide) (by decide) (by decide) (by decide)),
      (h c _ (mem_uc Cert.KernelIdeal.main_arg5 (by decide))).trans (W3_arg m ρ c Cert.KernelIdeal.main_arg5 (by decide) (by decide) (by decide) (by decide)),
      (h c _ (mem_uc Cert.KernelIdeal.main_arg6 (by decide))).trans (W3_arg m ρ c Cert.KernelIdeal.main_arg6 (by decide) (by decide) (by decide) (by decide)),
      (h c _ (mem_uc Cert.KernelIdeal.main_arg7 (by decide))).trans (W3_arg m ρ c Cert.KernelIdeal.main_arg7 (by decide) (by decide) (by decide) (by decide)),
      (h c _ (mem_uc Cert.KernelIdeal.main_arg8 (by decide))).trans (W3_arg m ρ c Cert.KernelIdeal.main_arg8 (by decide) (by decide) (by decide) (by decide)),
      (h c _ (mem_uc Cert.KernelIdeal.main_arg9 (by decide))).trans (W3_arg m ρ c Cert.KernelIdeal.main_arg9 (by decide) (by decide) (by decide) (by decide))⟩) (run_W3 m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v44_eq]
      funext i
      obtain ⟨R, l, rfl⟩ : ∃ (R : Fin 10000) (l : Fin 128), i = ix2 R l := ⟨i 0, i 1, eq_ix2 i⟩
      rw [Cert.ReferenceIdeal.RefRows.ref_hy, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
      exact (result_hy m ρ c R l).symm
    · rw [Cert.ReferenceIdeal.Read.val_main_v42_eq]
      funext i
      obtain ⟨R, l, rfl⟩ : ∃ (R : Fin 10000) (l : Fin 128), i = ix2 R l := ⟨i 0, i 1, eq_ix2 i⟩
      rw [Cert.ReferenceIdeal.RefRows.ref_cy, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
      exact (result_cy m ρ c R l).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
